-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S_ : Shape := ⟨0, ![]⟩
abbrev S512x4096 : Shape := ⟨2, ![512, 4096]⟩
abbrev S256x4096 : Shape := ⟨2, ![256, 4096]⟩
abbrev S512x256 : Shape := ⟨2, ![512, 256]⟩
abbrev S128x4096 : Shape := ⟨2, ![128, 4096]⟩
abbrev S128 : Shape := ⟨1, ![128]⟩
abbrev S128x1 : Shape := ⟨2, ![128, 1]⟩

abbrev nBuf : Space → Nat
  | .hbm => 64
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .bf16⟩
  | .hbm, ⟨43, _⟩ => ⟨S8192x4096, .f32⟩
  | .hbm, ⟨44, _⟩ => ⟨S4096x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S4096x4096, .bf16⟩
  | .hbm, ⟨63, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .bf16⟩
  | .local _ .vmem, ⟨3, _⟩ => ⟨S256x4096, .bf16⟩
  | .local _ .vmem, ⟨4, _⟩ => ⟨S512x256, .f32⟩
  | .local _ .vmem, ⟨5, _⟩ => ⟨S512x256, .f32⟩
  | .local _ .vmem, ⟨6, _⟩ => ⟨S512x4096, .bf16⟩
  | .local _ .vmem, ⟨7, _⟩ => ⟨S512x4096, .f32⟩
  | .local _ .vmem, ⟨8, _⟩ => ⟨S512x4096, .f32⟩
  | .local _ .vmem, ⟨9, _⟩ => ⟨S256x4096, .bf16⟩
  | .local _ .vmem, ⟨10, _⟩ => ⟨S256x4096, .bf16⟩
  | .local _ .vmem, ⟨11, _⟩ => ⟨S512x256, .f32⟩
  | .local _ .vmem, ⟨12, _⟩ => ⟨S512x256, .f32⟩
  | .local _ .vmem, ⟨13, _⟩ => ⟨S512x4096, .bf16⟩
  | .local _ .vmem, ⟨14, _⟩ => ⟨S512x4096, .f32⟩
  | .local _ .vmem, ⟨15, _⟩ => ⟨S512x4096, .f32⟩
  | .local _ .vmem, ⟨16, _⟩ => ⟨S256x4096, .bf16⟩
  | .local _ .vmem, ⟨17, _⟩ => ⟨S256x4096, .bf16⟩
  | .local _ .vmem, ⟨18, _⟩ => ⟨S512x256, .f32⟩
  | .local _ .vmem, ⟨19, _⟩ => ⟨S512x256, .f32⟩
  | .local _ .vmem, ⟨20, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_cst_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_cst_8 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_9 : Ref sig .tc := ⟨.hbm, 45, rfl⟩
abbrev main_v21 : Ref sig .tc := ⟨.hbm, 46, rfl⟩
abbrev main_cst_10 : Ref sig .tc := ⟨.hbm, 47, rfl⟩
abbrev main_v22 : Ref sig .tc := ⟨.hbm, 48, rfl⟩
abbrev main_cst_11 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_12 : Ref sig .tc := ⟨.hbm, 54, rfl⟩
abbrev main_cst_13 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_6 : BitVec 32 := 0#32
  let c128_i32 : BitVec 32 := 128#32
  let v8 : BitVec 32 := Scalar.muli c0_i32_6 c128_i32
  v8
def k0_off1 (c0_i32_6 : BitVec 32) : Fin 2 → Nat :=
  let c128_i32 : BitVec 32 := 128#32
  let v8 : BitVec 32 := Scalar.muli c0_i32_6 c128_i32
  let v9 : BitVec 32 := v8
  let v10 : Index := Scalar.indexCast v9
  let c0_7 : Index := 0#32
  ![v10.toNat, 0]
def k0_mult2 : BitVec 32 :=
  let c1_i32 : BitVec 32 := 1#32
  let c128_i32_12 : BitVec 32 := 128#32
  let v29 : BitVec 32 := Scalar.muli c1_i32 c128_i32_12
  v29
def k0_mult3 : BitVec 32 :=
  let c2_i32 : BitVec 32 := 2#32
  let c128_i32_18 : BitVec 32 := 128#32
  let v50 : BitVec 32 := Scalar.muli c2_i32 c128_i32_18
  v50
def k0_mult4 : BitVec 32 :=
  let c3_i32 : BitVec 32 := 3#32
  let c128_i32_24 : BitVec 32 := 128#32
  let v71 : BitVec 32 := Scalar.muli c3_i32 c128_i32_24
  v71
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 16], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_mult1 : BitVec 32 :=
  let c0_i32_6 : BitVec 32 := 0#32
  let c128_i32 : BitVec 32 := 128#32
  let v8 : BitVec 32 := Scalar.muli c0_i32_6 c128_i32
  v8
def k1_off1 (c0_i32_6 : BitVec 32) : Fin 2 → Nat :=
  let c128_i32 : BitVec 32 := 128#32
  let v8 : BitVec 32 := Scalar.muli c0_i32_6 c128_i32
  let v9 : BitVec 32 := v8
  let v10 : Index := Scalar.indexCast v9
  let c0_7 : Index := 0#32
  ![v10.toNat, 0]
def k1_mult2 : BitVec 32 :=
  let c1_i32 : BitVec 32 := 1#32
  let c128_i32_12 : BitVec 32 := 128#32
  let v30 : BitVec 32 := Scalar.muli c1_i32 c128_i32_12
  v30
def k1_mult3 : BitVec 32 :=
  let c2_i32 : BitVec 32 := 2#32
  let c128_i32_18 : BitVec 32 := 128#32
  let v52 : BitVec 32 := Scalar.muli c2_i32 c128_i32_18
  v52
def k1_mult4 : BitVec 32 :=
  let c3_i32 : BitVec 32 := 3#32
  let c128_i32_24 : BitVec 32 := 128#32
  let v74 : BitVec 32 := Scalar.muli c3_i32 c128_i32_24
  v74
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 16], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k2_mult1 : BitVec 32 :=
  let c0_i32_6 : BitVec 32 := 0#32
  let c128_i32 : BitVec 32 := 128#32
  let v8 : BitVec 32 := Scalar.muli c0_i32_6 c128_i32
  v8
def k2_off1 (c0_i32_6 : BitVec 32) : Fin 2 → Nat :=
  let c128_i32 : BitVec 32 := 128#32
  let v8 : BitVec 32 := Scalar.muli c0_i32_6 c128_i32
  let v9 : BitVec 32 := v8
  let v10 : Index := Scalar.indexCast v9
  let c0_7 : Index := 0#32
  ![v10.toNat, 0]
def k2_mult2 : BitVec 32 :=
  let c1_i32 : BitVec 32 := 1#32
  let c128_i32_12 : BitVec 32 := 128#32
  let v30 : BitVec 32 := Scalar.muli c1_i32 c128_i32_12
  v30
def k2_mult3 : BitVec 32 :=
  let c2_i32 : BitVec 32 := 2#32
  let c128_i32_18 : BitVec 32 := 128#32
  let v52 : BitVec 32 := Scalar.muli c2_i32 c128_i32_18
  v52
def k2_mult4 : BitVec 32 :=
  let c3_i32 : BitVec 32 := 3#32
  let c128_i32_24 : BitVec 32 := 128#32
  let v74 : BitVec 32 := Scalar.muli c3_i32 c128_i32_24
  v74
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  h_S128x4096 : 0 < S128x4096.numel
  reduces_S128x4096_S128 : S128x4096.Reduces [1] S128
  shapeCasts_S128_S128x1 : S128.ShapeCasts S128x1
  broadcasts_S128x1_S128x4096 : S128x1.Broadcasts S128x4096
  shapeCasts_S128x4096_S128x4096 : S128x4096.ShapeCasts S128x4096
  inb_S512x4096_S512x4096_0_0 : ∀ a, (![0, 0] : Fin 2 → Nat) a + S512x4096.size a ≤ S512x4096.size a
  h_S512x4096 : 0 < S512x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  k0_mult1_dvd : ∀ i : grid0.Coords, ∀ (k0_h1 : k0_cond1 i = 1#1), 128 ∣ k0_mult1.toNat
  k0_off1_inb : ∀ i : grid0.Coords, ∀ (k0_h1 : k0_cond1 i = 1#1), ∀ (r : Fin 4), ∀ a, (k0_off1 (BitVec.ofNat 32 r.val)) a + S128x4096.size a ≤ S512x4096.size a
  k0_off1_packedbf16 : ∀ i : grid0.Coords, ∀ (k0_h1 : k0_cond1 i = 1#1), ∀ (r : Fin 4), (Rect.unit (s := S512x4096) (k0_off1 (BitVec.ofNat 32 r.val)) S128x4096.size (k0_off1_inb i k0_h1 r)).PackedRows (EltTy.packing .bf16)
  k0_mult2_dvd : ∀ i : grid0.Coords, ∀ (k0_h1 : k0_cond1 i = 1#1), 128 ∣ k0_mult2.toNat
  k0_mult3_dvd : ∀ i : grid0.Coords, ∀ (k0_h1 : k0_cond1 i = 1#1), 128 ∣ k0_mult3.toNat
  k0_mult4_dvd : ∀ i : grid0.Coords, ∀ (k0_h1 : k0_cond1 i = 1#1), 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x4096.size a
  hwx0_2 : ∀ i : grid0.Coords, EltTy.bits .f32 = 32 ∨ (Rect.block (s := S8192x4096) S512x256.size (cc0_transform_2 i) (hinb0_2 i)).WholeWords (EltTy.packing .f32)
  hrank1 : 0 < grid1.rank
  k1_mult1_dvd : ∀ i : grid1.Coords, ∀ (k1_h1 : k1_cond1 i = 1#1), 128 ∣ k1_mult1.toNat
  k1_off1_inb : ∀ i : grid1.Coords, ∀ (k1_h1 : k1_cond1 i = 1#1), ∀ (r : Fin 4), ∀ a, (k1_off1 (BitVec.ofNat 32 r.val)) a + S128x4096.size a ≤ S512x4096.size a
  k1_off1_packedbf16 : ∀ i : grid1.Coords, ∀ (k1_h1 : k1_cond1 i = 1#1), ∀ (r : Fin 4), (Rect.unit (s := S512x4096) (k1_off1 (BitVec.ofNat 32 r.val)) S128x4096.size (k1_off1_inb i k1_h1 r)).PackedRows (EltTy.packing .bf16)
  k1_mult2_dvd : ∀ i : grid1.Coords, ∀ (k1_h1 : k1_cond1 i = 1#1), 128 ∣ k1_mult2.toNat
  k1_mult3_dvd : ∀ i : grid1.Coords, ∀ (k1_h1 : k1_cond1 i = 1#1), 128 ∣ k1_mult3.toNat
  k1_mult4_dvd : ∀ i : grid1.Coords, ∀ (k1_h1 : k1_cond1 i = 1#1), 128 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x4096.size a
  hwx1_2 : ∀ i : grid1.Coords, EltTy.bits .f32 = 32 ∨ (Rect.block (s := S8192x4096) S512x256.size (cc1_transform_2 i) (hinb1_2 i)).WholeWords (EltTy.packing .f32)
  hrank2 : 0 < grid2.rank
  k2_mult1_dvd : ∀ i : grid2.Coords, ∀ (k2_h1 : k2_cond1 i = 1#1), 128 ∣ k2_mult1.toNat
  k2_off1_inb : ∀ i : grid2.Coords, ∀ (k2_h1 : k2_cond1 i = 1#1), ∀ (r : Fin 4), ∀ a, (k2_off1 (BitVec.ofNat 32 r.val)) a + S128x4096.size a ≤ S512x4096.size a
  k2_off1_packedbf16 : ∀ i : grid2.Coords, ∀ (k2_h1 : k2_cond1 i = 1#1), ∀ (r : Fin 4), (Rect.unit (s := S512x4096) (k2_off1 (BitVec.ofNat 32 r.val)) S128x4096.size (k2_off1_inb i k2_h1 r)).PackedRows (EltTy.packing .bf16)
  k2_mult2_dvd : ∀ i : grid2.Coords, ∀ (k2_h1 : k2_cond1 i = 1#1), 128 ∣ k2_mult2.toNat
  k2_mult3_dvd : ∀ i : grid2.Coords, ∀ (k2_h1 : k2_cond1 i = 1#1), 128 ∣ k2_mult3.toNat
  k2_mult4_dvd : ∀ i : grid2.Coords, ∀ (k2_h1 : k2_cond1 i = 1#1), 128 ∣ k2_mult4.toNat
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .f32 = 32 ∨ (Rect.block (s := S8192x4096) S512x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S4096x4096.size a
  hwx2_1 : ∀ i : grid2.Coords, EltTy.bits .bf16 = 32 ∨ (Rect.block (s := S4096x4096) S256x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S8192x4096.size a
  hwx2_2 : ∀ i : grid2.Coords, EltTy.bits .f32 = 32 ∨ (Rect.block (s := S8192x4096) S512x256.size (cc2_transform_2 i) (hinb2_2 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S512x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩

abbrev nBuf : Space → Nat
  | .hbm => 130
  | .vmem => 0
  | .smem => 0
  | _ => 0

abbrev hbmTy0_0 (i : Nat) : BufTy := match i % 128 with
  | 0 => ⟨S8192x4096, .f32⟩
  | 1 => ⟨S4096x4096, .f32⟩
  | 2 => ⟨S4096x4096, .f32⟩
  | 3 => ⟨S4096x4096, .f32⟩
  | 4 => ⟨S8192x4096, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x1, .f32⟩
  | 15 => ⟨S8192x4096, .f32⟩
  | 16 => ⟨S8192x4096, .f32⟩
  | 17 => ⟨S8192x4096, .f32⟩
  | 18 => ⟨S8192x4096, .f32⟩
  | 19 => ⟨S_, .f32⟩
  | 20 => ⟨S8192x4096, .f32⟩
  | 21 => ⟨S8192x4096, .f32⟩
  | 22 => ⟨S_, .f32⟩
  | 23 => ⟨S8192x4096, .f32⟩
  | 24 => ⟨S8192x4096, .f32⟩
  | 25 => ⟨S8192x4096, .f32⟩
  | 26 => ⟨S4096x4096, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S_, .f32⟩
  | 38 => ⟨S_, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S8192x4096, .f32⟩
  | 46 => ⟨S8192x4096, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x4096, .f32⟩
  | 58 => ⟨S8192x4096, .f32⟩
  | 59 => ⟨S8192x4096, .f32⟩
  | 60 => ⟨S8192x4096, .f32⟩
  | 61 => ⟨S_, .f32⟩
  | 62 => ⟨S8192x4096, .f32⟩
  | 63 => ⟨S8192x4096, .f32⟩
  | 64 => ⟨S_, .f32⟩
  | 65 => ⟨S8192x4096, .f32⟩
  | 66 => ⟨S8192x4096, .f32⟩
  | 67 => ⟨S8192x4096, .f32⟩
  | 68 => ⟨S4096x4096, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S4096x4096, .f32⟩
  | 76 => ⟨S4096x4096, .f32⟩
  | 77 => ⟨S4096x4096, .f32⟩
  | 78 => ⟨S_, .f32⟩
  | 79 => ⟨S_, .f32⟩
  | 80 => ⟨S_, .f32⟩
  | 81 => ⟨S4096x4096, .f32⟩
  | 82 => ⟨S4096x4096, .f32⟩
  | 83 => ⟨S_, .f32⟩
  | 84 => ⟨S4096x4096, .f32⟩
  | 85 => ⟨S4096x4096, .f32⟩
  | 86 => ⟨S4096x4096, .f32⟩
  | 87 => ⟨S8192x4096, .f32⟩
  | 88 => ⟨S8192x4096, .f32⟩
  | 89 => ⟨S_, .f32⟩
  | 90 => ⟨S8192, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x1, .f32⟩
  | 99 => ⟨S8192x4096, .f32⟩
  | 100 => ⟨S8192x4096, .f32⟩
  | 101 => ⟨S8192x4096, .f32⟩
  | 102 => ⟨S8192x4096, .f32⟩
  | 103 => ⟨S_, .f32⟩
  | 104 => ⟨S8192x4096, .f32⟩
  | 105 => ⟨S8192x4096, .f32⟩
  | 106 => ⟨S_, .f32⟩
  | 107 => ⟨S8192x4096, .f32⟩
  | 108 => ⟨S8192x4096, .f32⟩
  | 109 => ⟨S8192x4096, .f32⟩
  | 110 => ⟨S4096x4096, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S4096x4096, .f32⟩
  | 118 => ⟨S4096x4096, .f32⟩
  | 119 => ⟨S4096x4096, .f32⟩
  | 120 => ⟨S_, .f32⟩
  | 121 => ⟨S_, .f32⟩
  | 122 => ⟨S_, .f32⟩
  | 123 => ⟨S4096x4096, .f32⟩
  | 124 => ⟨S4096x4096, .f32⟩
  | 125 => ⟨S_, .f32⟩
  | 126 => ⟨S4096x4096, .f32⟩
  | 127 => ⟨S4096x4096, .f32⟩
  | _ => ⟨S8192x4096, .f32⟩

abbrev hbmTy0_1 (i : Nat) : BufTy := match i % 128 with
  | 0 => ⟨S4096x4096, .f32⟩
  | 1 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_7 : Ref sig .tc := ⟨.hbm, 47, rfl⟩
abbrev main_v22 : Ref sig .tc := ⟨.hbm, 48, rfl⟩
abbrev main_v23 : Ref sig .tc := ⟨.hbm, 49, rfl⟩
abbrev main_cst_8 : Ref sig .tc := ⟨.hbm, 50, rfl⟩
abbrev main_v24 : Ref sig .tc := ⟨.hbm, 51, rfl⟩
abbrev main_v25 : Ref sig .tc := ⟨.hbm, 52, rfl⟩
abbrev main_cst_9 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v31 : Ref sig .tc := ⟨.hbm, 67, rfl⟩
abbrev main_v32 : Ref sig .tc := ⟨.hbm, 68, rfl⟩
abbrev main_cst_10 : Ref sig .tc := ⟨.hbm, 69, rfl⟩
abbrev main_v33 : Ref sig .tc := ⟨.hbm, 70, rfl⟩
abbrev main_cst_11 : Ref sig .tc := ⟨.hbm, 71, rfl⟩
abbrev main_v34 : Ref sig .tc := ⟨.hbm, 72, rfl⟩
abbrev main_cst_12 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_13 : Ref sig .tc := ⟨.hbm, 78, rfl⟩
abbrev main_cst_14 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_15 : Ref sig .tc := ⟨.hbm, 89, rfl⟩
abbrev main_v43 : Ref sig .tc := ⟨.hbm, 90, rfl⟩
abbrev main_v44 : Ref sig .tc := ⟨.hbm, 91, rfl⟩
abbrev main_cst_16 : Ref sig .tc := ⟨.hbm, 92, rfl⟩
abbrev main_v45 : Ref sig .tc := ⟨.hbm, 93, rfl⟩
abbrev main_v46 : Ref sig .tc := ⟨.hbm, 94, rfl⟩
abbrev main_cst_17 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_call6_v0 : Ref sig .tc := ⟨.hbm, 101, rfl⟩
abbrev main_call6_v1 : Ref sig .tc := ⟨.hbm, 102, rfl⟩
abbrev main_call6_cst : Ref sig .tc := ⟨.hbm, 103, rfl⟩
abbrev main_call6_v2 : Ref sig .tc := ⟨.hbm, 104, rfl⟩
abbrev main_call6_v3 : Ref sig .tc := ⟨.hbm, 105, rfl⟩
abbrev main_call6_cst_0 : Ref sig .tc := ⟨.hbm, 106, rfl⟩
abbrev main_call6_v4 : Ref sig .tc := ⟨.hbm, 107, rfl⟩
abbrev main_call6_v5 : Ref sig .tc := ⟨.hbm, 108, rfl⟩
abbrev main_v52 : Ref sig .tc := ⟨.hbm, 109, rfl⟩
abbrev main_v53 : Ref sig .tc := ⟨.hbm, 110, rfl⟩
abbrev main_cst_18 : Ref sig .tc := ⟨.hbm, 111, rfl⟩
abbrev main_v54 : Ref sig .tc := ⟨.hbm, 112, rfl⟩
abbrev main_cst_19 : Ref sig .tc := ⟨.hbm, 113, rfl⟩
abbrev main_v55 : Ref sig .tc := ⟨.hbm, 114, rfl⟩
abbrev main_cst_20 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_cst_21 : Ref sig .tc := ⟨.hbm, 120, rfl⟩
abbrev main_cst_22 : Ref sig .tc := ⟨.hbm, 121, rfl⟩
abbrev main_call8_v0 : Ref sig .tc := ⟨.hbm, 122, rfl⟩
abbrev main_call8_v1 : Ref sig .tc := ⟨.hbm, 123, rfl⟩
abbrev main_call8_v2 : Ref sig .tc := ⟨.hbm, 124, rfl⟩
abbrev main_call8_v3 : Ref sig .tc := ⟨.hbm, 125, rfl⟩
abbrev main_call8_v4 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S4096x4096_S_d0_1 : S4096x4096.ReducesTo [0, 1] S_
  bcast_S_S4096x4096 : S_.BroadcastsInDim S4096x4096 (![] : Fin 0 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BitsRun0.lean ====
import proofs.«146089_j31688268710666_2_alg».proof.Proof.Gen.Kernel.Launch
import proofs.«146089_j31688268710666_2_alg».proof.Proof.Gen.Kernel.Skeleton
import proofs.«146089_j31688268710666_2_alg».proof.Proof.Gen.Kernel.Points
import proofs.«146089_j31688268710666_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The body of pallas_call 0 on whole staging memrefs, in its two control cases.

Grid point (i, j) works on rows [512 i, 512 i + 512) of the activations and rows [256 j, 256 j + 256) of the
ternary weights. When j = 0 the body first fills the scratch, 128 rows at a time, with the activation
silu (rmsnorm x) of the point's 512 rows; at every point it then multiplies the scratch by the transposed
weight block and stores the 512 x 256 product. -/

set_option maxHeartbeats 4000000 in
/-- Case j = 0: the scratch, held at anything, ends with four stored slabs; the output block with one store. -/
noncomputable def kernelRun0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) :
    Σ' (L2 : List (View.Piece (Elt F) S512x256 .f32)), { LS0 : List (View.Piece (Elt F) S512x4096 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__block_kernel i arg2 harg2 arg3 harg3 arg4 harg4 arg5 harg5) K } := by
  refine ⟨?_, ?_, fun E K => ?run⟩
  case run =>
    simp only [cc0__block_kernel_eq_skeleton]; unfold cc0__block_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

set_option maxHeartbeats 4000000 in
/-- Case j ≠ 0: the scratch, held at what the row's first point left, is read and handed back; the output block
    ends with one store. -/
noncomputable def kernelRun0_B (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k0_cond1 i = 1#1)
    (x0 : Vec F S512x4096 .f32) (x1 : Vec F S256x4096 .bf16) (xs0 : Vec F S512x4096 .bf16) :
    { L2 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xs0) -∗ K ⟨⟩))
          ⊢ wp frame (wpE (defs₀ (F := F)) Variants.none c none) E (cc0__block_kernel i arg2 harg2 arg3 harg3 arg4 harg4 arg5 harg5) K } := by
  refine ⟨?_, fun E K => ?run⟩
  case run =>
    simp only [cc0__block_kernel_eq_skeleton]; unfold cc0__block_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS0

end Cert.Kernel.Hand

end
-- ==== Proof.BitsRun1.lean ====
import proofs.«146089_j31688268710666_2_alg».proof.Proof.Gen.Kernel.Launch
import proofs.«146089_j31688268710666_2_alg».proof.Proof.Gen.Kernel.Skeleton
import proofs.«146089_j31688268710666_2_alg».proof.Proof.Gen.Kernel.Points
import proofs.«146089_j31688268710666_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The body of pallas_call 1 on whole staging memrefs, in its two control cases.

Grid point (i, j) works on rows [512 i, 512 i + 512) of the activations and rows [256 j, 256 j + 256) of the
ternary weights. When j = 0 the body first fills the scratch, 128 rows at a time, with the activation
silu (rmsnorm x) of the point's 512 rows; at every point it then multiplies the scratch by the transposed
weight block and stores the 512 x 256 product. -/

set_option maxHeartbeats 4000000 in
/-- Case j = 0: the scratch, held at anything, ends with four stored slabs; the output block with one store. -/
noncomputable def kernelRun1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) :
    Σ' (L2 : List (View.Piece (Elt F) S512x256 .f32)), { LS0 : List (View.Piece (Elt F) S512x4096 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc1__block_kernel i arg2 harg2 arg3 harg3 arg4 harg4 arg5 harg5) K } := by
  refine ⟨?_, ?_, fun E K => ?run⟩
  case run =>
    simp only [cc1__block_kernel_eq_skeleton]; unfold cc1__block_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

set_option maxHeartbeats 4000000 in
/-- Case j ≠ 0: the scratch, held at what the row's first point left, is read and handed back; the output block
    ends with one store. -/
noncomputable def kernelRun1_B (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k1_cond1 i = 1#1)
    (x0 : Vec F S512x4096 .f32) (x1 : Vec F S256x4096 .bf16) (xs0 : Vec F S512x4096 .bf16) :
    { L2 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xs0) -∗ K ⟨⟩))
          ⊢ wp frame (wpE (defs₀ (F := F)) Variants.none c none) E (cc1__block_kernel i arg2 harg2 arg3 harg3 arg4 harg4 arg5 harg5) K } := by
  refine ⟨?_, fun E K => ?run⟩
  case run =>
    simp only [cc1__block_kernel_eq_skeleton]; unfold cc1__block_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS0

end Cert.Kernel.Hand

end
-- ==== Proof.BitsRun2.lean ====
import proofs.«146089_j31688268710666_2_alg».proof.Proof.Gen.Kernel.Launch
import proofs.«146089_j31688268710666_2_alg».proof.Proof.Gen.Kernel.Skeleton
import proofs.«146089_j31688268710666_2_alg».proof.Proof.Gen.Kernel.Points
import proofs.«146089_j31688268710666_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The body of pallas_call 2 on whole staging memrefs, in its two control cases.

Grid point (i, j) works on rows [512 i, 512 i + 512) of the activations and rows [256 j, 256 j + 256) of the
ternary weights. When j = 0 the body first fills the scratch, 128 rows at a time, with the activation
silu (rmsnorm x) of the point's 512 rows; at every point it then multiplies the scratch by the transposed
weight block and stores the 512 x 256 product. -/

set_option maxHeartbeats 4000000 in
/-- Case j = 0: the scratch, held at anything, ends with four stored slabs; the output block with one store. -/
noncomputable def kernelRun2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) :
    Σ' (L2 : List (View.Piece (Elt F) S512x256 .f32)), { LS0 : List (View.Piece (Elt F) S512x4096 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2__block_kernel i arg2 harg2 arg3 harg3 arg4 harg4 arg5 harg5) K } := by
  refine ⟨?_, ?_, fun E K => ?run⟩
  case run =>
    simp only [cc2__block_kernel_eq_skeleton]; unfold cc2__block_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

set_option maxHeartbeats 4000000 in
/-- Case j ≠ 0: the scratch, held at what the row's first point left, is read and handed back; the output block
    ends with one store. -/
noncomputable def kernelRun2_B (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k2_cond1 i = 1#1)
    (x0 : Vec F S512x4096 .f32) (x1 : Vec F S256x4096 .bf16) (xs0 : Vec F S512x4096 .bf16) :
    { L2 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xs0) -∗ K ⟨⟩))
          ⊢ wp frame (wpE (defs₀ (F := F)) Variants.none c none) E (cc2__block_kernel i arg2 harg2 arg3 harg3 arg4 harg4 arg5 harg5) K } := by
  refine ⟨?_, fun E K => ?run⟩
  case run =>
    simp only [cc2__block_kernel_eq_skeleton]; unfold cc2__block_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS0

end Cert.Kernel.Hand

end
-- ==== Proof.BitsFrame.lean ====
import proofs.«146089_j31688268710666_2_alg».proof.Proof.Gen.Kernel.Launch
import proofs.«146089_j31688268710666_2_alg».proof.Proof.Gen.Kernel.Skeleton
import proofs.«146089_j31688268710666_2_alg».proof.Proof.Gen.Kernel.Points
import proofs.«146089_j31688268710666_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146089_j31688268710666_2_alg».proof.Proof.BitsRun0
import proofs.«146089_j31688268710666_2_alg».proof.Proof.BitsRun1
import proofs.«146089_j31688268710666_2_alg».proof.Proof.BitsRun2
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The frame of the whole program: three pallas_calls among stretches of host operations. Per region, at the contents
`V` it is entered with: each window's block, what the body leaves in the output block and in the scratch point by point,
the pipeline's proof data (the invariant tracks the scratch: filled when the second grid coordinate is zero, read at the
other points of the same row block), the body obligation. Then the run: the contents each region leaves, the regions as
segments, and the frame over the generated host side. -/

section Regions
variable (V : (c : Dev nD) → (b : Ref sig .tc) → Buf (Elt F) ((c : Thread nD τ).loc b))

/-! # Region 0: pallas_call 0 at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's 512 rows whether or not they were fetched there: between two
    fetches the row block does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the point's 256 rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second grid coordinate is zero exactly at the points that are multiples of 16 (the grid is 16 x 16, row-major). -/
theorem hcond0 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The views through which the output block's and the scratch's contents are stated. -/
abbrev VO0 : View sig .tc .vmem S512x256 .f32 := (Memref.whole cc0_stg2_0 : Memref sig .tc .vmem S512x256 .f32).view
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev scM0 : Memref sig .tc .vmem S512x4096 .bf16 := Memref.whole cc0_scratch0
abbrev VS0 : View sig .tc .vmem S512x4096 .bf16 := scM0.view

/-- The four slabs stored when j = 0 tile the scratch. -/
theorem scover0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) (y : S512x4096.Idx) :
    ∃ pc ∈ (kernelRun0_A c i arg2 harg2 arg3 harg3 arg4 harg4 arg5 harg5 hc x0 x1).2.1, y ∈ pc.1.set :=
  View.cover_of_tiledL (kernelRun0_A c i arg2 harg2 arg3 harg3 arg4 harg4 arg5 harg5 hc x0 x1).2.1 S128x4096.size (by sl_kernel_rfl) y
/-- What the scratch holds after a point with j = 0. -/
def sout0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) : Vec F S512x4096 .bf16 :=
  VS0.read (Elt F) (VS0.writes (Elt F) VS0.junk (kernelRun0_A c i arg2 harg2 arg3 harg3 arg4 harg4 arg5 harg5 hc x0 x1).2.1)
/-- The one store of the product covers the output block, in either case. -/
theorem cover0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) (y : S512x256.Idx) :
    ∃ pc ∈ (kernelRun0_A c i arg2 harg2 arg3 harg3 arg4 harg4 arg5 harg5 hc x0 x1).1, y ∈ pc.1.set :=
  View.cover_of_tiledL (kernelRun0_A c i arg2 harg2 arg3 harg3 arg4 harg4 arg5 harg5 hc x0 x1).1 S512x256.size (by sl_kernel_rfl) y
def out0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) : Vec F S512x256 .f32 :=
  VO0.read (Elt F) (VO0.writes (Elt F) VO0.junk (kernelRun0_A c i arg2 harg2 arg3 harg3 arg4 harg4 arg5 harg5 hc x0 x1).1)
theorem cover0_B (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k0_cond1 i = 1#1)
    (x0 : Vec F S512x4096 .f32) (x1 : Vec F S256x4096 .bf16) (xs0 : Vec F S512x4096 .bf16) (y : S512x256.Idx) :
    ∃ pc ∈ (kernelRun0_B c i arg2 harg2 arg3 harg3 arg4 harg4 arg5 harg5 hc x0 x1 xs0).1, y ∈ pc.1.set :=
  View.cover_of_tiledL (kernelRun0_B c i arg2 harg2 arg3 harg3 arg4 harg4 arg5 harg5 hc x0 x1 xs0).1 S512x256.size (by sl_kernel_rfl) y
def out0_B (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k0_cond1 i = 1#1)
    (x0 : Vec F S512x4096 .f32) (x1 : Vec F S256x4096 .bf16) (xs0 : Vec F S512x4096 .bf16) : Vec F S512x256 .f32 :=
  VO0.read (Elt F) (VO0.writes (Elt F) VO0.junk (kernelRun0_B c i arg2 harg2 arg3 harg3 arg4 harg4 arg5 harg5 hc x0 x1 xs0).1)

/-- What the output block and the scratch hold after the body at position `n`, by recursion on the position: at a
    multiple of 16 the scratch is refilled from the point's rows, elsewhere it is what the point before left. -/
def outsAt0 (c : Dev nD) : (n : ℕ) → n < cfg0.N → Vec F S512x256 .f32 × Vec F S512x4096 .bf16
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 16 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2,
        (outsAt0 c n (Nat.lt_of_succ_lt hn)).2)

theorem outsAt0_A (c : Dev nD) (t : Fin cfg0.N) (h0 : t.val % 16 = 0) :
    outsAt0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The scratch at anything. -/
def scratchAny0 (c : Dev nD) : sProp 𝕄 := iprop(∃ d, owns (c : Thread nD τ) scM0 fullShare d)

/-- The region's invariant before position `n`: before the first point what the launch hands over (every scoped buffer
    no window stages at anything, the generator register at some state); afterwards the same with the scratch taken out
    and held at what the point before left in it. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ (scratchAny0 (F := F) c -∗ Pipeline.ΦA spec0 c))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare ((outsAt0 V c n hn).2) ∗ (scratchAny0 (F := F) c -∗ Pipeline.ΦA spec0 c)) := rfl
theorem PhiS0_pos (c : Dev nD) (n : ℕ) (h : n ≤ cfg0.N) (hz : n ≠ 0) :
    PhiS0 V c n h = iprop(owns (c : Thread nD τ) scM0 fullShare ((outsAt0 V c (n - 1) (by omega)).2) ∗ (scratchAny0 (F := F) c -∗ Pipeline.ΦA spec0 c)) := by
  cases n with
  | zero => exact absurd rfl hz
  | succ n => rfl

/-- What the launch hands over splits into the scratch at anything and the way back. -/
theorem PhiA0_split (c : Dev nD) :
    (Pipeline.ΦA spec0 c : sProp 𝕄) ⊢ iprop(scratchAny0 (F := F) c ∗ (scratchAny0 (F := F) c -∗ Pipeline.ΦA spec0 c)) := by
  unfold Pipeline.ΦA scratchAny0; rw [scopedRest0_eq]; simp only [scM0, owns_whole]
  iintro ⟨⟨HS0, Hrest⟩, Hg⟩
  isplitl [HS0]; · iexact HS0
  iintro HS0
  isplitr [Hg]
  isplitl [HS0]; · iexact HS0
  iexact Hrest
  iexact Hg

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: by cases on whether the point is a multiple of 16. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  have hN : t.val < 256 := lt_of_lt_of_eq t.isLt (show cfg0.N = 256 from N_0)
  by_cases h0 : t.val % 16 = 0
  · rw [outsAt0_A V c t h0]
    unfold sout0_A out0_A; (try dsimp only)
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_split (F := F) c) $$ HΦ
      icases HΦ' with ⟨HS0, Hw⟩
      unfold scratchAny0
      iapply ((kernelRun0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover0_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS0_castSucc V c t, PhiS0_pos V c _ _ hz]
      iintro ⟨⟨HS0, Hw⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover0_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · have hz : t.val ≠ 0 := fun e => h0 (by rw [e])
    rw [outsAt0_B V c t h0]
    unfold out0_B; (try dsimp only)
    rw [PhiS0_castSucc V c t, PhiS0_pos V c _ _ hz]
    iintro ⟨⟨HS0, Hw⟩, Ho, ⟨%d0, H0⟩, ⟨%d1, H1⟩, ⟨%d2, H2⟩⟩
    iapply ((kernelRun0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hw]
    · isplitl [HS0]; · iexact HS0
      iexact Hw
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega)]
  iintro ⟨HS0, Hw⟩
  iapply Hw
  unfold scratchAny0; iexists _; iexact HS0

/-! # Region 1: pallas_call 1 at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's 512 rows whether or not they were fetched there: between two
    fetches the row block does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weights' staging buffer holds the point's 256 rows. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The second grid coordinate is zero exactly at the points that are multiples of 16 (the grid is 16 x 16, row-major). -/
theorem hcond1 : ∀ t : Fin cfg1.N, k1_cond1 (grid1.coords t) = 1#1 ↔ t.val % 16 = 0 :=
  (by decide +kernel : ∀ t : Fin grid1.N, k1_cond1 (grid1.coords t) = 1#1 ↔ t.val % 16 = 0)

/-- The views through which the output block's and the scratch's contents are stated. -/
abbrev VO1 : View sig .tc .vmem S512x256 .f32 := (Memref.whole cc1_stg2_0 : Memref sig .tc .vmem S512x256 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev scM1 : Memref sig .tc .vmem S512x4096 .bf16 := Memref.whole cc1_scratch0
abbrev VS1 : View sig .tc .vmem S512x4096 .bf16 := scM1.view

/-- The four slabs stored when j = 0 tile the scratch. -/
theorem scover1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) (y : S512x4096.Idx) :
    ∃ pc ∈ (kernelRun1_A c i arg2 harg2 arg3 harg3 arg4 harg4 arg5 harg5 hc x0 x1).2.1, y ∈ pc.1.set :=
  View.cover_of_tiledL (kernelRun1_A c i arg2 harg2 arg3 harg3 arg4 harg4 arg5 harg5 hc x0 x1).2.1 S128x4096.size (by sl_kernel_rfl) y
/-- What the scratch holds after a point with j = 0. -/
def sout1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) : Vec F S512x4096 .bf16 :=
  VS1.read (Elt F) (VS1.writes (Elt F) VS1.junk (kernelRun1_A c i arg2 harg2 arg3 harg3 arg4 harg4 arg5 harg5 hc x0 x1).2.1)
/-- The one store of the product covers the output block, in either case. -/
theorem cover1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) (y : S512x256.Idx) :
    ∃ pc ∈ (kernelRun1_A c i arg2 harg2 arg3 harg3 arg4 harg4 arg5 harg5 hc x0 x1).1, y ∈ pc.1.set :=
  View.cover_of_tiledL (kernelRun1_A c i arg2 harg2 arg3 harg3 arg4 harg4 arg5 harg5 hc x0 x1).1 S512x256.size (by sl_kernel_rfl) y
def out1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) : Vec F S512x256 .f32 :=
  VO1.read (Elt F) (VO1.writes (Elt F) VO1.junk (kernelRun1_A c i arg2 harg2 arg3 harg3 arg4 harg4 arg5 harg5 hc x0 x1).1)
theorem cover1_B (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k1_cond1 i = 1#1)
    (x0 : Vec F S512x4096 .f32) (x1 : Vec F S256x4096 .bf16) (xs0 : Vec F S512x4096 .bf16) (y : S512x256.Idx) :
    ∃ pc ∈ (kernelRun1_B c i arg2 harg2 arg3 harg3 arg4 harg4 arg5 harg5 hc x0 x1 xs0).1, y ∈ pc.1.set :=
  View.cover_of_tiledL (kernelRun1_B c i arg2 harg2 arg3 harg3 arg4 harg4 arg5 harg5 hc x0 x1 xs0).1 S512x256.size (by sl_kernel_rfl) y
def out1_B (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k1_cond1 i = 1#1)
    (x0 : Vec F S512x4096 .f32) (x1 : Vec F S256x4096 .bf16) (xs0 : Vec F S512x4096 .bf16) : Vec F S512x256 .f32 :=
  VO1.read (Elt F) (VO1.writes (Elt F) VO1.junk (kernelRun1_B c i arg2 harg2 arg3 harg3 arg4 harg4 arg5 harg5 hc x0 x1 xs0).1)

/-- What the output block and the scratch hold after the body at position `n`, by recursion on the position: at a
    multiple of 16 the scratch is refilled from the point's rows, elsewhere it is what the point before left. -/
def outsAt1 (c : Dev nD) : (n : ℕ) → n < cfg1.N → Vec F S512x256 .f32 × Vec F S512x4096 .bf16
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩))
  | n + 1, hn =>
    if h0 : (n + 1) % 16 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2,
        (outsAt1 c n (Nat.lt_of_succ_lt hn)).2)

theorem outsAt1_A (c : Dev nD) (t : Fin cfg1.N) (h0 : t.val % 16 = 0) :
    outsAt1 V c t.val t.isLt = (out1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The scratch at anything. -/
def scratchAny1 (c : Dev nD) : sProp 𝕄 := iprop(∃ d, owns (c : Thread nD τ) scM1 fullShare d)

/-- The region's invariant before position `n`: before the first point what the launch hands over (every scoped buffer
    no window stages at anything, the generator register at some state); afterwards the same with the scratch taken out
    and held at what the point before left in it. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ (scratchAny1 (F := F) c -∗ Pipeline.ΦA spec1 c))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ (scratchAny1 (F := F) c -∗ Pipeline.ΦA spec1 c)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ (scratchAny1 (F := F) c -∗ Pipeline.ΦA spec1 c)) := by
  cases n with
  | zero => exact absurd rfl hz
  | succ n => rfl

/-- What the launch hands over splits into the scratch at anything and the way back. -/
theorem PhiA1_split (c : Dev nD) :
    (Pipeline.ΦA spec1 c : sProp 𝕄) ⊢ iprop(scratchAny1 (F := F) c ∗ (scratchAny1 (F := F) c -∗ Pipeline.ΦA spec1 c)) := by
  unfold Pipeline.ΦA scratchAny1; rw [scopedRest1_eq]; simp only [scM1, owns_whole]
  iintro ⟨⟨A0, A1, A2, A3, A4, A5, A6, HS0, Hrest⟩, Hg⟩
  isplitl [HS0]; · iexact HS0
  iintro HS0
  isplitr [Hg]
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [HS0]; · iexact HS0
  iexact Hrest
  iexact Hg

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
/-- The body at any point: by cases on whether the point is a multiple of 16. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  have hN : t.val < 256 := lt_of_lt_of_eq t.isLt (show cfg1.N = 256 from N_1)
  by_cases h0 : t.val % 16 = 0
  · rw [outsAt1_A V c t h0]
    unfold sout1_A out1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_split (F := F) c) $$ HΦ
      icases HΦ' with ⟨HS0, Hw⟩
      unfold scratchAny1
      iapply ((kernelRun1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover1_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
    · rw [PhiS1_castSucc V c t, PhiS1_pos V c _ _ hz]
      iintro ⟨⟨HS0, Hw⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover1_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
  · have hz : t.val ≠ 0 := fun e => h0 (by rw [e])
    rw [outsAt1_B V c t h0]
    unfold out1_B; (try dsimp only)
    rw [PhiS1_castSucc V c t, PhiS1_pos V c _ _ hz]
    iintro ⟨⟨HS0, Hw⟩, Ho, ⟨%d0, H0⟩, ⟨%d1, H1⟩, ⟨%d2, H2⟩⟩
    iapply ((kernelRun1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hw]
    · isplitl [HS0]; · iexact HS0
      iexact Hw
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨HS0, Hw⟩
  iapply Hw
  unfold scratchAny1; iexists _; iexact HS0

/-! # Region 2: pallas_call 2 at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's 512 rows whether or not they were fetched there: between two
    fetches the row block does not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weights' staging buffer holds the point's 256 rows. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The second grid coordinate is zero exactly at the points that are multiples of 16 (the grid is 16 x 16, row-major). -/
theorem hcond2 : ∀ t : Fin cfg2.N, k2_cond1 (grid2.coords t) = 1#1 ↔ t.val % 16 = 0 :=
  (by decide +kernel : ∀ t : Fin grid2.N, k2_cond1 (grid2.coords t) = 1#1 ↔ t.val % 16 = 0)

/-- The views through which the output block's and the scratch's contents are stated. -/
abbrev VO2 : View sig .tc .vmem S512x256 .f32 := (Memref.whole cc2_stg2_0 : Memref sig .tc .vmem S512x256 .f32).view
abbrev ms2_0 (t : Fin cfg2.N) : Memref sig .tc .vmem S512x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x256 .f32 := win2_2.stage (cfg2.slots t 2)
abbrev hs2_2 (t : Fin cfg2.N) : (ms2_2 t).IsWhole := hstage2_2 ((cfg2.slots t 2).cast nbuf2_2)
abbrev scM2 : Memref sig .tc .vmem S512x4096 .bf16 := Memref.whole cc2_scratch0
abbrev VS2 : View sig .tc .vmem S512x4096 .bf16 := scM2.view

/-- The four slabs stored when j = 0 tile the scratch. -/
theorem scover2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) (y : S512x4096.Idx) :
    ∃ pc ∈ (kernelRun2_A c i arg2 harg2 arg3 harg3 arg4 harg4 arg5 harg5 hc x0 x1).2.1, y ∈ pc.1.set :=
  View.cover_of_tiledL (kernelRun2_A c i arg2 harg2 arg3 harg3 arg4 harg4 arg5 harg5 hc x0 x1).2.1 S128x4096.size (by sl_kernel_rfl) y
/-- What the scratch holds after a point with j = 0. -/
def sout2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) : Vec F S512x4096 .bf16 :=
  VS2.read (Elt F) (VS2.writes (Elt F) VS2.junk (kernelRun2_A c i arg2 harg2 arg3 harg3 arg4 harg4 arg5 harg5 hc x0 x1).2.1)
/-- The one store of the product covers the output block, in either case. -/
theorem cover2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) (y : S512x256.Idx) :
    ∃ pc ∈ (kernelRun2_A c i arg2 harg2 arg3 harg3 arg4 harg4 arg5 harg5 hc x0 x1).1, y ∈ pc.1.set :=
  View.cover_of_tiledL (kernelRun2_A c i arg2 harg2 arg3 harg3 arg4 harg4 arg5 harg5 hc x0 x1).1 S512x256.size (by sl_kernel_rfl) y
def out2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) : Vec F S512x256 .f32 :=
  VO2.read (Elt F) (VO2.writes (Elt F) VO2.junk (kernelRun2_A c i arg2 harg2 arg3 harg3 arg4 harg4 arg5 harg5 hc x0 x1).1)
theorem cover2_B (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k2_cond1 i = 1#1)
    (x0 : Vec F S512x4096 .f32) (x1 : Vec F S256x4096 .bf16) (xs0 : Vec F S512x4096 .bf16) (y : S512x256.Idx) :
    ∃ pc ∈ (kernelRun2_B c i arg2 harg2 arg3 harg3 arg4 harg4 arg5 harg5 hc x0 x1 xs0).1, y ∈ pc.1.set :=
  View.cover_of_tiledL (kernelRun2_B c i arg2 harg2 arg3 harg3 arg4 harg4 arg5 harg5 hc x0 x1 xs0).1 S512x256.size (by sl_kernel_rfl) y
def out2_B (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k2_cond1 i = 1#1)
    (x0 : Vec F S512x4096 .f32) (x1 : Vec F S256x4096 .bf16) (xs0 : Vec F S512x4096 .bf16) : Vec F S512x256 .f32 :=
  VO2.read (Elt F) (VO2.writes (Elt F) VO2.junk (kernelRun2_B c i arg2 harg2 arg3 harg3 arg4 harg4 arg5 harg5 hc x0 x1 xs0).1)

/-- What the output block and the scratch hold after the body at position `n`, by recursion on the position: at a
    multiple of 16 the scratch is refilled from the point's rows, elsewhere it is what the point before left. -/
def outsAt2 (c : Dev nD) : (n : ℕ) → n < cfg2.N → Vec F S512x256 .f32 × Vec F S512x4096 .bf16
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩),
      sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩))
  | n + 1, hn =>
    if h0 : (n + 1) % 16 = 0 then
      (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2 ⟨n + 1, hn⟩).mpr h0) (iblk2 V c 0 ⟨n + 1, hn⟩) (iblk2 V c 1 ⟨n + 1, hn⟩),
        sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2 ⟨n + 1, hn⟩).mpr h0) (iblk2 V c 0 ⟨n + 1, hn⟩) (iblk2 V c 1 ⟨n + 1, hn⟩))
    else
      (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2 ⟨n + 1, hn⟩).mp h)) (iblk2 V c 0 ⟨n + 1, hn⟩) (iblk2 V c 1 ⟨n + 1, hn⟩) (outsAt2 c n (Nat.lt_of_succ_lt hn)).2,
        (outsAt2 c n (Nat.lt_of_succ_lt hn)).2)

theorem outsAt2_A (c : Dev nD) (t : Fin cfg2.N) (h0 : t.val % 16 = 0) :
    outsAt2 V c t.val t.isLt = (out2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t),
      sout2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t)) := by
  obtain ⟨n, hn⟩ := t
  cases n with
  | zero => exact rfl
  | succ n => exact (dif_pos h0).trans rfl

theorem outsAt2_B (c : Dev nD) (t : Fin cfg2.N) (h0 : ¬t.val % 16 = 0) :
    outsAt2 V c t.val t.isLt = (out2_B c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) (outsAt2 V c (t.val - 1) (Nat.lt_of_le_of_lt (Nat.sub_le _ _) t.isLt)).2,
      (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The scratch at anything. -/
def scratchAny2 (c : Dev nD) : sProp 𝕄 := iprop(∃ d, owns (c : Thread nD τ) scM2 fullShare d)

/-- The region's invariant before position `n`: before the first point what the launch hands over (every scoped buffer
    no window stages at anything, the generator register at some state); afterwards the same with the scratch taken out
    and held at what the point before left in it. -/
def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ (scratchAny2 (F := F) c -∗ Pipeline.ΦA spec2 c))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare ((outsAt2 V c n hn).2) ∗ (scratchAny2 (F := F) c -∗ Pipeline.ΦA spec2 c)) := rfl
theorem PhiS2_pos (c : Dev nD) (n : ℕ) (h : n ≤ cfg2.N) (hz : n ≠ 0) :
    PhiS2 V c n h = iprop(owns (c : Thread nD τ) scM2 fullShare ((outsAt2 V c (n - 1) (by omega)).2) ∗ (scratchAny2 (F := F) c -∗ Pipeline.ΦA spec2 c)) := by
  cases n with
  | zero => exact absurd rfl hz
  | succ n => rfl

/-- What the launch hands over splits into the scratch at anything and the way back. -/
theorem PhiA2_split (c : Dev nD) :
    (Pipeline.ΦA spec2 c : sProp 𝕄) ⊢ iprop(scratchAny2 (F := F) c ∗ (scratchAny2 (F := F) c -∗ Pipeline.ΦA spec2 c)) := by
  unfold Pipeline.ΦA scratchAny2; rw [scopedRest2_eq]; simp only [scM2, owns_whole]
  iintro ⟨⟨A0, A1, A2, A3, A4, A5, A6, A7, A8, A9, A10, A11, A12, A13, HS0⟩, Hg⟩
  isplitl [HS0]; · iexact HS0
  iintro HS0
  isplitr [Hg]
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  iexact HS0
  iexact Hg

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4800000 in
/-- The body at any point: by cases on whether the point is a multiple of 16. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  have hN : t.val < 256 := lt_of_lt_of_eq t.isLt (show cfg2.N = 256 from N_2)
  by_cases h0 : t.val % 16 = 0
  · rw [outsAt2_A V c t h0]
    unfold sout2_A out2_A; (try dsimp only)
    by_cases hz : t.val = 0
    · rw [PhiS2_castSucc V c t, PhiS2_zero V c _ _ hz]
      iintro ⟨HΦ, Ho, ⟨%d0, H0⟩, ⟨%d1, H1⟩, ⟨%d2, H2⟩⟩
      ihave HΦ' := (PhiA2_split (F := F) c) $$ HΦ
      icases HΦ' with ⟨HS0, Hw⟩
      unfold scratchAny2
      iapply ((kernelRun2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover2_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover2_A c _ _ _ _ _ _ _ _ _ _ _ _)
    · rw [PhiS2_castSucc V c t, PhiS2_pos V c _ _ hz]
      iintro ⟨⟨HS0, Hw⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover2_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover2_A c _ _ _ _ _ _ _ _ _ _ _ _)
  · have hz : t.val ≠ 0 := fun e => h0 (by rw [e])
    rw [outsAt2_B V c t h0]
    unfold out2_B; (try dsimp only)
    rw [PhiS2_castSucc V c t, PhiS2_pos V c _ _ hz]
    iintro ⟨⟨HS0, Hw⟩, Ho, ⟨%d0, H0⟩, ⟨%d1, H1⟩, ⟨%d2, H2⟩⟩
    iapply ((kernelRun2_B c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hw]
    · isplitl [HS0]; · iexact HS0
      iexact Hw
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 256 := N_2; omega)]
  iintro ⟨HS0, Hw⟩
  iapply Hw
  unfold scratchAny2; iexists _; iexact HS0

end Regions

section Run
variable (m : (ℓ : Loc nD τ sig) → Buf (Elt F) ℓ) (ρ : Dev nD → PrngReg)

/-! # The run: what each region is entered with and what it leaves -/

/-- Region 0 is entered with the launch contents after the first weight matrix has been ternarised. -/
abbrev E0 : (c : Dev nD) → (b : Ref sig .tc) → Buf (Elt F) ((c : Thread nD τ).loc b) := fun c b => V5 m c b
/-- The first layer's result: the output array after every write-back of region 0. -/
def out6 (c : Dev nD) : Buf (Elt F) ((c : Thread nD τ).loc main_v9) := (dat0 (E0 m) c).arrAt 2 cfg0.N
/-- The regions' results so far, as the generated valuations read them. -/
def outsA : Outs (F := F) := fun _ r c => if h : r = main_v9 then h ▸ out6 m c else m ((c : Thread nD τ).loc r)
abbrev E1 : (c : Dev nD) → (b : Ref sig .tc) → Buf (Elt F) ((c : Thread nD τ).loc b) := fun c b => V11 m (outsA m) c b
def out12 (c : Dev nD) : Buf (Elt F) ((c : Thread nD τ).loc main_v19) := (dat1 (E1 m) c).arrAt 2 cfg1.N
def outsB : Outs (F := F) := fun _ r c => if h : r = main_v9 then h ▸ out6 m c else if h : r = main_v19 then h ▸ out12 m c else m ((c : Thread nD τ).loc r)
abbrev E2 : (c : Dev nD) → (b : Ref sig .tc) → Buf (Elt F) ((c : Thread nD τ).loc b) := fun c b => V17 m (outsB m) c b
def out18 (c : Dev nD) : Buf (Elt F) ((c : Thread nD τ).loc main_v29) := (dat2 (E2 m) c).arrAt 2 cfg2.N
def outs : Outs (F := F) := fun _ r c => if h : r = main_v9 then h ▸ out6 m c else if h : r = main_v19 then h ▸ out12 m c
  else if h : r = main_v29 then h ▸ out18 m c else m ((c : Thread nD τ).loc r)

theorem outsA_v9 (J : ℕ) (c : Dev nD) : outsA m J main_v9 c = out6 m c := by unfold outsA; rw [dif_pos rfl]
theorem outsB_v9 (J : ℕ) (c : Dev nD) : outsB m J main_v9 c = out6 m c := by unfold outsB; rw [dif_pos rfl]
theorem outs_v9 (J : ℕ) (c : Dev nD) : outs m J main_v9 c = out6 m c := by unfold outs; rw [dif_pos rfl]
theorem outsB_v19 (J : ℕ) (c : Dev nD) : outsB m J main_v19 c = out12 m c := by
  unfold outsB; rw [dif_neg (by decide), dif_pos rfl]
theorem outs_v19 (J : ℕ) (c : Dev nD) : outs m J main_v19 c = out12 m c := by
  unfold outs; rw [dif_neg (by decide), dif_pos rfl]
theorem outs_v29 (J : ℕ) (c : Dev nD) : outs m J main_v29 c = out18 m c := by
  unfold outs; rw [dif_neg (by decide), dif_neg (by decide), dif_pos rfl]

/-- The contents before region 1 depend on the regions' results only through the first layer's. -/
theorem V11_congr (o o' : Outs (F := F)) (c : Dev nD) (h : o 6 main_v9 c = o' 6 main_v9 c) : V11 m o c = V11 m o' c :=
  congrArg (fun x => StableHlo.after hostOps1_4 (StableHlo.after hostOps1_3 (StableHlo.after hostOps1_2 (StableHlo.after hostOps1_1
    (StableHlo.after hostOps1 (Function.update (V5 m c) main_v9 x)))))) h
/-- And those before region 2 through the first two layers'. -/
theorem V17_congr (o o' : Outs (F := F)) (c : Dev nD) (h : o 6 main_v9 c = o' 6 main_v9 c) (h' : o 12 main_v19 c = o' 12 main_v19 c) :
    V17 m o c = V17 m o' c := by
  have e : V11 m o c = V11 m o' c := V11_congr m o o' c h
  exact (congrArg (fun x => StableHlo.after hostOps2_4 (StableHlo.after hostOps2_3 (StableHlo.after hostOps2_2 (StableHlo.after hostOps2_1
    (StableHlo.after hostOps2 (Function.update (V11 m o c) main_v19 x)))))) h').trans
    (congrArg (fun y => StableHlo.after hostOps2_4 (StableHlo.after hostOps2_3 (StableHlo.after hostOps2_2 (StableHlo.after hostOps2_1
    (StableHlo.after hostOps2 (Function.update y main_v19 (o' 12 main_v19 c))))))) e)

theorem V11_outs (c : Dev nD) : V11 m (outs m) c = V11 m (outsA m) c :=
  V11_congr m _ _ c ((outs_v9 m 6 c).trans (outsA_v9 m 6 c).symm)
theorem V17_outs (c : Dev nD) : V17 m (outs m) c = V17 m (outsB m) c :=
  V17_congr m _ _ c ((outs_v9 m 6 c).trans (outsB_v9 m 6 c).symm) ((outs_v19 m 12 c).trans (outsB_v19 m 12 c).symm)

/-- The prefetched tables' admissible contents: no pallas_call has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0
/-- What rides beside the buffers between the segments: the generator register at some state, nothing owed. -/
abbrev R (c : Dev nD) : sProp 𝕄 := iprop((∃ r, prngReg c r) ∗ ∃ W, owes (c : Thread nD τ) (0 : CellTallies nD τ sig Unit) W)

theorem hA0 (c : Dev nD) (w : Fin cfg0.W) : (pdats m 0 c).A w = (fun b => V5 m c b) (Pipeline.arrRef spec0 w) := rfl
theorem hA1 (c : Dev nD) (w : Fin cfg1.W) : (pdats m 1 c).A w = (fun b => V11 m (outs m) c b) (Pipeline.arrRef spec1 w) := by
  show V11 m (outsA m) c (Pipeline.arrRef spec1 w) = V11 m (outs m) c (Pipeline.arrRef spec1 w)
  rw [V11_outs]
theorem hA2 (c : Dev nD) (w : Fin cfg2.W) : (pdats m 2 c).A w = (fun b => V17 m (outs m) c b) (Pipeline.arrRef spec2 w) := by
  show V17 m (outsB m) c (Pipeline.arrRef spec2 w) = V17 m (outs m) c (Pipeline.arrRef spec2 w)
  rw [V17_outs]

/-- After region 0 every array of its pipeline holds what the write-backs left: the two inputs what they held, the
    output the first layer's result. -/
theorem hF0 (c : Dev nD) (w : Fin cfg0.W) : (pdats m 0 c).arrAt w cfg0.N = (fun b => V6 m (outs m) c b) (Pipeline.arrRef spec0 w) := by
  match w with
  | ⟨0, _⟩ => exact ((pdats m 0 c).arrAt_in 0 rfl _).trans ((hA0 m c 0).trans (V6_of m (outs m) c main_arg0 (by decide)).symm)
  | ⟨1, _⟩ => exact ((pdats m 0 c).arrAt_in 1 rfl _).trans ((hA0 m c 1).trans (V6_of m (outs m) c main_v8 (by decide)).symm)
  | ⟨2, _⟩ => exact (show out6 m c = Function.update (V5 m c) (Proc.devRef .tc main_v9 : DevRef τ sig) (outs m 6 main_v9 c) (Proc.devRef .tc main_v9 : DevRef τ sig) from by rw [Function.update_self, outs_v9])
theorem hrest0 (c : Dev nD) : ∀ b, b ∉ Finset.univ.image (Pipeline.arrRef spec0) → (fun b => V6 m (outs m) c b) b = (fun b => V5 m c b) b := fun b hb =>
  V6_of m (outs m) c b (by
    intro h; rw [List.mem_singleton] at h; subst h
    exact hb (Finset.mem_image.mpr ⟨2, Finset.mem_univ _, rfl⟩))
theorem hF1 (c : Dev nD) (w : Fin cfg1.W) : (pdats m 1 c).arrAt w cfg1.N = (fun b => V12 m (outs m) c b) (Pipeline.arrRef spec1 w) := by
  match w with
  | ⟨0, _⟩ => exact ((pdats m 1 c).arrAt_in 0 rfl _).trans ((hA1 m c 0).trans (V12_of m (outs m) c main_v9 (by decide)).symm)
  | ⟨1, _⟩ => exact ((pdats m 1 c).arrAt_in 1 rfl _).trans ((hA1 m c 1).trans (V12_of m (outs m) c main_v18 (by decide)).symm)
  | ⟨2, _⟩ => exact (show out12 m c = Function.update (V11 m (outs m) c) (Proc.devRef .tc main_v19 : DevRef τ sig) (outs m 12 main_v19 c) (Proc.devRef .tc main_v19 : DevRef τ sig) from by rw [Function.update_self, outs_v19])
theorem hrest1 (c : Dev nD) : ∀ b, b ∉ Finset.univ.image (Pipeline.arrRef spec1) → (fun b => V12 m (outs m) c b) b = (fun b => V11 m (outs m) c b) b := fun b hb =>
  V12_of m (outs m) c b (by
    intro h; rw [List.mem_singleton] at h; subst h
    exact hb (Finset.mem_image.mpr ⟨2, Finset.mem_univ _, rfl⟩))
theorem hF2 (c : Dev nD) (w : Fin cfg2.W) : (pdats m 2 c).arrAt w cfg2.N = (fun b => V18 m (outs m) c b) (Pipeline.arrRef spec2 w) := by
  match w with
  | ⟨0, _⟩ => exact ((pdats m 2 c).arrAt_in 0 rfl _).trans ((hA2 m c 0).trans (V18_of m (outs m) c main_v19 (by decide)).symm)
  | ⟨1, _⟩ => exact ((pdats m 2 c).arrAt_in 1 rfl _).trans ((hA2 m c 1).trans (V18_of m (outs m) c main_v28 (by decide)).symm)
  | ⟨2, _⟩ => exact (show out18 m c = Function.update (V17 m (outs m) c) (Proc.devRef .tc main_v29 : DevRef τ sig) (outs m 18 main_v29 c) (Proc.devRef .tc main_v29 : DevRef τ sig) from by rw [Function.update_self, outs_v29])
theorem hrest2 (c : Dev nD) : ∀ b, b ∉ Finset.univ.image (Pipeline.arrRef spec2) → (fun b => V18 m (outs m) c b) b = (fun b => V17 m (outs m) c b) b := fun b hb =>
  V18_of m (outs m) c b (by
    intro h; rw [List.mem_singleton] at h; subst h
    exact hb (Finset.mem_image.mpr ⟨2, Finset.mem_univ _, rfl⟩))

/-! # The regions as segments -/

set_option backward.isDefEq.respectTransparency.types false in
/-- Region 0 between the thread states "every unscoped buffer at the contents before it" and "… after it": its arrays
    split out of the unscoped buffers and put back with the output array at what the write-backs left; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E0 m) c)
    unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the thread states "every unscoped buffer at the contents before it" and "… after it": its arrays
    split out of the unscoped buffers and put back with the output array at what the write-backs left; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V11 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V11 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V11 m (outs m) c b) (fun b => V12 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the thread states "every unscoped buffer at the contents before it" and "… after it": its arrays
    split out of the unscoped buffers and put back with the output array at what the write-backs left; the generator
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V17 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V17 m (outs m) c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (E2 m) c)
    unfold Pipeline.ΦA
    iintro ⟨Hp, -, Hr⟩
    isplitl [Hr]; · iexact Hr
    iexact Hp
  hout c := by
    refine (hout2 (E2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V17 m (outs m) c b) (fun b => V18 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The frame -/

theorem rest_of_launch (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄) ⊢ R c := by
  iintro ⟨-, HO, -, Hp, -⟩
  isplitl [Hp]; · iexists _; iexact Hp
  iexists ∅; iexact HO

set_option backward.isDefEq.respectTransparency.types false in
/-- Every weakly fair execution of @main terminates without a fault and leaves the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have h : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
          ⊢ (bigSep Finset.univ (fun c : Dev nD => R c) : sProp 𝕄) := bigSep_mono fun c _ => rest_of_launch ρ c
      iintro ⟨H, -⟩
      imodintro
      iapply h
      iexact H)
    (fun c => by iintro ⟨-, HO⟩; iexact HO)
    (reg0 m) (fun _ => .rfl) (fun _ => .rfl)
    (reg1 m) (fun _ => .rfl) (fun _ => .rfl)
    (reg2 m) (fun _ => .rfl) (fun _ => .rfl)

end Run

end Cert.Kernel.Hand

end
-- ==== Proof.IdealRun0.lean ====
import proofs.«146089_j31688268710666_2_alg».proof.Proof.Gen.KernelIdeal.Launch
import proofs.«146089_j31688268710666_2_alg».proof.Proof.Gen.KernelIdeal.Skeleton
import proofs.«146089_j31688268710666_2_alg».proof.Proof.Gen.KernelIdeal.Points
import proofs.«146089_j31688268710666_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The body of pallas_call 0 on whole staging memrefs, in its two control cases.

Grid point (i, j) works on rows [512 i, 512 i + 512) of the activations and rows [256 j, 256 j + 256) of the
ternary weights. When j = 0 the body first fills the scratch, 128 rows at a time, with the activation
silu (rmsnorm x) of the point's 512 rows; at every point it then multiplies the scratch by the transposed
weight block and stores the 512 x 256 product. -/

set_option maxHeartbeats 4000000 in
/-- Case j = 0: the scratch, held at anything, ends with four stored slabs; the output block with one store. -/
noncomputable def kernelRun0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) :
    Σ' (L2 : List (View.Piece (Elt F) S512x256 .f32)), { LS0 : List (View.Piece (Elt F) S512x4096 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__block_kernel i arg2 harg2 arg3 harg3 arg4 harg4 arg5 harg5) K } := by
  refine ⟨?_, ?_, fun E K => ?run⟩
  case run =>
    simp only [cc0__block_kernel_eq_skeleton]; unfold cc0__block_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

set_option maxHeartbeats 4000000 in
/-- Case j ≠ 0: the scratch, held at what the row's first point left, is read and handed back; the output block
    ends with one store. -/
noncomputable def kernelRun0_B (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k0_cond1 i = 1#1)
    (x0 : Vec F S512x4096 .f32) (x1 : Vec F S256x4096 .bf16) (xs0 : Vec F S512x4096 .bf16) :
    { L2 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xs0) -∗ K ⟨⟩))
          ⊢ wp frame (wpE (defs₀ (F := F)) Variants.none c none) E (cc0__block_kernel i arg2 harg2 arg3 harg3 arg4 harg4 arg5 harg5) K } := by
  refine ⟨?_, fun E K => ?run⟩
  case run =>
    simp only [cc0__block_kernel_eq_skeleton]; unfold cc0__block_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS0

end Cert.KernelIdeal.Hand

end
-- ==== Proof.IdealRun1.lean ====
import proofs.«146089_j31688268710666_2_alg».proof.Proof.Gen.KernelIdeal.Launch
import proofs.«146089_j31688268710666_2_alg».proof.Proof.Gen.KernelIdeal.Skeleton
import proofs.«146089_j31688268710666_2_alg».proof.Proof.Gen.KernelIdeal.Points
import proofs.«146089_j31688268710666_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The body of pallas_call 1 on whole staging memrefs, in its two control cases.

Grid point (i, j) works on rows [512 i, 512 i + 512) of the activations and rows [256 j, 256 j + 256) of the
ternary weights. When j = 0 the body first fills the scratch, 128 rows at a time, with the activation
silu (rmsnorm x) of the point's 512 rows; at every point it then multiplies the scratch by the transposed
weight block and stores the 512 x 256 product. -/

set_option maxHeartbeats 4000000 in
/-- Case j = 0: the scratch, held at anything, ends with four stored slabs; the output block with one store. -/
noncomputable def kernelRun1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) :
    Σ' (L2 : List (View.Piece (Elt F) S512x256 .f32)), { LS0 : List (View.Piece (Elt F) S512x4096 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc1__block_kernel i arg2 harg2 arg3 harg3 arg4 harg4 arg5 harg5) K } := by
  refine ⟨?_, ?_, fun E K => ?run⟩
  case run =>
    simp only [cc1__block_kernel_eq_skeleton]; unfold cc1__block_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

set_option maxHeartbeats 4000000 in
/-- Case j ≠ 0: the scratch, held at what the row's first point left, is read and handed back; the output block
    ends with one store. -/
noncomputable def kernelRun1_B (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k1_cond1 i = 1#1)
    (x0 : Vec F S512x4096 .f32) (x1 : Vec F S256x4096 .bf16) (xs0 : Vec F S512x4096 .bf16) :
    { L2 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xs0) -∗ K ⟨⟩))
          ⊢ wp frame (wpE (defs₀ (F := F)) Variants.none c none) E (cc1__block_kernel i arg2 harg2 arg3 harg3 arg4 harg4 arg5 harg5) K } := by
  refine ⟨?_, fun E K => ?run⟩
  case run =>
    simp only [cc1__block_kernel_eq_skeleton]; unfold cc1__block_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS0

end Cert.KernelIdeal.Hand

end
-- ==== Proof.IdealRun2.lean ====
import proofs.«146089_j31688268710666_2_alg».proof.Proof.Gen.KernelIdeal.Launch
import proofs.«146089_j31688268710666_2_alg».proof.Proof.Gen.KernelIdeal.Skeleton
import proofs.«146089_j31688268710666_2_alg».proof.Proof.Gen.KernelIdeal.Points
import proofs.«146089_j31688268710666_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The body of pallas_call 2 on whole staging memrefs, in its two control cases.

Grid point (i, j) works on rows [512 i, 512 i + 512) of the activations and rows [256 j, 256 j + 256) of the
ternary weights. When j = 0 the body first fills the scratch, 128 rows at a time, with the activation
silu (rmsnorm x) of the point's 512 rows; at every point it then multiplies the scratch by the transposed
weight block and stores the 512 x 256 product. -/

set_option maxHeartbeats 4000000 in
/-- Case j = 0: the scratch, held at anything, ends with four stored slabs; the output block with one store. -/
noncomputable def kernelRun2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) :
    Σ' (L2 : List (View.Piece (Elt F) S512x256 .f32)), { LS0 : List (View.Piece (Elt F) S512x4096 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2__block_kernel i arg2 harg2 arg3 harg3 arg4 harg4 arg5 harg5) K } := by
  refine ⟨?_, ?_, fun E K => ?run⟩
  case run =>
    simp only [cc2__block_kernel_eq_skeleton]; unfold cc2__block_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

set_option maxHeartbeats 4000000 in
/-- Case j ≠ 0: the scratch, held at what the row's first point left, is read and handed back; the output block
    ends with one store. -/
noncomputable def kernelRun2_B (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k2_cond1 i = 1#1)
    (x0 : Vec F S512x4096 .f32) (x1 : Vec F S256x4096 .bf16) (xs0 : Vec F S512x4096 .bf16) :
    { L2 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xs0) -∗ K ⟨⟩))
          ⊢ wp frame (wpE (defs₀ (F := F)) Variants.none c none) E (cc2__block_kernel i arg2 harg2 arg3 harg3 arg4 harg4 arg5 harg5) K } := by
  refine ⟨?_, fun E K => ?run⟩
  case run =>
    simp only [cc2__block_kernel_eq_skeleton]; unfold cc2__block_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS0

end Cert.KernelIdeal.Hand

end
-- ==== Proof.IdealFrame.lean ====
import proofs.«146089_j31688268710666_2_alg».proof.Proof.Gen.KernelIdeal.Launch
import proofs.«146089_j31688268710666_2_alg».proof.Proof.Gen.KernelIdeal.Skeleton
import proofs.«146089_j31688268710666_2_alg».proof.Proof.Gen.KernelIdeal.Points
import proofs.«146089_j31688268710666_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146089_j31688268710666_2_alg».proof.Proof.IdealRun0
import proofs.«146089_j31688268710666_2_alg».proof.Proof.IdealRun1
import proofs.«146089_j31688268710666_2_alg».proof.Proof.IdealRun2
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The frame of the whole program: three pallas_calls among stretches of host operations. Per region, at the contents
`V` it is entered with: each window's block, what the body leaves in the output block and in the scratch point by point,
the pipeline's proof data (the invariant tracks the scratch: filled when the second grid coordinate is zero, read at the
other points of the same row block), the body obligation. Then the run: the contents each region leaves, the regions as
segments, and the frame over the generated host side. -/

section Regions
variable (V : (c : Dev nD) → (b : Ref sig .tc) → Buf (Elt F) ((c : Thread nD τ).loc b))

/-! # Region 0: pallas_call 0 at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's 512 rows whether or not they were fetched there: between two
    fetches the row block does not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the point's 256 rows. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second grid coordinate is zero exactly at the points that are multiples of 16 (the grid is 16 x 16, row-major). -/
theorem hcond0 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The views through which the output block's and the scratch's contents are stated. -/
abbrev VO0 : View sig .tc .vmem S512x256 .f32 := (Memref.whole cc0_stg2_0 : Memref sig .tc .vmem S512x256 .f32).view
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev scM0 : Memref sig .tc .vmem S512x4096 .bf16 := Memref.whole cc0_scratch0
abbrev VS0 : View sig .tc .vmem S512x4096 .bf16 := scM0.view

/-- The four slabs stored when j = 0 tile the scratch. -/
theorem scover0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) (y : S512x4096.Idx) :
    ∃ pc ∈ (kernelRun0_A c i arg2 harg2 arg3 harg3 arg4 harg4 arg5 harg5 hc x0 x1).2.1, y ∈ pc.1.set :=
  View.cover_of_tiledL (kernelRun0_A c i arg2 harg2 arg3 harg3 arg4 harg4 arg5 harg5 hc x0 x1).2.1 S128x4096.size (by sl_kernel_rfl) y
/-- What the scratch holds after a point with j = 0. -/
def sout0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) : Vec F S512x4096 .bf16 :=
  VS0.read (Elt F) (VS0.writes (Elt F) VS0.junk (kernelRun0_A c i arg2 harg2 arg3 harg3 arg4 harg4 arg5 harg5 hc x0 x1).2.1)
/-- The one store of the product covers the output block, in either case. -/
theorem cover0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) (y : S512x256.Idx) :
    ∃ pc ∈ (kernelRun0_A c i arg2 harg2 arg3 harg3 arg4 harg4 arg5 harg5 hc x0 x1).1, y ∈ pc.1.set :=
  View.cover_of_tiledL (kernelRun0_A c i arg2 harg2 arg3 harg3 arg4 harg4 arg5 harg5 hc x0 x1).1 S512x256.size (by sl_kernel_rfl) y
def out0_A (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec F S512x4096 .f32) (x1 : Vec F S256x4096 .bf16) : Vec F S512x256 .f32 :=
  VO0.read (Elt F) (VO0.writes (Elt F) VO0.junk (kernelRun0_A c i arg2 harg2 arg3 harg3 arg4 harg4 arg5 harg5 hc x0 x1).1)
theorem cover0_B (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k0_cond1 i = 1#1)
    (x0 : Vec F S512x4096 .f32) (x1 : Vec F S256x4096 .bf16) (xs0 : Vec F S512x4096 .bf16) (y : S512x256.Idx) :
    ∃ pc ∈ (kernelRun0_B c i arg2 harg2 arg3 harg3 arg4 harg4 arg5 harg5 hc x0 x1 xs0).1, y ∈ pc.1.set :=
  View.cover_of_tiledL (kernelRun0_B c i arg2 harg2 arg3 harg3 arg4 harg4 arg5 harg5 hc x0 x1 xs0).1 S512x256.size (by sl_kernel_rfl) y
def out0_B (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k0_cond1 i = 1#1)
    (x0 : Vec F S512x4096 .f32) (x1 : Vec F S256x4096 .bf16) (xs0 : Vec F S512x4096 .bf16) : Vec F S512x256 .f32 :=
  VO0.read (Elt F) (VO0.writes (Elt F) VO0.junk (kernelRun0_B c i arg2 harg2 arg3 harg3 arg4 harg4 arg5 harg5 hc x0 x1 xs0).1)

/-- What the output block and the scratch hold after the body at position `n`, by recursion on the position: at a
    multiple of 16 the scratch is refilled from the point's rows, elsewhere it is what the point before left. -/
def outsAt0 (c : Dev nD) : (n : ℕ) → n < cfg0.N → Vec F S512x256 .f32 × Vec F S512x4096 .bf16
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 16 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2,
        (outsAt0 c n (Nat.lt_of_succ_lt hn)).2)

theorem outsAt0_A (c : Dev nD) (t : Fin cfg0.N) (h0 : t.val % 16 = 0) :
    outsAt0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The scratch at anything. -/
def scratchAny0 (c : Dev nD) : sProp 𝕄 := iprop(∃ d, owns (c : Thread nD τ) scM0 fullShare d)

/-- The region's invariant before position `n`: before the first point what the launch hands over (every scoped buffer
    no window stages at anything, the generator register at some state); afterwards the same with the scratch taken out
    and held at what the point before left in it. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ (scratchAny0 (F := F) c -∗ Pipeline.ΦA spec0 c))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare ((outsAt0 V c n hn).2) ∗ (scratchAny0 (F := F) c -∗ Pipeline.ΦA spec0 c)) := rfl
theorem PhiS0_pos (c : Dev nD) (n : ℕ) (h : n ≤ cfg0.N) (hz : n ≠ 0) :
    PhiS0 V c n h = iprop(owns (c : Thread nD τ) scM0 fullShare ((outsAt0 V c (n - 1) (by omega)).2) ∗ (scratchAny0 (F := F) c -∗ Pipeline.ΦA spec0 c)) := by
  cases n with
  | zero => exact absurd rfl hz
  | succ n => rfl

/-- What the launch hands over splits into the scratch at anything and the way back. -/
theorem PhiA0_split (c : Dev nD) :
    (Pipeline.ΦA spec0 c : sProp 𝕄) ⊢ iprop(scratchAny0 (F := F) c ∗ (scratchAny0 (F := F) c -∗ Pipeline.ΦA spec0 c)) := by
  unfold Pipeline.ΦA scratchAny0; rw [scopedRest0_eq]; simp only [scM0, owns_whole]
  iintro ⟨⟨HS0, Hrest⟩, Hg⟩
  isplitl [HS0]; · iexact HS0
  iintro HS0
  isplitr [Hg]
  isplitl [HS0]; · iexact HS0
  iexact Hrest
  iexact Hg

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: by cases on whether the point is a multiple of 16. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  have hN : t.val < 256 := lt_of_lt_of_eq t.isLt (show cfg0.N = 256 from N_0)
  by_cases h0 : t.val % 16 = 0
  · rw [outsAt0_A V c t h0]
    unfold sout0_A out0_A; (try dsimp only)
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_split (F := F) c) $$ HΦ
      icases HΦ' with ⟨HS0, Hw⟩
      unfold scratchAny0
      iapply ((kernelRun0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover0_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS0_castSucc V c t, PhiS0_pos V c _ _ hz]
      iintro ⟨⟨HS0, Hw⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover0_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · have hz : t.val ≠ 0 := fun e => h0 (by rw [e])
    rw [outsAt0_B V c t h0]
    unfold out0_B; (try dsimp only)
    rw [PhiS0_castSucc V c t, PhiS0_pos V c _ _ hz]
    iintro ⟨⟨HS0, Hw⟩, Ho, ⟨%d0, H0⟩, ⟨%d1, H1⟩, ⟨%d2, H2⟩⟩
    iapply ((kernelRun0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hw]
    · isplitl [HS0]; · iexact HS0
      iexact Hw
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega)]
  iintro ⟨HS0, Hw⟩
  iapply Hw
  unfold scratchAny0; iexists _; iexact HS0

/-! # Region 1: pallas_call 1 at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's 512 rows whether or not they were fetched there: between two
    fetches the row block does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weights' staging buffer holds the point's 256 rows. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The second grid coordinate is zero exactly at the points that are multiples of 16 (the grid is 16 x 16, row-major). -/
theorem hcond1 : ∀ t : Fin cfg1.N, k1_cond1 (grid1.coords t) = 1#1 ↔ t.val % 16 = 0 :=
  (by decide +kernel : ∀ t : Fin grid1.N, k1_cond1 (grid1.coords t) = 1#1 ↔ t.val % 16 = 0)

/-- The views through which the output block's and the scratch's contents are stated. -/
abbrev VO1 : View sig .tc .vmem S512x256 .f32 := (Memref.whole cc1_stg2_0 : Memref sig .tc .vmem S512x256 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev scM1 : Memref sig .tc .vmem S512x4096 .bf16 := Memref.whole cc1_scratch0
abbrev VS1 : View sig .tc .vmem S512x4096 .bf16 := scM1.view

/-- The four slabs stored when j = 0 tile the scratch. -/
theorem scover1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) (y : S512x4096.Idx) :
    ∃ pc ∈ (kernelRun1_A c i arg2 harg2 arg3 harg3 arg4 harg4 arg5 harg5 hc x0 x1).2.1, y ∈ pc.1.set :=
  View.cover_of_tiledL (kernelRun1_A c i arg2 harg2 arg3 harg3 arg4 harg4 arg5 harg5 hc x0 x1).2.1 S128x4096.size (by sl_kernel_rfl) y
/-- What the scratch holds after a point with j = 0. -/
def sout1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) : Vec F S512x4096 .bf16 :=
  VS1.read (Elt F) (VS1.writes (Elt F) VS1.junk (kernelRun1_A c i arg2 harg2 arg3 harg3 arg4 harg4 arg5 harg5 hc x0 x1).2.1)
/-- The one store of the product covers the output block, in either case. -/
theorem cover1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) (y : S512x256.Idx) :
    ∃ pc ∈ (kernelRun1_A c i arg2 harg2 arg3 harg3 arg4 harg4 arg5 harg5 hc x0 x1).1, y ∈ pc.1.set :=
  View.cover_of_tiledL (kernelRun1_A c i arg2 harg2 arg3 harg3 arg4 harg4 arg5 harg5 hc x0 x1).1 S512x256.size (by sl_kernel_rfl) y
def out1_A (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec F S512x4096 .f32) (x1 : Vec F S256x4096 .bf16) : Vec F S512x256 .f32 :=
  VO1.read (Elt F) (VO1.writes (Elt F) VO1.junk (kernelRun1_A c i arg2 harg2 arg3 harg3 arg4 harg4 arg5 harg5 hc x0 x1).1)
theorem cover1_B (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k1_cond1 i = 1#1)
    (x0 : Vec F S512x4096 .f32) (x1 : Vec F S256x4096 .bf16) (xs0 : Vec F S512x4096 .bf16) (y : S512x256.Idx) :
    ∃ pc ∈ (kernelRun1_B c i arg2 harg2 arg3 harg3 arg4 harg4 arg5 harg5 hc x0 x1 xs0).1, y ∈ pc.1.set :=
  View.cover_of_tiledL (kernelRun1_B c i arg2 harg2 arg3 harg3 arg4 harg4 arg5 harg5 hc x0 x1 xs0).1 S512x256.size (by sl_kernel_rfl) y
def out1_B (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k1_cond1 i = 1#1)
    (x0 : Vec F S512x4096 .f32) (x1 : Vec F S256x4096 .bf16) (xs0 : Vec F S512x4096 .bf16) : Vec F S512x256 .f32 :=
  VO1.read (Elt F) (VO1.writes (Elt F) VO1.junk (kernelRun1_B c i arg2 harg2 arg3 harg3 arg4 harg4 arg5 harg5 hc x0 x1 xs0).1)

/-- What the output block and the scratch hold after the body at position `n`, by recursion on the position: at a
    multiple of 16 the scratch is refilled from the point's rows, elsewhere it is what the point before left. -/
def outsAt1 (c : Dev nD) : (n : ℕ) → n < cfg1.N → Vec F S512x256 .f32 × Vec F S512x4096 .bf16
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1 ⟨0, hn⟩).mpr (Nat.zero_mod _)) (iblk1 V c 0 ⟨0, hn⟩) (iblk1 V c 1 ⟨0, hn⟩))
  | n + 1, hn =>
    if h0 : (n + 1) % 16 = 0 then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1 ⟨n + 1, hn⟩).mpr h0) (iblk1 V c 0 ⟨n + 1, hn⟩) (iblk1 V c 1 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2,
        (outsAt1 c n (Nat.lt_of_succ_lt hn)).2)

theorem outsAt1_A (c : Dev nD) (t : Fin cfg1.N) (h0 : t.val % 16 = 0) :
    outsAt1 V c t.val t.isLt = (out1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t),
      sout1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The scratch at anything. -/
def scratchAny1 (c : Dev nD) : sProp 𝕄 := iprop(∃ d, owns (c : Thread nD τ) scM1 fullShare d)

/-- The region's invariant before position `n`: before the first point what the launch hands over (every scoped buffer
    no window stages at anything, the generator register at some state); afterwards the same with the scratch taken out
    and held at what the point before left in it. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ (scratchAny1 (F := F) c -∗ Pipeline.ΦA spec1 c))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ (scratchAny1 (F := F) c -∗ Pipeline.ΦA spec1 c)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ (scratchAny1 (F := F) c -∗ Pipeline.ΦA spec1 c)) := by
  cases n with
  | zero => exact absurd rfl hz
  | succ n => rfl

/-- What the launch hands over splits into the scratch at anything and the way back. -/
theorem PhiA1_split (c : Dev nD) :
    (Pipeline.ΦA spec1 c : sProp 𝕄) ⊢ iprop(scratchAny1 (F := F) c ∗ (scratchAny1 (F := F) c -∗ Pipeline.ΦA spec1 c)) := by
  unfold Pipeline.ΦA scratchAny1; rw [scopedRest1_eq]; simp only [scM1, owns_whole]
  iintro ⟨⟨A0, A1, A2, A3, A4, A5, A6, HS0, Hrest⟩, Hg⟩
  isplitl [HS0]; · iexact HS0
  iintro HS0
  isplitr [Hg]
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [HS0]; · iexact HS0
  iexact Hrest
  iexact Hg

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
/-- The body at any point: by cases on whether the point is a multiple of 16. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  have hN : t.val < 256 := lt_of_lt_of_eq t.isLt (show cfg1.N = 256 from N_1)
  by_cases h0 : t.val % 16 = 0
  · rw [outsAt1_A V c t h0]
    unfold sout1_A out1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_split (F := F) c) $$ HΦ
      icases HΦ' with ⟨HS0, Hw⟩
      unfold scratchAny1
      iapply ((kernelRun1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover1_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
    · rw [PhiS1_castSucc V c t, PhiS1_pos V c _ _ hz]
      iintro ⟨⟨HS0, Hw⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) ((hcond1 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover1_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
  · have hz : t.val ≠ 0 := fun e => h0 (by rw [e])
    rw [outsAt1_B V c t h0]
    unfold out1_B; (try dsimp only)
    rw [PhiS1_castSucc V c t, PhiS1_pos V c _ _ hz]
    iintro ⟨⟨HS0, Hw⟩, Ho, ⟨%d0, H0⟩, ⟨%d1, H1⟩, ⟨%d2, H2⟩⟩
    iapply ((kernelRun1_B c (grid1.coords t) (ms1_0 t) (hs1_0 t) (ms1_1 t) (hs1_1 t) (ms1_2 t) (hs1_2 t) scM1 (Memref.isWhole_whole _) (fun h => h0 ((hcond1 t).mp h)) (iblk1 V c 0 t) (iblk1 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hw]
    · isplitl [HS0]; · iexact HS0
      iexact Hw
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨HS0, Hw⟩
  iapply Hw
  unfold scratchAny1; iexists _; iexact HS0

/-! # Region 2: pallas_call 2 at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's 512 rows whether or not they were fetched there: between two
    fetches the row block does not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weights' staging buffer holds the point's 256 rows. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The second grid coordinate is zero exactly at the points that are multiples of 16 (the grid is 16 x 16, row-major). -/
theorem hcond2 : ∀ t : Fin cfg2.N, k2_cond1 (grid2.coords t) = 1#1 ↔ t.val % 16 = 0 :=
  (by decide +kernel : ∀ t : Fin grid2.N, k2_cond1 (grid2.coords t) = 1#1 ↔ t.val % 16 = 0)

/-- The views through which the output block's and the scratch's contents are stated. -/
abbrev VO2 : View sig .tc .vmem S512x256 .f32 := (Memref.whole cc2_stg2_0 : Memref sig .tc .vmem S512x256 .f32).view
abbrev ms2_0 (t : Fin cfg2.N) : Memref sig .tc .vmem S512x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x256 .f32 := win2_2.stage (cfg2.slots t 2)
abbrev hs2_2 (t : Fin cfg2.N) : (ms2_2 t).IsWhole := hstage2_2 ((cfg2.slots t 2).cast nbuf2_2)
abbrev scM2 : Memref sig .tc .vmem S512x4096 .bf16 := Memref.whole cc2_scratch0
abbrev VS2 : View sig .tc .vmem S512x4096 .bf16 := scM2.view

/-- The four slabs stored when j = 0 tile the scratch. -/
theorem scover2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) (y : S512x4096.Idx) :
    ∃ pc ∈ (kernelRun2_A c i arg2 harg2 arg3 harg3 arg4 harg4 arg5 harg5 hc x0 x1).2.1, y ∈ pc.1.set :=
  View.cover_of_tiledL (kernelRun2_A c i arg2 harg2 arg3 harg3 arg4 harg4 arg5 harg5 hc x0 x1).2.1 S128x4096.size (by sl_kernel_rfl) y
/-- What the scratch holds after a point with j = 0. -/
def sout2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) : Vec F S512x4096 .bf16 :=
  VS2.read (Elt F) (VS2.writes (Elt F) VS2.junk (kernelRun2_A c i arg2 harg2 arg3 harg3 arg4 harg4 arg5 harg5 hc x0 x1).2.1)
/-- The one store of the product covers the output block, in either case. -/
theorem cover2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) (y : S512x256.Idx) :
    ∃ pc ∈ (kernelRun2_A c i arg2 harg2 arg3 harg3 arg4 harg4 arg5 harg5 hc x0 x1).1, y ∈ pc.1.set :=
  View.cover_of_tiledL (kernelRun2_A c i arg2 harg2 arg3 harg3 arg4 harg4 arg5 harg5 hc x0 x1).1 S512x256.size (by sl_kernel_rfl) y
def out2_A (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec F S512x4096 .f32) (x1 : Vec F S256x4096 .bf16) : Vec F S512x256 .f32 :=
  VO2.read (Elt F) (VO2.writes (Elt F) VO2.junk (kernelRun2_A c i arg2 harg2 arg3 harg3 arg4 harg4 arg5 harg5 hc x0 x1).1)
theorem cover2_B (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k2_cond1 i = 1#1)
    (x0 : Vec F S512x4096 .f32) (x1 : Vec F S256x4096 .bf16) (xs0 : Vec F S512x4096 .bf16) (y : S512x256.Idx) :
    ∃ pc ∈ (kernelRun2_B c i arg2 harg2 arg3 harg3 arg4 harg4 arg5 harg5 hc x0 x1 xs0).1, y ∈ pc.1.set :=
  View.cover_of_tiledL (kernelRun2_B c i arg2 harg2 arg3 harg3 arg4 harg4 arg5 harg5 hc x0 x1 xs0).1 S512x256.size (by sl_kernel_rfl) y
def out2_B (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k2_cond1 i = 1#1)
    (x0 : Vec F S512x4096 .f32) (x1 : Vec F S256x4096 .bf16) (xs0 : Vec F S512x4096 .bf16) : Vec F S512x256 .f32 :=
  VO2.read (Elt F) (VO2.writes (Elt F) VO2.junk (kernelRun2_B c i arg2 harg2 arg3 harg3 arg4 harg4 arg5 harg5 hc x0 x1 xs0).1)

/-- What the output block and the scratch hold after the body at position `n`, by recursion on the position: at a
    multiple of 16 the scratch is refilled from the point's rows, elsewhere it is what the point before left. -/
def outsAt2 (c : Dev nD) : (n : ℕ) → n < cfg2.N → Vec F S512x256 .f32 × Vec F S512x4096 .bf16
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩),
      sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2 ⟨0, hn⟩).mpr (Nat.zero_mod _)) (iblk2 V c 0 ⟨0, hn⟩) (iblk2 V c 1 ⟨0, hn⟩))
  | n + 1, hn =>
    if h0 : (n + 1) % 16 = 0 then
      (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2 ⟨n + 1, hn⟩).mpr h0) (iblk2 V c 0 ⟨n + 1, hn⟩) (iblk2 V c 1 ⟨n + 1, hn⟩),
        sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2 ⟨n + 1, hn⟩).mpr h0) (iblk2 V c 0 ⟨n + 1, hn⟩) (iblk2 V c 1 ⟨n + 1, hn⟩))
    else
      (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2 ⟨n + 1, hn⟩).mp h)) (iblk2 V c 0 ⟨n + 1, hn⟩) (iblk2 V c 1 ⟨n + 1, hn⟩) (outsAt2 c n (Nat.lt_of_succ_lt hn)).2,
        (outsAt2 c n (Nat.lt_of_succ_lt hn)).2)

theorem outsAt2_A (c : Dev nD) (t : Fin cfg2.N) (h0 : t.val % 16 = 0) :
    outsAt2 V c t.val t.isLt = (out2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t),
      sout2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t)) := by
  obtain ⟨n, hn⟩ := t
  cases n with
  | zero => exact rfl
  | succ n => exact (dif_pos h0).trans rfl

theorem outsAt2_B (c : Dev nD) (t : Fin cfg2.N) (h0 : ¬t.val % 16 = 0) :
    outsAt2 V c t.val t.isLt = (out2_B c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) (outsAt2 V c (t.val - 1) (Nat.lt_of_le_of_lt (Nat.sub_le _ _) t.isLt)).2,
      (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The scratch at anything. -/
def scratchAny2 (c : Dev nD) : sProp 𝕄 := iprop(∃ d, owns (c : Thread nD τ) scM2 fullShare d)

/-- The region's invariant before position `n`: before the first point what the launch hands over (every scoped buffer
    no window stages at anything, the generator register at some state); afterwards the same with the scratch taken out
    and held at what the point before left in it. -/
def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ (scratchAny2 (F := F) c -∗ Pipeline.ΦA spec2 c))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare ((outsAt2 V c n hn).2) ∗ (scratchAny2 (F := F) c -∗ Pipeline.ΦA spec2 c)) := rfl
theorem PhiS2_pos (c : Dev nD) (n : ℕ) (h : n ≤ cfg2.N) (hz : n ≠ 0) :
    PhiS2 V c n h = iprop(owns (c : Thread nD τ) scM2 fullShare ((outsAt2 V c (n - 1) (by omega)).2) ∗ (scratchAny2 (F := F) c -∗ Pipeline.ΦA spec2 c)) := by
  cases n with
  | zero => exact absurd rfl hz
  | succ n => rfl

/-- What the launch hands over splits into the scratch at anything and the way back. -/
theorem PhiA2_split (c : Dev nD) :
    (Pipeline.ΦA spec2 c : sProp 𝕄) ⊢ iprop(scratchAny2 (F := F) c ∗ (scratchAny2 (F := F) c -∗ Pipeline.ΦA spec2 c)) := by
  unfold Pipeline.ΦA scratchAny2; rw [scopedRest2_eq]; simp only [scM2, owns_whole]
  iintro ⟨⟨A0, A1, A2, A3, A4, A5, A6, A7, A8, A9, A10, A11, A12, A13, HS0⟩, Hg⟩
  isplitl [HS0]; · iexact HS0
  iintro HS0
  isplitr [Hg]
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  iexact HS0
  iexact Hg

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4800000 in
/-- The body at any point: by cases on whether the point is a multiple of 16. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  have hN : t.val < 256 := lt_of_lt_of_eq t.isLt (show cfg2.N = 256 from N_2)
  by_cases h0 : t.val % 16 = 0
  · rw [outsAt2_A V c t h0]
    unfold sout2_A out2_A; (try dsimp only)
    by_cases hz : t.val = 0
    · rw [PhiS2_castSucc V c t, PhiS2_zero V c _ _ hz]
      iintro ⟨HΦ, Ho, ⟨%d0, H0⟩, ⟨%d1, H1⟩, ⟨%d2, H2⟩⟩
      ihave HΦ' := (PhiA2_split (F := F) c) $$ HΦ
      icases HΦ' with ⟨HS0, Hw⟩
      unfold scratchAny2
      iapply ((kernelRun2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover2_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover2_A c _ _ _ _ _ _ _ _ _ _ _ _)
    · rw [PhiS2_castSucc V c t, PhiS2_pos V c _ _ hz]
      iintro ⟨⟨HS0, Hw⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2 (Memref.isWhole_whole _) ((hcond2 t).mpr h0) (iblk2 V c 0 t) (iblk2 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hw]
      · isplitl [HS0]
        · unfold owns; iexists _; isplitr
          swap; · iexact HS0
          ipureintro; exact View.read_writes_of_cover _ _ _ _ _ (scover2_A c _ _ _ _ _ _ _ _ _ _ _ _)
        iexact Hw
      isplitl [Ho]; · iexact Ho
      isplitl [H0]; · iexact H0
      isplitl [H1]; · iexact H1
      unfold owns; iexists _; isplitr
      swap; · iexact H2
      ipureintro; exact View.read_writes_of_cover _ _ _ _ _ (cover2_A c _ _ _ _ _ _ _ _ _ _ _ _)
  · have hz : t.val ≠ 0 := fun e => h0 (by rw [e])
    rw [outsAt2_B V c t h0]
    unfold out2_B; (try dsimp only)
    rw [PhiS2_castSucc V c t, PhiS2_pos V c _ _ hz]
    iintro ⟨⟨HS0, Hw⟩, Ho, ⟨%d0, H0⟩, ⟨%d1, H1⟩, ⟨%d2, H2⟩⟩
    iapply ((kernelRun2_B c (grid2.coords t) (ms2_0 t) (hs2_0 t) (ms2_1 t) (hs2_1 t) (ms2_2 t) (hs2_2 t) scM2 (Memref.isWhole_whole _) (fun h => h0 ((hcond2 t).mp h)) (iblk2 V c 0 t) (iblk2 V c 1 t) _).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hw]
    · isplitl [HS0]; · iexact HS0
      iexact Hw
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 256 := N_2; omega)]
  iintro ⟨HS0, Hw⟩
  iapply Hw
  unfold scratchAny2; iexists _; iexact HS0

end Regions

section Run
variable (m : (ℓ : Loc nD τ sig) → Buf (Elt F) ℓ) (ρ : Dev nD → PrngReg)

/-! # The run: what each region is entered with and what it leaves -/

/-- Region 0 is entered with the launch contents after the first weight matrix has been ternarised. -/
abbrev E0 : (c : Dev nD) → (b : Ref sig .tc) → Buf (Elt F) ((c : Thread nD τ).loc b) := fun c b => V5 m c b
/-- The first layer's result: the output array after every write-back of region 0. -/
def out6 (c : Dev nD) : Buf (Elt F) ((c : Thread nD τ).loc main_v9) := (dat0 (E0 m) c).arrAt 2 cfg0.N
/-- The regions' results so far, as the generated valuations read them. -/
def outsA : Outs (F := F) := fun _ r c => if h : r = main_v9 then h ▸ out6 m c else m ((c : Thread nD τ).loc r)
abbrev E1 : (c : Dev nD) → (b : Ref sig .tc) → Buf (Elt F) ((c : Thread nD τ).loc b) := fun c b => V11 m (outsA m) c b
def out12 (c : Dev nD) : Buf (Elt F) ((c : Thread nD τ).loc main_v19) := (dat1 (E1 m) c).arrAt 2 cfg1.N
def outsB : Outs (F := F) := fun _ r c => if h : r = main_v9 then h ▸ out6 m c else if h : r = main_v19 then h ▸ out12 m c else m ((c : Thread nD τ).loc r)
abbrev E2 : (c : Dev nD) → (b : Ref sig .tc) → Buf (Elt F) ((c : Thread nD τ).loc b) := fun c b => V17 m (outsB m) c b
def out18 (c : Dev nD) : Buf (Elt F) ((c : Thread nD τ).loc main_v29) := (dat2 (E2 m) c).arrAt 2 cfg2.N
def outs : Outs (F := F) := fun _ r c => if h : r = main_v9 then h ▸ out6 m c else if h : r = main_v19 then h ▸ out12 m c
  else if h : r = main_v29 then h ▸ out18 m c else m ((c : Thread nD τ).loc r)

theorem outsA_v9 (J : ℕ) (c : Dev nD) : outsA m J main_v9 c = out6 m c := by unfold outsA; rw [dif_pos rfl]
theorem outsB_v9 (J : ℕ) (c : Dev nD) : outsB m J main_v9 c = out6 m c := by unfold outsB; rw [dif_pos rfl]
theorem outs_v9 (J : ℕ) (c : Dev nD) : outs m J main_v9 c = out6 m c := by unfold outs; rw [dif_pos rfl]
theorem outsB_v19 (J : ℕ) (c : Dev nD) : outsB m J main_v19 c = out12 m c := by
  unfold outsB; rw [dif_neg (by decide), dif_pos rfl]
theorem outs_v19 (J : ℕ) (c : Dev nD) : outs m J main_v19 c = out12 m c := by
  unfold outs; rw [dif_neg (by decide), dif_pos rfl]
theorem outs_v29 (J : ℕ) (c : Dev nD) : outs m J main_v29 c = out18 m c := by
  unfold outs; rw [dif_neg (by decide), dif_neg (by decide), dif_pos rfl]

/-- The contents before region 1 depend on the regions' results only through the first layer's. -/
theorem V11_congr (o o' : Outs (F := F)) (c : Dev nD) (h : o 6 main_v9 c = o' 6 main_v9 c) : V11 m o c = V11 m o' c :=
  congrArg (fun x => StableHlo.after hostOps1_4 (StableHlo.after hostOps1_3 (StableHlo.after hostOps1_2 (StableHlo.after hostOps1_1
    (StableHlo.after hostOps1 (Function.update (V5 m c) main_v9 x)))))) h
/-- And those before region 2 through the first two layers'. -/
theorem V17_congr (o o' : Outs (F := F)) (c : Dev nD) (h : o 6 main_v9 c = o' 6 main_v9 c) (h' : o 12 main_v19 c = o' 12 main_v19 c) :
    V17 m o c = V17 m o' c := by
  have e : V11 m o c = V11 m o' c := V11_congr m o o' c h
  exact (congrArg (fun x => StableHlo.after hostOps2_4 (StableHlo.after hostOps2_3 (StableHlo.after hostOps2_2 (StableHlo.after hostOps2_1
    (StableHlo.after hostOps2 (Function.update (V11 m o c) main_v19 x)))))) h').trans
    (congrArg (fun y => StableHlo.after hostOps2_4 (StableHlo.after hostOps2_3 (StableHlo.after hostOps2_2 (StableHlo.after hostOps2_1
    (StableHlo.after hostOps2 (Function.update y main_v19 (o' 12 main_v19 c))))))) e)

theorem V11_outs (c : Dev nD) : V11 m (outs m) c = V11 m (outsA m) c :=
  V11_congr m _ _ c ((outs_v9 m 6 c).trans (outsA_v9 m 6 c).symm)
theorem V17_outs (c : Dev nD) : V17 m (outs m) c = V17 m (outsB m) c :=
  V17_congr m _ _ c ((outs_v9 m 6 c).trans (outsB_v9 m 6 c).symm) ((outs_v19 m 12 c).trans (outsB_v19 m 12 c).symm)

/-- The prefetched tables' admissible contents: no pallas_call has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0
/-- What rides beside the buffers between the segments: the generator register at some state, nothing owed. -/
abbrev R (c : Dev nD) : sProp 𝕄 := iprop((∃ r, prngReg c r) ∗ ∃ W, owes (c : Thread nD τ) (0 : CellTallies nD τ sig Unit) W)

theorem hA0 (c : Dev nD) (w : Fin cfg0.W) : (pdats m 0 c).A w = (fun b => V5 m c b) (Pipeline.arrRef spec0 w) := rfl
theorem hA1 (c : Dev nD) (w : Fin cfg1.W) : (pdats m 1 c).A w = (fun b => V11 m (outs m) c b) (Pipeline.arrRef spec1 w) := by
  show V11 m (outsA m) c (Pipeline.arrRef spec1 w) = V11 m (outs m) c (Pipeline.arrRef spec1 w)
  rw [V11_outs]
theorem hA2 (c : Dev nD) (w : Fin cfg2.W) : (pdats m 2 c).A w = (fun b => V17 m (outs m) c b) (Pipeline.arrRef spec2 w) := by
  show V17 m (outsB m) c (Pipeline.arrRef spec2 w) = V17 m (outs m) c (Pipeline.arrRef spec2 w)
  rw [V17_outs]

/-- After region 0 every array of its pipeline holds what the write-backs left: the two inputs what they held, the
    output the first layer's result. -/
theorem hF0 (c : Dev nD) (w : Fin cfg0.W) : (pdats m 0 c).arrAt w cfg0.N = (fun b => V6 m (outs m) c b) (Pipeline.arrRef spec0 w) := by
  match w with
  | ⟨0, _⟩ => exact ((pdats m 0 c).arrAt_in 0 rfl _).trans ((hA0 m c 0).trans (V6_of m (outs m) c main_arg0 (by decide)).symm)
  | ⟨1, _⟩ => exact ((pdats m 0 c).arrAt_in 1 rfl _).trans ((hA0 m c 1).trans (V6_of m (outs m) c main_v8 (by decide)).symm)
  | ⟨2, _⟩ => exact (show out6 m c = Function.update (V5 m c) (Proc.devRef .tc main_v9 : DevRef τ sig) (outs m 6 main_v9 c) (Proc.devRef .tc main_v9 : DevRef τ sig) from by rw [Function.update_self, outs_v9])
theorem hrest0 (c : Dev nD) : ∀ b, b ∉ Finset.univ.image (Pipeline.arrRef spec0) → (fun b => V6 m (outs m) c b) b = (fun b => V5 m c b) b := fun b hb =>
  V6_of m (outs m) c b (by
    intro h; rw [List.mem_singleton] at h; subst h
    exact hb (Finset.mem_image.mpr ⟨2, Finset.mem_univ _, rfl⟩))
theorem hF1 (c : Dev nD) (w : Fin cfg1.W) : (pdats m 1 c).arrAt w cfg1.N = (fun b => V12 m (outs m) c b) (Pipeline.arrRef spec1 w) := by
  match w with
  | ⟨0, _⟩ => exact ((pdats m 1 c).arrAt_in 0 rfl _).trans ((hA1 m c 0).trans (V12_of m (outs m) c main_v9 (by decide)).symm)
  | ⟨1, _⟩ => exact ((pdats m 1 c).arrAt_in 1 rfl _).trans ((hA1 m c 1).trans (V12_of m (outs m) c main_v18 (by decide)).symm)
  | ⟨2, _⟩ => exact (show out12 m c = Function.update (V11 m (outs m) c) (Proc.devRef .tc main_v19 : DevRef τ sig) (outs m 12 main_v19 c) (Proc.devRef .tc main_v19 : DevRef τ sig) from by rw [Function.update_self, outs_v19])
theorem hrest1 (c : Dev nD) : ∀ b, b ∉ Finset.univ.image (Pipeline.arrRef spec1) → (fun b => V12 m (outs m) c b) b = (fun b => V11 m (outs m) c b) b := fun b hb =>
  V12_of m (outs m) c b (by
    intro h; rw [List.mem_singleton] at h; subst h
    exact hb (Finset.mem_image.mpr ⟨2, Finset.mem_univ _, rfl⟩))
theorem hF2 (c : Dev nD) (w : Fin cfg2.W) : (pdats m 2 c).arrAt w cfg2.N = (fun b => V18 m (outs m) c b) (Pipeline.arrRef spec2 w) := by
  match w with
  | ⟨0, _⟩ => exact ((pdats m 2 c).arrAt_in 0 rfl _).trans ((hA2 m c 0).trans (V18_of m (outs m) c main_v19 (by decide)).symm)
  | ⟨1, _⟩ => exact ((pdats m 2 c).arrAt_in 1 rfl _).trans ((hA2 m c 1).trans (V18_of m (outs m) c main_v28 (by decide)).symm)
  | ⟨2, _⟩ => exact (show out18 m c = Function.update (V17 m (outs m) c) (Proc.devRef .tc main_v29 : DevRef τ sig) (outs m 18 main_v29 c) (Proc.devRef .tc main_v29 : DevRef τ sig) from by rw [Function.update_self, outs_v29])
theorem hrest2 (c : Dev nD) : ∀ b, b ∉ Finset.univ.image (Pipeline.arrRef spec2) → (fun b => V18 m (outs m) c b) b = (fun b => V17 m (outs m) c b) b := fun b hb =>
  V18_of m (outs m) c b (by
    intro h; rw [List.mem_singleton] at h; subst h
    exact hb (Finset.mem_image.mpr ⟨2, Finset.mem_univ _, rfl⟩))

/-! # The regions as segments -/

set_option backward.isDefEq.respectTransparency.types false in
/-- Region 0 between the thread states "every unscoped buffer at the contents before it" and "… after it": its arrays
    split out of the unscoped buffers and put back with the output array at what the write-backs left; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E0 m) c)
    unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the thread states "every unscoped buffer at the contents before it" and "… after it": its arrays
    split out of the unscoped buffers and put back with the output array at what the write-backs left; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V11 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V11 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V11 m (outs m) c b) (fun b => V12 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the thread states "every unscoped buffer at the contents before it" and "… after it": its arrays
    split out of the unscoped buffers and put back with the output array at what the write-backs left; the generator
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V17 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V17 m (outs m) c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (E2 m) c)
    unfold Pipeline.ΦA
    iintro ⟨Hp, -, Hr⟩
    isplitl [Hr]; · iexact Hr
    iexact Hp
  hout c := by
    refine (hout2 (E2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V17 m (outs m) c b) (fun b => V18 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The frame -/

theorem rest_of_launch (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄) ⊢ R c := by
  iintro ⟨-, HO, -, Hp, -⟩
  isplitl [Hp]; · iexists _; iexact Hp
  iexists ∅; iexact HO

set_option backward.isDefEq.respectTransparency.types false in
/-- Every weakly fair execution of @main terminates without a fault and leaves the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have h : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
          ⊢ (bigSep Finset.univ (fun c : Dev nD => R c) : sProp 𝕄) := bigSep_mono fun c _ => rest_of_launch ρ c
      iintro ⟨H, -⟩
      imodintro
      iapply h
      iexact H)
    (fun c => by iintro ⟨-, HO⟩; iexact HO)
    (reg0 m) (fun _ => .rfl) (fun _ => .rfl)
    (reg1 m) (fun _ => .rfl) (fun _ => .rfl)
    (reg2 m) (fun _ => .rfl) (fun _ => .rfl)

end Run

end Cert.KernelIdeal.Hand

end
-- ==== Proof.Spec.lean ====
import Idealize.ShloMosaic.PureOps.Ideal
import Idealize.ShloMosaic.Lib.ValueIdx

/-! The function both programs compute, over the extended reals.

One layer sends the activations x (8192 rows of 4096 entries) and a weight matrix wt (4096 rows of 4096
entries) to the 8192 x 4096 array whose entry (r, n) is the sum over k of a(r, k) * wt(n, k), where row r of a
is row r of x scaled by (mean of its squares + eps)^(-1/2) and passed entry by entry through t * logistic t.
The whole network is three such layers, each on the ternarised copy T w of its weight matrix; T enters as a
parameter, since both programs compute it by the same host operations. -/

noncomputable section

namespace Cert.Spec

open Idealize.ShloMosaic Idealize.ShloMosaic.ValueIdx

/-- The activations' shape, 8192 rows of 4096 entries, and the weights', 4096 rows of 4096 entries. -/
abbrev SX : Shape := ⟨2, ![8192, 4096]⟩
abbrev SW : Shape := ⟨2, ![4096, 4096]⟩

/-- (mean of the row's squares + 2^-23)^(-1/2): the sum of squares divided by 4096.0, the machine epsilon added. -/
def rowScale (row : Fin 4096 → EReal) : EReal :=
  Ideal.rsqrt (Ideal.div (∑ j : Fin 4096, row j * row j) (Ideal.ofBits .f32 0x45800000#32) + Ideal.ofBits .f32 0x34000000#32)

/-- Entry q of the activated row: with t = row q * rowScale row, the value t * logistic t. -/
def act (row : Fin 4096 → EReal) (q : Fin 4096) : EReal :=
  (row q * rowScale row) * Ideal.logistic (row q * rowScale row)

/-- Entry (r, n) of one layer: the activated row r of x against row n of wt. -/
def blockAt (x : SX.Idx → EReal) (wt : SW.Idx → EReal) (r : Fin 8192) (n : Fin 4096) : EReal :=
  ∑ k : Fin 4096, act (fun j => x (ix2 r j)) k * wt (ix2 n k)

/-- One layer as a whole array. -/
def block (x : SX.Idx → EReal) (wt : SW.Idx → EReal) : SX.Idx → EReal :=
  fun i => blockAt x wt (i 0) (i 1)

theorem block_apply (x : SX.Idx → EReal) (wt : SW.Idx → EReal) (r : Fin 8192) (n : Fin 4096) :
    block x wt (ix2 r n) = blockAt x wt r n := rfl

/-- Three layers, each on the ternarised weights. -/
def mlp (T : (SW.Idx → EReal) → (SW.Idx → EReal)) (x : SX.Idx → EReal) (w0 w1 w2 : SW.Idx → EReal) : SX.Idx → EReal :=
  block (block (block x (T w0)) (T w1)) (T w2)

end Cert.Spec

end
-- ==== Proof.RefValue.lean ====
import proofs.«146089_j31688268710666_2_alg».proof.Defs
import proofs.«146089_j31688268710666_2_alg».proof.Proof.Gen.ReferenceIdeal
import proofs.«146089_j31688268710666_2_alg».proof.Proof.Gen.Pre_finite_inputs
import proofs.«146089_j31688268710666_2_alg».proof.Proof.Gen.ReferenceIdeal.Read
import proofs.«146089_j31688268710666_2_alg».proof.Proof.Spec
import Idealize.ShloMosaic.Lib.IdealHost

/-! The reference program computes the specification's three-layer network. -/

noncomputable section

namespace Cert.RefValue

open Cert.ReferenceIdeal Cert.ReferenceIdeal.Read Idealize.ShloMosaic Idealize.ShloMosaic.ValueIdx Idealize.ShloMosaic.TcCoe
  Idealize.SL.Sem

/-- The left operand of the contraction is read at row r, column k. -/
theorem lidx_eq (r : Fin 8192) (n k : Fin 4096) : lidx_main_v20 (ix2 r n) k = ix2 r k :=
  funext fun a => Fin.ext (by match a with | ⟨0, _⟩ => rfl | ⟨1, _⟩ => rfl)

/-- The right operand of the contraction is read at row k, column n. -/
theorem ridx_eq (r : Fin 8192) (n k : Fin 4096) : ridx_main_v20 (ix2 r n) k = ix2 k n :=
  funext fun a => Fin.ext (by match a with | ⟨0, _⟩ => rfl | ⟨1, _⟩ => rfl)

/-- The transposed weights at (k, n) are the weights at (n, k). -/
theorem tr_eq (k n : Fin 4096) : idx_main_v19 (ix2 k n) = ix2 n k :=
  funext fun a => Fin.ext (by match a with | ⟨0, _⟩ => rfl | ⟨1, _⟩ => rfl)

/-- The row of squares summed for entry (r, k) is row r. -/
theorem sq_idx_eq (r : Fin 8192) (k j : Fin 4096) :
    idx_main_v1 (idx_main_v2 (idx_main_v8 (ix2 r k))) j = ix2 r j :=
  funext fun a => Fin.ext (by match a with | ⟨0, _⟩ => rfl | ⟨1, _⟩ => rfl)

/-- The normalised and activated input at (r, k) is the specification's activated row r at k. -/
theorem act_eq (x : Cert.Spec.SX.Idx → EReal) (r : Fin 8192) (k : Fin 4096) :
    val_main_v10 (F := Ideal) x (ix2 r k) = Cert.Spec.act (fun j => x (ix2 r j)) k := by
  rw [val_main_v10_apply, val_main_call0_v5_apply, val_main_call0_v4_apply, val_main_call0_cst_0_apply,
    val_main_call0_v3_apply, val_main_call0_v2_apply, val_main_call0_cst_apply, val_main_call0_v1_apply,
    val_main_call0_v0_apply, val_main_v9_apply, val_main_v8_apply, val_main_v7_apply, val_main_v6_apply,
    val_main_v4_apply, val_main_v5_apply, val_main_cst_1_apply, val_main_v3_apply, val_main_cst_0_apply,
    val_main_v2_apply, val_main_v1_apply, val_main_cst_apply]
  simp only [sq_idx_eq, val_main_v0_apply, Ideal.mulf_def, Ideal.addf_def, Ideal.hostDivf_def,
    Ideal.hostUnary_rsqrt_def, Ideal.hostUnary_exp_def, Ideal.hostNegf_def, Ideal.negf_def, Ideal.ofBits_def,
    Ideal.ofBits_zero_f32, Ideal.ofBits_one_f32, zero_add]
  rfl

/-- One layer of the reference: the contraction of the activated input against the ternarised weights. -/
theorem ref_layer (x : Cert.Spec.SX.Idx → EReal) (w : Cert.Spec.SW.Idx → EReal) :
    val_main_v20 (F := Ideal) x w = Cert.Spec.block x (val_main_v18 (F := Ideal) w) := by
  funext i
  obtain ⟨r, n, rfl⟩ : ∃ (r : Fin 8192) (n : Fin 4096), i = ix2 r n := ⟨i 0, i 1, eq_ix2 i⟩
  rw [Cert.Spec.block_apply, val_main_v20_apply]
  unfold Cert.Spec.blockAt
  refine Finset.sum_congr rfl fun k _ => ?_
  rw [lidx_eq, ridx_eq, act_eq, val_main_v19_apply, tr_eq]

/-- The second layer's ternarised weights are the first layer's ternarisation of the second weight argument. -/
theorem tern2 (w : Cert.Spec.SW.Idx → EReal) : val_main_v39 (F := Ideal) w = val_main_v18 (F := Ideal) w := rfl
/-- The third layer's ternarised weights are the first layer's ternarisation of the third weight argument. -/
theorem tern3 (w : Cert.Spec.SW.Idx → EReal) : val_main_v60 (F := Ideal) w = val_main_v18 (F := Ideal) w := rfl

/-- The second layer's activated input is the first layer's activation applied to the first layer's result. -/
theorem act2 (x0 : Cert.Spec.SX.Idx → EReal) (x1 : Cert.Spec.SW.Idx → EReal) :
    val_main_v31 (F := Ideal) x0 x1 = val_main_v10 (F := Ideal) (val_main_v20 (F := Ideal) x0 x1) := rfl

/-- The second layer is the first layer's function applied to the first layer's result. -/
theorem layer2 (x0 : Cert.Spec.SX.Idx → EReal) (x1 x2 : Cert.Spec.SW.Idx → EReal) :
    val_main_v41 (F := Ideal) x0 x1 x2 = val_main_v20 (F := Ideal) (val_main_v20 (F := Ideal) x0 x1) x2 := rfl

/-- The third layer's activated input is the first layer's activation applied to the second layer's result. -/
theorem act3 (x0 : Cert.Spec.SX.Idx → EReal) (x1 x2 : Cert.Spec.SW.Idx → EReal) :
    val_main_v52 (F := Ideal) x0 x1 x2 = val_main_v10 (F := Ideal) (val_main_v41 (F := Ideal) x0 x1 x2) := rfl

/-- The reference's result is the one-layer function applied three times. -/
theorem ref_compose (x0 : Cert.Spec.SX.Idx → EReal) (x1 x2 x3 : Cert.Spec.SW.Idx → EReal) :
    val_main_v62 (F := Ideal) x0 x1 x2 x3
      = val_main_v20 (F := Ideal) (val_main_v20 (F := Ideal) (val_main_v20 (F := Ideal) x0 x1) x2) x3 := rfl

/-- The reference's result is the specification's network on the ternarised weights. -/
theorem ref_mlp (x0 : Cert.Spec.SX.Idx → EReal) (x1 x2 x3 : Cert.Spec.SW.Idx → EReal) :
    val_main_v62 (F := Ideal) x0 x1 x2 x3 = Cert.Spec.mlp (val_main_v18 (F := Ideal)) x0 x1 x2 x3 := by
  rw [ref_compose, ref_layer, ref_layer, ref_layer]
  rfl

/-- The reference runs and leaves its four arguments unchanged. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The reference runs, its result is the specification's network of its arguments, and the arguments are unchanged. -/
theorem ref_run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev nD,
      r.2.mem ((c.tc : Thread nD τ).loc main_v62)
          = Cert.Spec.mlp (val_main_v18 (F := Ideal)) (m ((c.tc : Thread nD τ).loc main_arg0))
              (m ((c.tc : Thread nD τ).loc main_arg1)) (m ((c.tc : Thread nD τ).loc main_arg2))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.ReferenceIdeal.defs _ _).mono
    (fun _ h c => ⟨(h c).1.trans ((val_main_v62_eq m c).trans (ref_mlp _ _ _ _)), (h c).2⟩)
    (Cert.ReferenceIdeal.Value.run (F := Ideal) m ρ)

end Cert.RefValue

end
-- ==== Proof.IdealValueRun.lean ====
import proofs.«146089_j31688268710666_2_alg».proof.Proof.Gen.KernelIdeal.Launch
import proofs.«146089_j31688268710666_2_alg».proof.Proof.Gen.KernelIdeal.Skeleton
import proofs.«146089_j31688268710666_2_alg».proof.Proof.Gen.KernelIdeal.Points
import proofs.«146089_j31688268710666_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146089_j31688268710666_2_alg».proof.Proof.IdealFrame
import proofs.«146089_j31688268710666_2_alg».proof.Proof.RegionsValue
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.GenP

/-! The run of the whole program with its result named: the last region's output array after all its write-backs. -/

section Run
variable (m : (ℓ : Loc nD τ sig) → Buf (Elt F) ℓ) (ρ : Dev nD → PrngReg)

/-- The last valuation at the result array is what region 2 left there. -/
theorem last_result (c : Dev nD) : V18 m (outs m) c main_v29 = out18 m c :=
  (show Function.update (V17 m (outs m) c) (Proc.devRef .tc main_v29 : DevRef τ sig) (outs m 18 main_v29 c) (Proc.devRef .tc main_v29 : DevRef τ sig) = outs m 18 main_v29 c
    from Function.update_self _ _ _).trans (outs_v29 m 18 c)

set_option backward.isDefEq.respectTransparency.types false in
/-- Every weakly fair execution of @main terminates without a fault; the result array ends at the third layer's output
    and the four argument arrays as launched. -/
theorem run_full : θ_run defs (onTc (τ := τ) (main (F := F))) ⟨m, fun _ => 0, ρ⟩ (fun r => ∀ c : Dev nD,
      r.2.mem ((c.tc : Thread nD τ).loc main_v29) = out18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (last_result m c), (h c).2⟩)
  (run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have h : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
          ⊢ (bigSep Finset.univ (fun c : Dev nD => R c) : sProp 𝕄) := bigSep_mono fun c _ => rest_of_launch ρ c
      iintro ⟨H, -⟩
      imodintro
      iapply h
      iexact H)
    (fun c => by iintro ⟨-, HO⟩; iexact HO)
    (reg0 m) (fun _ => .rfl) (fun _ => .rfl)
    (reg1 m) (fun _ => .rfl) (fun _ => .rfl)
    (reg2 m) (fun _ => .rfl) (fun _ => .rfl))

end Run

end Cert.KernelIdeal.Hand

end
-- ==== Proof.TernValue.lean ====
import proofs.«146089_j31688268710666_2_alg».proof.Proof.Gen.KernelIdeal.Regions
import proofs.«146089_j31688268710666_2_alg».proof.Proof.Gen.ReferenceIdeal.Read
import proofs.«146089_j31688268710666_2_alg».proof.Proof.Spec
import Idealize.ShloMosaic.Lib.StableHlo.Run

/-! The weights the kernel program hands to its three regions are the reference's ternarised weights, and the
activations it hands them are the launch activations and the two earlier regions' results. -/

noncomputable section

namespace Cert.TernValue

open Cert.KernelIdeal Cert.KernelIdeal.Gen Idealize.ShloMosaic Idealize.ShloMosaic.TcCoe Idealize.ShloMosaic.StableHlo
  Idealize.SL.Sem

variable (m : (ℓ : Loc nD τ sig) → Buf (Elt Ideal) ℓ) (outs : Outs (F := Ideal)) (c : Dev nD)

/-- The first region's weights: the host ternarises the first weight matrix as the reference does; the conversion
    to the narrower format changes no extended real. -/
theorem tern0 : (V5 m c main_v8 : Cert.Spec.SW.Idx → EReal)
    = Cert.ReferenceIdeal.Read.val_main_v18 (F := Ideal) (m ((c : Thread nD τ).loc main_arg1)) := by
  dsimp only [V5, V4, V3, V2, V1, V0]
  after_results_simp
  rfl

/-- The second weight matrix is as launched when the second stretch of host operations begins. -/
theorem arg2_at6 : V6 m outs c main_arg2 = m ((c : Thread nD τ).loc main_arg2) :=
  (V6_of m outs c main_arg2 (by decide)).trans <| (V5_of m c main_arg2 (by decide)).trans <|
  (V4_of m c main_arg2 (by decide)).trans <| (V3_of m c main_arg2 (by decide)).trans <|
  (V2_of m c main_arg2 (by decide)).trans <| (V1_of m c main_arg2 (by decide)).trans rfl

/-- The third weight matrix is as launched when the third stretch of host operations begins. -/
theorem arg3_at12 : V12 m outs c main_arg3 = m ((c : Thread nD τ).loc main_arg3) :=
  (V12_of m outs c main_arg3 (by decide)).trans <| (V11_of m outs c main_arg3 (by decide)).trans <|
  (V10_of m outs c main_arg3 (by decide)).trans <| (V9_of m outs c main_arg3 (by decide)).trans <|
  (V8_of m outs c main_arg3 (by decide)).trans <| (V7_of m outs c main_arg3 (by decide)).trans <|
  (V6_of m outs c main_arg3 (by decide)).trans <| (V5_of m c main_arg3 (by decide)).trans <|
  (V4_of m c main_arg3 (by decide)).trans <| (V3_of m c main_arg3 (by decide)).trans <|
  (V2_of m c main_arg3 (by decide)).trans <| (V1_of m c main_arg3 (by decide)).trans rfl

/-- The second region's weights: the reference's ternarisation of the second weight matrix. -/
theorem tern1 : (V11 m outs c main_v18 : Cert.Spec.SW.Idx → EReal)
    = Cert.ReferenceIdeal.Read.val_main_v18 (F := Ideal) (m ((c : Thread nD τ).loc main_arg2)) := by
  dsimp only [V11, V10, V9, V8, V7]
  after_results_simp
  rw [arg2_at6]
  rfl

/-- The third region's weights: the reference's ternarisation of the third weight matrix. -/
theorem tern2 : (V17 m outs c main_v28 : Cert.Spec.SW.Idx → EReal)
    = Cert.ReferenceIdeal.Read.val_main_v18 (F := Ideal) (m ((c : Thread nD τ).loc main_arg3)) := by
  dsimp only [V17, V16, V15, V14, V13]
  after_results_simp
  rw [arg3_at12]
  rfl

/-- The first region's activations are the launch activations. -/
theorem x0 : V5 m c main_arg0 = m ((c : Thread nD τ).loc main_arg0) :=
  (V5_of m c main_arg0 (by decide)).trans <| (V4_of m c main_arg0 (by decide)).trans <|
  (V3_of m c main_arg0 (by decide)).trans <| (V2_of m c main_arg0 (by decide)).trans <|
  (V1_of m c main_arg0 (by decide)).trans rfl

/-- The second region's activations are what the first region left. -/
theorem x1 : V11 m outs c main_v9 = outs 6 main_v9 c :=
  (V11_of m outs c main_v9 (by decide)).trans <| (V10_of m outs c main_v9 (by decide)).trans <|
  (V9_of m outs c main_v9 (by decide)).trans <| (V8_of m outs c main_v9 (by decide)).trans <|
  (V7_of m outs c main_v9 (by decide)).trans <| Function.update_self _ _ _

/-- The third region's activations are what the second region left. -/
theorem x2 : V17 m outs c main_v19 = outs 12 main_v19 c :=
  (V17_of m outs c main_v19 (by decide)).trans <| (V16_of m outs c main_v19 (by decide)).trans <|
  (V15_of m outs c main_v19 (by decide)).trans <| (V14_of m outs c main_v19 (by decide)).trans <|
  (V13_of m outs c main_v19 (by decide)).trans <| Function.update_self _ _ _

end Cert.TernValue

end
-- ==== Proof.ArrayValue.lean ====
import proofs.«146089_j31688268710666_2_alg».proof.Proof.IdealFrame
import proofs.«146089_j31688268710666_2_alg».proof.Proof.Spec
import Idealize.ShloMosaic.Lib.Pipeline.Value
import Idealize.ShloMosaic.Lib.ValueIdx

/-! From blocks to the array: each region's output blocks tile the whole 8192 x 4096 array, and block (i, j) holds
rows 512 i .. 512 i + 511 of the activated input against rows 256 j .. 256 j + 255 of the weights; so the array the
region leaves is one layer of the specification. -/

noncomputable section

namespace Cert.ArrayValue

open Cert.KernelIdeal Cert.KernelIdeal.Gen Cert.KernelIdeal.Hand Idealize.ShloMosaic Idealize.ShloMosaic.TcCoe
  Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ## Region 0 -/

/-- The index maps over the 16 x 16 grid: the activations' block follows the output block's row index, the weights'
    block follows its column index, and both output block indices stay below 16. -/
theorem idx_facts0 : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) < 16 ∧ win0_2.index t (1 : Fin 2) < 16 :=
  (by decide +kernel : ∀ t : Fin grid0.N, _)

/-- Every pair of block indices below 16 is some point's. -/
theorem idx_onto0 : ∀ (q0 q1 : Fin 16), ∃ t : Fin cfg0.N, win0_2.index t = ![q0.val, q1.val] :=
  (by decide +kernel : ∀ (q0 q1 : Fin 16), ∃ t : Fin grid0.N, win0_2.index t = ![q0.val, q1.val])

/-- An entry of the activations' block at a point is the array's entry in the rows the block index names. -/
theorem iblk0_0_apply (t : Fin cfg0.N) (p : Fin 512) (j : Fin 4096) (r : Fin 8192)
    (hr : r.val = win0_0.index t (0 : Fin 2) * 512 + p.val) (h1 : win0_0.index t (1 : Fin 2) = 0) :
    (iblk0 V c 0 t : S512x4096.Idx → EReal) (ix2 p j) = (V c main_arg0 : Cert.Spec.SX.Idx → EReal) (ix2 r j) := by
  unfold iblk0
  rw [View.read_apply]
  show V c main_arg0 _ = V c main_arg0 _
  congr 1
  funext a
  apply Fin.ext
  match a with
  | ⟨0, _⟩ => show win0_0.index t (0 : Fin 2) * 512 + 1 * p.val = r.val; omega
  | ⟨1, _⟩ => show win0_0.index t (1 : Fin 2) * 4096 + 1 * j.val = j.val; omega

/-- An entry of the weights' block at a point is the array's entry in the rows the block index names. -/
theorem iblk0_1_apply (t : Fin cfg0.N) (q : Fin 256) (k : Fin 4096) (n : Fin 4096)
    (hn : n.val = win0_1.index t (0 : Fin 2) * 256 + q.val) (h1 : win0_1.index t (1 : Fin 2) = 0) :
    (iblk0 V c 1 t : S256x4096.Idx → EReal) (ix2 q k) = (V c main_v8 : Cert.Spec.SW.Idx → EReal) (ix2 n k) := by
  unfold iblk0
  rw [View.read_apply]
  show V c main_v8 _ = V c main_v8 _
  congr 1
  funext a
  apply Fin.ext
  match a with
  | ⟨0, _⟩ => show win0_1.index t (0 : Fin 2) * 256 + 1 * q.val = n.val; omega
  | ⟨1, _⟩ => show win0_1.index t (1 : Fin 2) * 4096 + 1 * k.val = k.val; omega

/-- What a point leaves in the output block, entry by entry, is the layer's entry at the place of the array where the
    block sits. -/
theorem out0_apply
    (hout : ∀ (n : ℕ) (hn : n < cfg0.N) (p : Fin 512) (q : Fin 256), (outsAt0 (F := Ideal) V c n hn).1 (ix2 p q)
      = ∑ k : Fin 4096, Cert.Spec.act (fun j => (iblk0 V c 0 ⟨n, hn⟩ : S512x4096.Idx → EReal) (ix2 p j)) k
          * (iblk0 V c 1 ⟨n, hn⟩ : S256x4096.Idx → EReal) (ix2 q k))
    (n : ℕ) (hn : n < cfg0.N) (y : S512x256.Idx) (i : Cert.Spec.SX.Idx)
    (hi0 : (i 0).val = win0_2.index ⟨n, hn⟩ (0 : Fin 2) * 512 + (y 0).val)
    (hi1 : (i 1).val = win0_2.index ⟨n, hn⟩ (1 : Fin 2) * 256 + (y 1).val) :
    (outsAt0 (F := Ideal) V c n hn).1 y = Cert.Spec.block (V c main_arg0) (V c main_v8) i := by
  obtain ⟨p, q, rfl⟩ : ∃ (p : Fin 512) (q : Fin 256), y = ix2 p q := ⟨y 0, y 1, eq_ix2 y⟩
  obtain ⟨r, m, rfl⟩ : ∃ (r : Fin 8192) (m : Fin 4096), i = ix2 r m := ⟨i 0, i 1, eq_ix2 i⟩
  obtain ⟨e0, e1, e2, e3, e4, e5⟩ := idx_facts0 ⟨n, hn⟩
  have hr : r.val = win0_0.index ⟨n, hn⟩ (0 : Fin 2) * 512 + p.val := by rw [e0]; exact hi0
  have hm : m.val = win0_1.index ⟨n, hn⟩ (0 : Fin 2) * 256 + q.val := by rw [e2]; exact hi1
  have hx : (fun j => (iblk0 V c 0 ⟨n, hn⟩ : S512x4096.Idx → EReal) (ix2 p j))
      = fun j => (V c main_arg0 : Cert.Spec.SX.Idx → EReal) (ix2 r j) :=
    funext fun j => iblk0_0_apply V c ⟨n, hn⟩ p j r hr e1
  rw [hout n hn p q, Cert.Spec.block_apply]
  unfold Cert.Spec.blockAt
  refine Finset.sum_congr rfl fun k _ => ?_
  exact congrArg₂ (fun a b => a * b) (congrArg (fun row => Cert.Spec.act row k) hx)
    (iblk0_1_apply V c ⟨n, hn⟩ q k m hm e3)

/-- What a point writes back is its block of the layer of the arrays the region is entered with. -/
theorem flushed0_eq
    (hout : ∀ (n : ℕ) (hn : n < cfg0.N) (p : Fin 512) (q : Fin 256), (outsAt0 (F := Ideal) V c n hn).1 (ix2 p q)
      = ∑ k : Fin 4096, Cert.Spec.act (fun j => (iblk0 V c 0 ⟨n, hn⟩ : S512x4096.Idx → EReal) (ix2 p j)) k
          * (iblk0 V c 1 ⟨n, hn⟩ : S256x4096.Idx → EReal) (ix2 q k))
    (t : Fin cfg0.N) :
    (dat0 (F := Ideal) V c).flushed 2 t
      = ((cfg0.win 2).blk t).view.read (Elt Ideal) (Cert.Spec.block (V c main_arg0) (V c main_v8)) := by
  obtain ⟨n, hn⟩ := t
  show (cfg0.win 2).cut (grid0.coords ⟨n, hn⟩) ((dat0 (F := Ideal) V c).after 2 ⟨n, hn⟩) = _
  rw [after0_2]
  funext y
  rw [View.read_apply]
  show (outsAt0 (F := Ideal) V c n hn).1 ((cfg0.win 2).xinj (grid0.coords ⟨n, hn⟩) y)
    = Cert.Spec.block (V c main_arg0) (V c main_v8) (((cfg0.win 2).blk ⟨n, hn⟩).view.emb y)
  refine out0_apply V c hout n hn _ _ ?_ ?_
  · show win0_2.index ⟨n, hn⟩ (0 : Fin 2) * 512 + 1 * (y 0).val = win0_2.index ⟨n, hn⟩ (0 : Fin 2) * 512 + (y 0).val
    omega
  · show win0_2.index ⟨n, hn⟩ (1 : Fin 2) * 256 + 1 * (y 1).val = win0_2.index ⟨n, hn⟩ (1 : Fin 2) * 256 + (y 1).val
    omega

/-- An index of the array is in a point's block iff each coordinate is in the block's range on its axis. -/
theorem mem_blk0 (t : Fin cfg0.N) (i : S8192x4096.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v9).slice (win0_2.rect t)).set ↔ _
  rw [View.set_slice_whole, Rect.mem_set_unit]
  exact Iff.rfl

/-- The blocks tile the array: entry (r, n) is in the block of the point with block indices (r / 512, n / 256). -/
theorem cover0 (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto0 ⟨(i 0).val / 512, by omega⟩ ⟨(i 1).val / 256, by omega⟩
  have q0 : win0_2.index t (0 : Fin 2) = (i 0).val / 512 := congrFun ht 0
  have q1 : win0_2.index t (1 : Fin 2) = (i 1).val / 256 := congrFun ht 1
  refine ⟨t, flush0_2 t, ?_⟩
  rw [mem_blk0]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 256 ≤ (i 1).val ∧ (i 1).val < win0_2.index t (1 : Fin 2) * 256 + 256
    omega

/-- The array region 0 leaves is one layer of the specification of the arrays it is entered with. -/
theorem final0
    (hout : ∀ (n : ℕ) (hn : n < cfg0.N) (p : Fin 512) (q : Fin 256), (outsAt0 (F := Ideal) V c n hn).1 (ix2 p q)
      = ∑ k : Fin 4096, Cert.Spec.act (fun j => (iblk0 V c 0 ⟨n, hn⟩ : S512x4096.Idx → EReal) (ix2 p j)) k
          * (iblk0 V c 1 ⟨n, hn⟩ : S256x4096.Idx → EReal) (ix2 q k)) :
    ((dat0 (F := Ideal) V c).arrAt 2 cfg0.N : Cert.Spec.SX.Idx → EReal)
      = Cert.Spec.block (V c main_arg0) (V c main_v8) :=
  (dat0 (F := Ideal) V c).arrAt_eq_of_cover 2 (Cert.Spec.block (V c main_arg0) (V c main_v8))
    (fun t _ => flushed0_eq V c hout t) (cover0)

/-! ## Region 1 -/

/-- The index maps over the 16 x 16 grid: the activations' block follows the output block's row index, the weights'
    block follows its column index, and both output block indices stay below 16. -/
theorem idx_facts1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) < 16 ∧ win1_2.index t (1 : Fin 2) < 16 :=
  (by decide +kernel : ∀ t : Fin grid1.N, _)

/-- Every pair of block indices below 16 is some point's. -/
theorem idx_onto1 : ∀ (q0 q1 : Fin 16), ∃ t : Fin cfg1.N, win1_2.index t = ![q0.val, q1.val] :=
  (by decide +kernel : ∀ (q0 q1 : Fin 16), ∃ t : Fin grid1.N, win1_2.index t = ![q0.val, q1.val])

/-- An entry of the activations' block at a point is the array's entry in the rows the block index names. -/
theorem iblk1_0_apply (t : Fin cfg1.N) (p : Fin 512) (j : Fin 4096) (r : Fin 8192)
    (hr : r.val = win1_0.index t (0 : Fin 2) * 512 + p.val) (h1 : win1_0.index t (1 : Fin 2) = 0) :
    (iblk1 V c 0 t : S512x4096.Idx → EReal) (ix2 p j) = (V c main_v9 : Cert.Spec.SX.Idx → EReal) (ix2 r j) := by
  unfold iblk1
  rw [View.read_apply]
  show V c main_v9 _ = V c main_v9 _
  congr 1
  funext a
  apply Fin.ext
  match a with
  | ⟨0, _⟩ => show win1_0.index t (0 : Fin 2) * 512 + 1 * p.val = r.val; omega
  | ⟨1, _⟩ => show win1_0.index t (1 : Fin 2) * 4096 + 1 * j.val = j.val; omega

/-- An entry of the weights' block at a point is the array's entry in the rows the block index names. -/
theorem iblk1_1_apply (t : Fin cfg1.N) (q : Fin 256) (k : Fin 4096) (n : Fin 4096)
    (hn : n.val = win1_1.index t (0 : Fin 2) * 256 + q.val) (h1 : win1_1.index t (1 : Fin 2) = 0) :
    (iblk1 V c 1 t : S256x4096.Idx → EReal) (ix2 q k) = (V c main_v18 : Cert.Spec.SW.Idx → EReal) (ix2 n k) := by
  unfold iblk1
  rw [View.read_apply]
  show V c main_v18 _ = V c main_v18 _
  congr 1
  funext a
  apply Fin.ext
  match a with
  | ⟨0, _⟩ => show win1_1.index t (0 : Fin 2) * 256 + 1 * q.val = n.val; omega
  | ⟨1, _⟩ => show win1_1.index t (1 : Fin 2) * 4096 + 1 * k.val = k.val; omega

/-- What a point leaves in the output block, entry by entry, is the layer's entry at the place of the array where the
    block sits. -/
theorem out1_apply
    (hout : ∀ (n : ℕ) (hn : n < cfg1.N) (p : Fin 512) (q : Fin 256), (outsAt1 (F := Ideal) V c n hn).1 (ix2 p q)
      = ∑ k : Fin 4096, Cert.Spec.act (fun j => (iblk1 V c 0 ⟨n, hn⟩ : S512x4096.Idx → EReal) (ix2 p j)) k
          * (iblk1 V c 1 ⟨n, hn⟩ : S256x4096.Idx → EReal) (ix2 q k))
    (n : ℕ) (hn : n < cfg1.N) (y : S512x256.Idx) (i : Cert.Spec.SX.Idx)
    (hi0 : (i 0).val = win1_2.index ⟨n, hn⟩ (0 : Fin 2) * 512 + (y 0).val)
    (hi1 : (i 1).val = win1_2.index ⟨n, hn⟩ (1 : Fin 2) * 256 + (y 1).val) :
    (outsAt1 (F := Ideal) V c n hn).1 y = Cert.Spec.block (V c main_v9) (V c main_v18) i := by
  obtain ⟨p, q, rfl⟩ : ∃ (p : Fin 512) (q : Fin 256), y = ix2 p q := ⟨y 0, y 1, eq_ix2 y⟩
  obtain ⟨r, m, rfl⟩ : ∃ (r : Fin 8192) (m : Fin 4096), i = ix2 r m := ⟨i 0, i 1, eq_ix2 i⟩
  obtain ⟨e0, e1, e2, e3, e4, e5⟩ := idx_facts1 ⟨n, hn⟩
  have hr : r.val = win1_0.index ⟨n, hn⟩ (0 : Fin 2) * 512 + p.val := by rw [e0]; exact hi0
  have hm : m.val = win1_1.index ⟨n, hn⟩ (0 : Fin 2) * 256 + q.val := by rw [e2]; exact hi1
  have hx : (fun j => (iblk1 V c 0 ⟨n, hn⟩ : S512x4096.Idx → EReal) (ix2 p j))
      = fun j => (V c main_v9 : Cert.Spec.SX.Idx → EReal) (ix2 r j) :=
    funext fun j => iblk1_0_apply V c ⟨n, hn⟩ p j r hr e1
  rw [hout n hn p q, Cert.Spec.block_apply]
  unfold Cert.Spec.blockAt
  refine Finset.sum_congr rfl fun k _ => ?_
  exact congrArg₂ (fun a b => a * b) (congrArg (fun row => Cert.Spec.act row k) hx)
    (iblk1_1_apply V c ⟨n, hn⟩ q k m hm e3)

/-- What a point writes back is its block of the layer of the arrays the region is entered with. -/
theorem flushed1_eq
    (hout : ∀ (n : ℕ) (hn : n < cfg1.N) (p : Fin 512) (q : Fin 256), (outsAt1 (F := Ideal) V c n hn).1 (ix2 p q)
      = ∑ k : Fin 4096, Cert.Spec.act (fun j => (iblk1 V c 0 ⟨n, hn⟩ : S512x4096.Idx → EReal) (ix2 p j)) k
          * (iblk1 V c 1 ⟨n, hn⟩ : S256x4096.Idx → EReal) (ix2 q k))
    (t : Fin cfg1.N) :
    (dat1 (F := Ideal) V c).flushed 2 t
      = ((cfg1.win 2).blk t).view.read (Elt Ideal) (Cert.Spec.block (V c main_v9) (V c main_v18)) := by
  obtain ⟨n, hn⟩ := t
  show (cfg1.win 2).cut (grid1.coords ⟨n, hn⟩) ((dat1 (F := Ideal) V c).after 2 ⟨n, hn⟩) = _
  rw [after1_2]
  funext y
  rw [View.read_apply]
  show (outsAt1 (F := Ideal) V c n hn).1 ((cfg1.win 2).xinj (grid1.coords ⟨n, hn⟩) y)
    = Cert.Spec.block (V c main_v9) (V c main_v18) (((cfg1.win 2).blk ⟨n, hn⟩).view.emb y)
  refine out1_apply V c hout n hn _ _ ?_ ?_
  · show win1_2.index ⟨n, hn⟩ (0 : Fin 2) * 512 + 1 * (y 0).val = win1_2.index ⟨n, hn⟩ (0 : Fin 2) * 512 + (y 0).val
    omega
  · show win1_2.index ⟨n, hn⟩ (1 : Fin 2) * 256 + 1 * (y 1).val = win1_2.index ⟨n, hn⟩ (1 : Fin 2) * 256 + (y 1).val
    omega

/-- An index of the array is in a point's block iff each coordinate is in the block's range on its axis. -/
theorem mem_blk1 (t : Fin cfg1.N) (i : S8192x4096.Idx) :
    i ∈ ((cfg1.win 2).blk t).view.set ↔ ∀ a : Fin 2, win1_2.index t a * S512x256.size a ≤ (i a).val
      ∧ (i a).val < win1_2.index t a * S512x256.size a + S512x256.size a := by
  show i ∈ ((View.whole main_v19).slice (win1_2.rect t)).set ↔ _
  rw [View.set_slice_whole, Rect.mem_set_unit]
  exact Iff.rfl

/-- The blocks tile the array: entry (r, n) is in the block of the point with block indices (r / 512, n / 256). -/
theorem cover1 (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := idx_onto1 ⟨(i 0).val / 512, by omega⟩ ⟨(i 1).val / 256, by omega⟩
  have q0 : win1_2.index t (0 : Fin 2) = (i 0).val / 512 := congrFun ht 0
  have q1 : win1_2.index t (1 : Fin 2) = (i 1).val / 256 := congrFun ht 1
  refine ⟨t, flush1_2 t, ?_⟩
  rw [mem_blk1]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 256 ≤ (i 1).val ∧ (i 1).val < win1_2.index t (1 : Fin 2) * 256 + 256
    omega

/-- The array region 1 leaves is one layer of the specification of the arrays it is entered with. -/
theorem final1
    (hout : ∀ (n : ℕ) (hn : n < cfg1.N) (p : Fin 512) (q : Fin 256), (outsAt1 (F := Ideal) V c n hn).1 (ix2 p q)
      = ∑ k : Fin 4096, Cert.Spec.act (fun j => (iblk1 V c 0 ⟨n, hn⟩ : S512x4096.Idx → EReal) (ix2 p j)) k
          * (iblk1 V c 1 ⟨n, hn⟩ : S256x4096.Idx → EReal) (ix2 q k)) :
    ((dat1 (F := Ideal) V c).arrAt 2 cfg1.N : Cert.Spec.SX.Idx → EReal)
      = Cert.Spec.block (V c main_v9) (V c main_v18) :=
  (dat1 (F := Ideal) V c).arrAt_eq_of_cover 2 (Cert.Spec.block (V c main_v9) (V c main_v18))
    (fun t _ => flushed1_eq V c hout t) (cover1)

/-! ## Region 2 -/

/-- The index maps over the 16 x 16 grid: the activations' block follows the output block's row index, the weights'
    block follows its column index, and both output block indices stay below 16. -/
theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) < 16 ∧ win2_2.index t (1 : Fin 2) < 16 :=
  (by decide +kernel : ∀ t : Fin grid2.N, _)

/-- Every pair of block indices below 16 is some point's. -/
theorem idx_onto2 : ∀ (q0 q1 : Fin 16), ∃ t : Fin cfg2.N, win2_2.index t = ![q0.val, q1.val] :=
  (by decide +kernel : ∀ (q0 q1 : Fin 16), ∃ t : Fin grid2.N, win2_2.index t = ![q0.val, q1.val])

/-- An entry of the activations' block at a point is the array's entry in the rows the block index names. -/
theorem iblk2_0_apply (t : Fin cfg2.N) (p : Fin 512) (j : Fin 4096) (r : Fin 8192)
    (hr : r.val = win2_0.index t (0 : Fin 2) * 512 + p.val) (h1 : win2_0.index t (1 : Fin 2) = 0) :
    (iblk2 V c 0 t : S512x4096.Idx → EReal) (ix2 p j) = (V c main_v19 : Cert.Spec.SX.Idx → EReal) (ix2 r j) := by
  unfold iblk2
  rw [View.read_apply]
  show V c main_v19 _ = V c main_v19 _
  congr 1
  funext a
  apply Fin.ext
  match a with
  | ⟨0, _⟩ => show win2_0.index t (0 : Fin 2) * 512 + 1 * p.val = r.val; omega
  | ⟨1, _⟩ => show win2_0.index t (1 : Fin 2) * 4096 + 1 * j.val = j.val; omega

/-- An entry of the weights' block at a point is the array's entry in the rows the block index names. -/
theorem iblk2_1_apply (t : Fin cfg2.N) (q : Fin 256) (k : Fin 4096) (n : Fin 4096)
    (hn : n.val = win2_1.index t (0 : Fin 2) * 256 + q.val) (h1 : win2_1.index t (1 : Fin 2) = 0) :
    (iblk2 V c 1 t : S256x4096.Idx → EReal) (ix2 q k) = (V c main_v28 : Cert.Spec.SW.Idx → EReal) (ix2 n k) := by
  unfold iblk2
  rw [View.read_apply]
  show V c main_v28 _ = V c main_v28 _
  congr 1
  funext a
  apply Fin.ext
  match a with
  | ⟨0, _⟩ => show win2_1.index t (0 : Fin 2) * 256 + 1 * q.val = n.val; omega
  | ⟨1, _⟩ => show win2_1.index t (1 : Fin 2) * 4096 + 1 * k.val = k.val; omega

/-- What a point leaves in the output block, entry by entry, is the layer's entry at the place of the array where the
    block sits. -/
theorem out2_apply
    (hout : ∀ (n : ℕ) (hn : n < cfg2.N) (p : Fin 512) (q : Fin 256), (outsAt2 (F := Ideal) V c n hn).1 (ix2 p q)
      = ∑ k : Fin 4096, Cert.Spec.act (fun j => (iblk2 V c 0 ⟨n, hn⟩ : S512x4096.Idx → EReal) (ix2 p j)) k
          * (iblk2 V c 1 ⟨n, hn⟩ : S256x4096.Idx → EReal) (ix2 q k))
    (n : ℕ) (hn : n < cfg2.N) (y : S512x256.Idx) (i : Cert.Spec.SX.Idx)
    (hi0 : (i 0).val = win2_2.index ⟨n, hn⟩ (0 : Fin 2) * 512 + (y 0).val)
    (hi1 : (i 1).val = win2_2.index ⟨n, hn⟩ (1 : Fin 2) * 256 + (y 1).val) :
    (outsAt2 (F := Ideal) V c n hn).1 y = Cert.Spec.block (V c main_v19) (V c main_v28) i := by
  obtain ⟨p, q, rfl⟩ : ∃ (p : Fin 512) (q : Fin 256), y = ix2 p q := ⟨y 0, y 1, eq_ix2 y⟩
  obtain ⟨r, m, rfl⟩ : ∃ (r : Fin 8192) (m : Fin 4096), i = ix2 r m := ⟨i 0, i 1, eq_ix2 i⟩
  obtain ⟨e0, e1, e2, e3, e4, e5⟩ := idx_facts2 ⟨n, hn⟩
  have hr : r.val = win2_0.index ⟨n, hn⟩ (0 : Fin 2) * 512 + p.val := by rw [e0]; exact hi0
  have hm : m.val = win2_1.index ⟨n, hn⟩ (0 : Fin 2) * 256 + q.val := by rw [e2]; exact hi1
  have hx : (fun j => (iblk2 V c 0 ⟨n, hn⟩ : S512x4096.Idx → EReal) (ix2 p j))
      = fun j => (V c main_v19 : Cert.Spec.SX.Idx → EReal) (ix2 r j) :=
    funext fun j => iblk2_0_apply V c ⟨n, hn⟩ p j r hr e1
  rw [hout n hn p q, Cert.Spec.block_apply]
  unfold Cert.Spec.blockAt
  refine Finset.sum_congr rfl fun k _ => ?_
  exact congrArg₂ (fun a b => a * b) (congrArg (fun row => Cert.Spec.act row k) hx)
    (iblk2_1_apply V c ⟨n, hn⟩ q k m hm e3)

/-- What a point writes back is its block of the layer of the arrays the region is entered with. -/
theorem flushed2_eq
    (hout : ∀ (n : ℕ) (hn : n < cfg2.N) (p : Fin 512) (q : Fin 256), (outsAt2 (F := Ideal) V c n hn).1 (ix2 p q)
      = ∑ k : Fin 4096, Cert.Spec.act (fun j => (iblk2 V c 0 ⟨n, hn⟩ : S512x4096.Idx → EReal) (ix2 p j)) k
          * (iblk2 V c 1 ⟨n, hn⟩ : S256x4096.Idx → EReal) (ix2 q k))
    (t : Fin cfg2.N) :
    (dat2 (F := Ideal) V c).flushed 2 t
      = ((cfg2.win 2).blk t).view.read (Elt Ideal) (Cert.Spec.block (V c main_v19) (V c main_v28)) := by
  obtain ⟨n, hn⟩ := t
  show (cfg2.win 2).cut (grid2.coords ⟨n, hn⟩) ((dat2 (F := Ideal) V c).after 2 ⟨n, hn⟩) = _
  rw [after2_2]
  funext y
  rw [View.read_apply]
  show (outsAt2 (F := Ideal) V c n hn).1 ((cfg2.win 2).xinj (grid2.coords ⟨n, hn⟩) y)
    = Cert.Spec.block (V c main_v19) (V c main_v28) (((cfg2.win 2).blk ⟨n, hn⟩).view.emb y)
  refine out2_apply V c hout n hn _ _ ?_ ?_
  · show win2_2.index ⟨n, hn⟩ (0 : Fin 2) * 512 + 1 * (y 0).val = win2_2.index ⟨n, hn⟩ (0 : Fin 2) * 512 + (y 0).val
    omega
  · show win2_2.index ⟨n, hn⟩ (1 : Fin 2) * 256 + 1 * (y 1).val = win2_2.index ⟨n, hn⟩ (1 : Fin 2) * 256 + (y 1).val
    omega

/-- An index of the array is in a point's block iff each coordinate is in the block's range on its axis. -/
theorem mem_blk2 (t : Fin cfg2.N) (i : S8192x4096.Idx) :
    i ∈ ((cfg2.win 2).blk t).view.set ↔ ∀ a : Fin 2, win2_2.index t a * S512x256.size a ≤ (i a).val
      ∧ (i a).val < win2_2.index t a * S512x256.size a + S512x256.size a := by
  show i ∈ ((View.whole main_v29).slice (win2_2.rect t)).set ↔ _
  rw [View.set_slice_whole, Rect.mem_set_unit]
  exact Iff.rfl

/-- The blocks tile the array: entry (r, n) is in the block of the point with block indices (r / 512, n / 256). -/
theorem cover2 (i : S8192x4096.Idx) :
    ∃ t : Fin cfg2.N, (cfg2.win 2).flush t = true ∧ i ∈ ((cfg2.win 2).blk t).view.set := by
  have hi0 : (i 0).val < 8192 := (i 0).isLt
  have hi1 : (i 1).val < 4096 := (i 1).isLt
  obtain ⟨t, ht⟩ := idx_onto2 ⟨(i 0).val / 512, by omega⟩ ⟨(i 1).val / 256, by omega⟩
  have q0 : win2_2.index t (0 : Fin 2) = (i 0).val / 512 := congrFun ht 0
  have q1 : win2_2.index t (1 : Fin 2) = (i 1).val / 256 := congrFun ht 1
  refine ⟨t, flush2_2 t, ?_⟩
  rw [mem_blk2]
  intro a
  match a with
  | ⟨0, _⟩ =>
    show win2_2.index t (0 : Fin 2) * 512 ≤ (i 0).val ∧ (i 0).val < win2_2.index t (0 : Fin 2) * 512 + 512
    omega
  | ⟨1, _⟩ =>
    show win2_2.index t (1 : Fin 2) * 256 ≤ (i 1).val ∧ (i 1).val < win2_2.index t (1 : Fin 2) * 256 + 256
    omega

/-- The array region 2 leaves is one layer of the specification of the arrays it is entered with. -/
theorem final2
    (hout : ∀ (n : ℕ) (hn : n < cfg2.N) (p : Fin 512) (q : Fin 256), (outsAt2 (F := Ideal) V c n hn).1 (ix2 p q)
      = ∑ k : Fin 4096, Cert.Spec.act (fun j => (iblk2 V c 0 ⟨n, hn⟩ : S512x4096.Idx → EReal) (ix2 p j)) k
          * (iblk2 V c 1 ⟨n, hn⟩ : S256x4096.Idx → EReal) (ix2 q k)) :
    ((dat2 (F := Ideal) V c).arrAt 2 cfg2.N : Cert.Spec.SX.Idx → EReal)
      = Cert.Spec.block (V c main_v19) (V c main_v28) :=
  (dat2 (F := Ideal) V c).arrAt_eq_of_cover 2 (Cert.Spec.block (V c main_v19) (V c main_v28))
    (fun t _ => flushed2_eq V c hout t) (cover2)

end Cert.ArrayValue

end
-- ==== Proof.PayValue.lean ====
import proofs.«146089_j31688268710666_2_alg».proof.Proof.Gen.KernelIdeal.Skeleton
import proofs.«146089_j31688268710666_2_alg».proof.Proof.Spec
import Idealize.ShloMosaic.Lib.ValueIdx
import Idealize.ShloMosaic.Lib.Pipeline.Value
import Idealize.ShloMosaic.Lib.ValueLayout
import Idealize.ShloMosaic.PureOps.Ideal.Laws

/-! The kernel's arithmetic read at an index, over the extended reals.

Each activation payload sends a block of 128 rows of 4096 entries to the block whose entry (p, q) is
t * logistic t with t = v(p, q) * (mean of row p's squares + eps)^(-1/2): entry q of the activated row p.
Each matrix-product payload sends a 512 x 4096 block h and a 256 x 4096 block w to the 512 x 256 block
whose entry (p, q) is the sum over k of h(p, k) * w(q, k). -/

noncomputable section

namespace Cert.PayValue

open Idealize.ShloMosaic Idealize.ShloMosaic.ValueIdx
open Cert.KernelIdeal Cert.KernelIdeal.Gen

/-! ## Two layout operations on a column -/

section Column
variable {α : Type}

/-- A vector of a entries cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The activation payload -/

/-- The sum along the lanes of a 128 x 4096 block, at row p, is the sum over k of the block at (p, k). -/
theorem rowSum_apply (src : FVec Ideal S128x4096 .f32) (h : S128x4096.Reduces [1] S128) (hφ : FKind.Formats .f32)
    (hacc : (0x00000000#32 : BitVec 32) = 0x00000000#32) (p : Fin 128) :
    multiReduction .add [1] S128 src 0x00000000#32 h hφ hacc (ix1 p) = ∑ k : Fin 4096, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-- The row scale as the kernel builds it from the row sums R: the column of R's entries, divided by c1, c2 added,
the inverse square root taken, broadcast along the lanes; at (p, q) it is rsqrt (R p / c1 + c2). -/
theorem scale_apply (R : FVec Ideal S128 .f32) (c1 c2 : BitVec 32) (h1 : S128.ShapeCasts S128x1)
    (h2 : S128x1.Broadcasts S128x4096) (p : Fin 128) (q : Fin 4096) :
    broadcastTo S128x4096 (rsqrt (addf (divf (shapeCast S128x1 R h1) (broadcast S128x1 (Scalar.ofBits (F := Ideal) .f32 c1)))
        (broadcast S128x1 (Scalar.ofBits (F := Ideal) .f32 c2)))) h2 (ix2 p q)
      = Ideal.rsqrt (Ideal.div (R (ix1 p)) (Ideal.ofBits .f32 c1) + Ideal.ofBits .f32 c2) := by
  refine (broadcastTo_a1_ab_apply _ h2 p q).trans ?_
  show Ideal.rsqrt (Ideal.div (shapeCast S128x1 R h1 (ix2 p (0 : Fin 1))) (Ideal.ofBits .f32 c1) + Ideal.ofBits .f32 c2) = _
  rw [shapeCast_a_a1_apply]

/-- The pointwise tail: a block v scaled entry by entry by s, passed through t * logistic t, narrowed and cast to its
own shape, reads at an index the product t * logistic t with t = v * s there. -/
theorem tail_apply (v s : FVec Ideal S128x4096 .f32) (hb : FTy.bits .bf16 < FTy.bits .f32)
    (hc : S128x4096.ShapeCasts S128x4096) (i : S128x4096.Idx) :
    shapeCast S128x4096 (truncf .bf16 (mulf (mulf v s) (logistic (mulf v s))) hb) hc i
      = (v i * s i) * Ideal.logistic (v i * s i) := by
  rw [shapeCast_self]
  rfl

/-- Entry (p, q) of the activation payload is entry q of the activated row p. -/
theorem pay_act (v : Vec Ideal S128x4096 .f32) (p : Fin 128) (q : Fin 4096) :
    k0_pay4 (F := Ideal) v (ix2 p q) = Cert.Spec.act (fun j => v (ix2 p j)) q := by
  unfold k0_pay4
  dsimp only
  refine (tail_apply _ _ _ _ _).trans ?_
  rw [scale_apply, rowSum_apply]
  rfl

/-! ## Every activation payload is that one

The first layer's four activation payloads are one text: the same operations on the same shapes. The second and
third layers' are that text after a cast of the operand to its own shape, which is the identity. -/

section Same
variable {F : FTy → Type} [FloatOps F]

theorem k0_pay1_eq : k0_pay1 (F := F) = k0_pay4 := rfl
theorem k0_pay2_eq : k0_pay2 (F := F) = k0_pay4 := rfl
theorem k0_pay5_eq : k0_pay5 (F := F) = k0_pay4 := rfl
/-- The second and third layers' activation payloads first cast their operand to its own shape, which changes nothing. -/
theorem k1_pay2_eq : k1_pay2 (F := F) = k0_pay4 := by
  funext v
  unfold k1_pay2 k0_pay4
  dsimp only
  rw [shapeCast_self v]
theorem k1_pay3_eq : k1_pay3 (F := F) = k0_pay4 := k1_pay2_eq
theorem k1_pay4_eq : k1_pay4 (F := F) = k0_pay4 := k1_pay2_eq
theorem k1_pay5_eq : k1_pay5 (F := F) = k0_pay4 := k1_pay2_eq
theorem k2_pay2_eq : k2_pay2 (F := F) = k0_pay4 := k1_pay2_eq
theorem k2_pay3_eq : k2_pay3 (F := F) = k0_pay4 := k1_pay2_eq
theorem k2_pay4_eq : k2_pay4 (F := F) = k0_pay4 := k1_pay2_eq
theorem k2_pay5_eq : k2_pay5 (F := F) = k0_pay4 := k1_pay2_eq

/-- The three matrix-product payloads likewise. -/
theorem k1_pay1_eq : k1_pay1 (F := F) = k0_pay3 := rfl
theorem k2_pay1_eq : k2_pay1 (F := F) = k0_pay3 := rfl

end Same

/-! ## The matrix-product payload -/

/-- The left operand's row is the output's row; -/
theorem mm_lhs_0 (i : S512x256.Idx) (c : dot_S512x4096_S256x4096_S512x256_1_1_0_0_n_n.contr.Idx) :
    (dot_S512x4096_S256x4096_S512x256_1_1_0_0_n_n.lhsIdx i c 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
/-- its column is the contraction's coordinate; -/
theorem mm_lhs_1 (i : S512x256.Idx) (c : dot_S512x4096_S256x4096_S512x256_1_1_0_0_n_n.contr.Idx) :
    (dot_S512x4096_S256x4096_S512x256_1_1_0_0_n_n.lhsIdx i c 1).val = (c ⟨0, by decide⟩).val :=
  dot_S512x4096_S256x4096_S512x256_1_1_0_0_n_n.lhsIdx_val_of_single rfl i c
/-- the right operand's row is the output's column; -/
theorem mm_rhs_0 (i : S512x256.Idx) (c : dot_S512x4096_S256x4096_S512x256_1_1_0_0_n_n.contr.Idx) :
    (dot_S512x4096_S256x4096_S512x256_1_1_0_0_n_n.rhsIdx i c 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
/-- and its column is the contraction's coordinate. -/
theorem mm_rhs_1 (i : S512x256.Idx) (c : dot_S512x4096_S256x4096_S512x256_1_1_0_0_n_n.contr.Idx) :
    (dot_S512x4096_S256x4096_S512x256_1_1_0_0_n_n.rhsIdx i c 1).val = (c ⟨0, by decide⟩).val :=
  dot_S512x4096_S256x4096_S512x256_1_1_0_0_n_n.rhsIdx_val_of_single rfl i c

/-- Entry (p, q) of the matrix-product payload is the sum over k of h(p, k) * w(q, k). -/
theorem pay_mm (h : Vec Ideal S512x4096 .bf16) (w : Vec Ideal S256x4096 .bf16) (p : Fin 512) (q : Fin 256) :
    k0_pay3 (F := Ideal) h w (ix2 p q) = ∑ k : Fin 4096, h (ix2 p k) * w (ix2 q k) := by
  unfold k0_pay3
  rw [shapeCast_self]
  simp only [matmul]
  rw [Ideal.matmul_constant_zero_apply,
    ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q) ((contrEquiv1 dot_S512x4096_S256x4096_S512x256_1_1_0_0_n_n 4096 rfl rfl).symm k) = ix2 p k :=
    funext fun a => Fin.ext (by
      match a with
      | ⟨0, _⟩ => exact mm_lhs_0 _ _
      | ⟨1, _⟩ => exact (mm_lhs_1 _ _).trans hk)
  have er : dot_S512x4096_S256x4096_S512x256_1_1_0_0_n_n.rhsIdx (ix2 p q) ((contrEquiv1 dot_S512x4096_S256x4096_S512x256_1_1_0_0_n_n 4096 rfl rfl).symm k) = ix2 q k :=
    funext fun a => Fin.ext (by
      match a with
      | ⟨0, _⟩ => exact mm_rhs_0 _ _
      | ⟨1, _⟩ => exact (mm_rhs_1 _ _).trans hk)
  rw [el, er]

/-- The same for the second and third layers' matrix-product payloads. -/
theorem pay_mm1 (h : Vec Ideal S512x4096 .bf16) (w : Vec Ideal S256x4096 .bf16) (p : Fin 512) (q : Fin 256) :
    k1_pay1 (F := Ideal) h w (ix2 p q) = ∑ k : Fin 4096, h (ix2 p k) * w (ix2 q k) := pay_mm h w p q
theorem pay_mm2 (h : Vec Ideal S512x4096 .bf16) (w : Vec Ideal S256x4096 .bf16) (p : Fin 512) (q : Fin 256) :
    k2_pay1 (F := Ideal) h w (ix2 p q) = ∑ k : Fin 4096, h (ix2 p k) * w (ix2 q k) := pay_mm h w p q

end Cert.PayValue

end
-- ==== Proof.BlockValue.lean ====
import proofs.«146089_j31688268710666_2_alg».proof.Proof.IdealFrame
import proofs.«146089_j31688268710666_2_alg».proof.Proof.PayValue
import proofs.«146089_j31688268710666_2_alg».proof.Proof.Spec
import Idealize.ShloMosaic.Lib.Pipeline.Value
import Idealize.ShloMosaic.Lib.Tactic

set_option maxRecDepth 16384

noncomputable section

namespace Cert.BlockValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## One row block's activation and product, as the body leaves them

At a grid point the body works on 512 rows of the activations and 256 rows of the weights. Where the second grid
coordinate is zero it first fills the scratch, 128 rows at a time, with the activated rows; at every point it
stores the product of the scratch with the transposed weight rows. The three layers' bodies are one text. -/

/-- The two zero offsets, as the constant function. -/
theorem hz : (![0, 0] : Fin 2 → Nat) = fun _ => 0 := funext fun a => by fin_cases a <;> rfl

/-- The activated block: entry (r, k) is entry k of the activated row r of x0. -/
def actBlock (x0 : S512x4096.Idx → EReal) : S512x4096.Idx → EReal :=
  fun y => Cert.Spec.act (fun j => x0 (ix2 (⟨(y 0).val, idx2_lt0 y⟩ : Fin 512) j)) (⟨(y 1).val, idx2_lt1 y⟩ : Fin 4096)

theorem actBlock_apply (x0 : S512x4096.Idx → EReal) (r : Fin 512) (k : Fin 4096) :
    actBlock x0 (ix2 r k) = Cert.Spec.act (fun j => x0 (ix2 r j)) k := rfl

/-- A whole buffer loaded through the rectangle at zero offsets of its own sizes reads its contents. -/
theorem readAt_whole {e : EltTy} {n0 n1 : ℕ} (m : Memref sig .tc .vmem ⟨2, ![n0, n1]⟩ e) (h : m.IsWhole)
    (inb : ∀ a, (![0, 0] : Fin 2 → ℕ) a + (⟨2, ![n0, n1]⟩ : Shape).size a ≤ (⟨2, ![n0, n1]⟩ : Shape).size a)
    (X : (⟨2, ![n0, n1]⟩ : Shape).Idx → Elt Ideal e) :
    View.readAt (Elt Ideal) m.view (Rect.unit ![0, 0] (⟨2, ![n0, n1]⟩ : Shape).size inb).toLoadRect (h.unread X) = X := by
  rw [View.readAt_eq_ld, h.read_unread, View.ld_unit_zero (S := ⟨2, ![n0, n1]⟩) hz]

/-- The slab of 128 rows from row b on, activated, is the activated block on those rows: local entry (p, q) of the
slab's activation depends on row b + p of x0 only. -/
theorem slab_val (x0 : Vec Ideal S512x4096 .f32) (b : ℕ)
    (inb : ∀ a, (![b, 0] : Fin 2 → ℕ) a + S128x4096.size a ≤ S512x4096.size a) (x : S128x4096.Idx) :
    k0_pay4 (F := Ideal) (View.ld x0 (Rect.unit (s := S512x4096) ![b, 0] S128x4096.size inb)) x
      = actBlock x0 ((Rect.unit (s := S512x4096) ![b, 0] S128x4096.size inb).emb x) := by
  obtain ⟨p, q, rfl⟩ : ∃ (p : Fin 128) (q : Fin 4096), x = ix2 p q := ⟨x 0, x 1, eq_ix2 x⟩
  refine (Cert.PayValue.pay_act _ p q).trans ?_
  unfold actBlock
  refine congrArg₂ Cert.Spec.act (funext fun j => congrArg x0 (funext fun a => Fin.ext ?_)) (Fin.ext ?_)
  · match a with
    | ⟨0, _⟩ => rfl
    | ⟨1, _⟩ => show 0 + 1 * j.val = j.val; omega
  · show q.val = 0 + 1 * q.val; omega

/-- The same through a load of a whole buffer holding x0. -/
theorem slab_piece (arg2 : Memref sig .tc .vmem S512x4096 .f32) (harg2 : arg2.IsWhole) (x0 : Vec Ideal S512x4096 .f32) (b : ℕ)
    (inb : ∀ a, (![b, 0] : Fin 2 → ℕ) a + S128x4096.size a ≤ S512x4096.size a) (x : S128x4096.Idx) :
    k0_pay4 (F := Ideal) (View.readAt (Elt Ideal) arg2.view (Rect.unit (s := S512x4096) ![b, 0] S128x4096.size inb).toLoadRect (harg2.unread x0)) x
      = actBlock x0 ((Rect.unit (s := S512x4096) ![b, 0] S128x4096.size inb).emb x) := by
  rw [View.readAt_eq_ld, harg2.read_unread]
  exact slab_val x0 b inb x

/-- The four slabs stored into the scratch, last store first: rows 384.., 256.., 128.., 0.. of the buffer holding x0,
each passed through its own copy f3, f2, f1, f0 of the activation. -/
abbrev slabs (f0 f1 f2 f3 : Vec Ideal S128x4096 .f32 → FVec Ideal S128x4096 .bf16) (arg2 : Memref sig .tc .vmem S512x4096 .f32) (harg2 : arg2.IsWhole) (x0 : Vec Ideal S512x4096 .f32)
    (h0 : ∀ a, (![0, 0] : Fin 2 → ℕ) a + S128x4096.size a ≤ S512x4096.size a)
    (h1 : ∀ a, (![128, 0] : Fin 2 → ℕ) a + S128x4096.size a ≤ S512x4096.size a)
    (h2 : ∀ a, (![256, 0] : Fin 2 → ℕ) a + S128x4096.size a ≤ S512x4096.size a)
    (h3 : ∀ a, (![384, 0] : Fin 2 → ℕ) a + S128x4096.size a ≤ S512x4096.size a) : List (View.Piece (Elt Ideal) S512x4096 .bf16) :=
  [⟨Rect.unit (s := S512x4096) ![384, 0] S128x4096.size h3, f3 (View.readAt (Elt Ideal) arg2.view (Rect.unit (s := S512x4096) ![384, 0] S128x4096.size h3).toLoadRect (harg2.unread x0))⟩,
   ⟨Rect.unit (s := S512x4096) ![256, 0] S128x4096.size h2, f2 (View.readAt (Elt Ideal) arg2.view (Rect.unit (s := S512x4096) ![256, 0] S128x4096.size h2).toLoadRect (harg2.unread x0))⟩,
   ⟨Rect.unit (s := S512x4096) ![128, 0] S128x4096.size h1, f1 (View.readAt (Elt Ideal) arg2.view (Rect.unit (s := S512x4096) ![128, 0] S128x4096.size h1).toLoadRect (harg2.unread x0))⟩,
   ⟨Rect.unit (s := S512x4096) ![0, 0] S128x4096.size h0, f0 (View.readAt (Elt Ideal) arg2.view (Rect.unit (s := S512x4096) ![0, 0] S128x4096.size h0).toLoadRect (harg2.unread x0))⟩]

/-- They leave the activated block. -/
theorem slabs_canon (f0 f1 f2 f3 : Vec Ideal S128x4096 .f32 → FVec Ideal S128x4096 .bf16) (e0 : f0 = k0_pay4) (e1 : f1 = k0_pay4) (e2 : f2 = k0_pay4) (e3 : f3 = k0_pay4) (arg2 : Memref sig .tc .vmem S512x4096 .f32) (harg2 : arg2.IsWhole) (x0 : Vec Ideal S512x4096 .f32)
    (h0 : ∀ a, (![0, 0] : Fin 2 → ℕ) a + S128x4096.size a ≤ S512x4096.size a)
    (h1 : ∀ a, (![128, 0] : Fin 2 → ℕ) a + S128x4096.size a ≤ S512x4096.size a)
    (h2 : ∀ a, (![256, 0] : Fin 2 → ℕ) a + S128x4096.size a ≤ S512x4096.size a)
    (h3 : ∀ a, (![384, 0] : Fin 2 → ℕ) a + S128x4096.size a ≤ S512x4096.size a) :
    View.canon (slabs f0 f1 f2 f3 arg2 harg2 x0 h0 h1 h2 h3) = actBlock x0 := by
  subst e0 e1 e2 e3
  funext y
  refine View.canon_apply_of_pieces (actBlock x0) _ ?_ y
    (View.cover_of_tiledL (s := S512x4096) (slabs k0_pay4 k0_pay4 k0_pay4 k0_pay4 arg2 harg2 x0 h0 h1 h2 h3) S128x4096.size (by sl_kernel_rfl) y)
  intro pc hp x
  simp only [List.mem_cons, List.mem_singleton, List.not_mem_nil, or_false] at hp
  rcases hp with rfl | rfl | rfl | rfl
  · exact slab_piece arg2 harg2 x0 384 h3 x
  · exact slab_piece arg2 harg2 x0 256 h2 x
  · exact slab_piece arg2 harg2 x0 128 h1 x
  · exact slab_piece arg2 harg2 x0 0 h0 x

/-- A whole load of the scratch after those four stores reads the activated block. -/
theorem slabs_readCov (f0 f1 f2 f3 : Vec Ideal S128x4096 .f32 → FVec Ideal S128x4096 .bf16) (e0 : f0 = k0_pay4) (e1 : f1 = k0_pay4) (e2 : f2 = k0_pay4) (e3 : f3 = k0_pay4) (arg2 : Memref sig .tc .vmem S512x4096 .f32) (harg2 : arg2.IsWhole) (x0 : Vec Ideal S512x4096 .f32)
    (h0 : ∀ a, (![0, 0] : Fin 2 → ℕ) a + S128x4096.size a ≤ S512x4096.size a)
    (h1 : ∀ a, (![128, 0] : Fin 2 → ℕ) a + S128x4096.size a ≤ S512x4096.size a)
    (h2 : ∀ a, (![256, 0] : Fin 2 → ℕ) a + S128x4096.size a ≤ S512x4096.size a)
    (h3 : ∀ a, (![384, 0] : Fin 2 → ℕ) a + S128x4096.size a ≤ S512x4096.size a)
    (v : View sig .tc .vmem S512x4096 .bf16) (inb : ∀ a, (![0, 0] : Fin 2 → ℕ) a + S512x4096.size a ≤ S512x4096.size a) :
    v.readCov (slabs f0 f1 f2 f3 arg2 harg2 x0 h0 h1 h2 h3) (Rect.unit (s := S512x4096) ![0, 0] S512x4096.size inb).toLoadRect = actBlock x0 := by
  rw [View.readCov_eq_canon', slabs_canon f0 f1 f2 f3 e0 e1 e2 e3]
  exact View.ld_unit_zero (Val := Elt Ideal) (S := S512x4096) (e := .bf16) hz inb (actBlock x0)

/-! Each region's grid is 16 x 16, row-major: point n = 16 i + j works on row block i of the activations and row block j
of the weights. The activations' block does not move along a row of the grid, and the scratch is filled at the row's
first point; so at every point the scratch holds the activated block of the point's own rows, and the output block the
product of those activated rows with the point's weight rows. -/

/-! ## The first layer's region -/

/-- What the scratch holds after a point whose second coordinate is zero: the activated block of the point's rows. -/
theorem sout_val0 (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec Ideal S512x4096 .f32) (x1 : Vec Ideal S256x4096 .bf16) (r : Fin 512) (k : Fin 4096) :
    sout0_A (F := Ideal) c i arg2 harg2 arg3 harg3 arg4 harg4 arg5 harg5 hc x0 x1 (ix2 r k) = Cert.Spec.act (fun j => x0 (ix2 r j)) k := by
  unfold sout0_A
  rw [View.read_writes_eq_canon _ _ _ (scover0_A c i arg2 harg2 arg3 harg3 arg4 harg4 arg5 harg5 hc x0 x1)]
  unfold kernelRun0_A
  dsimp only
  sl_unfold_words
  exact congrFun (slabs_canon k0_pay4 k0_pay5 k0_pay1 k0_pay2 rfl Cert.PayValue.k0_pay5_eq Cert.PayValue.k0_pay1_eq Cert.PayValue.k0_pay2_eq arg2 harg2 x0 _ _ _ _) (ix2 r k)

/-- The product stored at such a point: the activated rows against the weight rows. -/
theorem out_valA0 (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k0_cond1 i = 1#1)
    (x0 : Vec Ideal S512x4096 .f32) (x1 : Vec Ideal S256x4096 .bf16) (p : Fin 512) (q : Fin 256) :
    out0_A (F := Ideal) c i arg2 harg2 arg3 harg3 arg4 harg4 arg5 harg5 hc x0 x1 (ix2 p q) = ∑ k : Fin 4096, Cert.Spec.act (fun j => x0 (ix2 p j)) k * x1 (ix2 q k) := by
  unfold out0_A
  rw [View.read_writes_eq_canon _ _ _ (cover0_A c i arg2 harg2 arg3 harg3 arg4 harg4 arg5 harg5 hc x0 x1)]
  unfold kernelRun0_A
  dsimp only
  sl_unfold_words
  rw [View.canon_unit_zero (S := S512x256) hz]
  refine (congrFun (congrArg₂ (k0_pay3 (F := Ideal)) (slabs_readCov k0_pay4 k0_pay5 k0_pay1 k0_pay2 rfl Cert.PayValue.k0_pay5_eq Cert.PayValue.k0_pay1_eq Cert.PayValue.k0_pay2_eq arg2 harg2 x0 _ _ _ _ arg5.view _)
    (readAt_whole arg3 harg3 _ x1)) (ix2 p q)).trans ?_
  exact Cert.PayValue.pay_mm (actBlock x0) x1 p q

/-- The product stored at any other point: the scratch, as the row's first point left it, against the weight rows. -/
theorem out_valB0 (c : Dev nD) (i : grid0.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k0_cond1 i = 1#1)
    (x0 : Vec Ideal S512x4096 .f32) (x1 : Vec Ideal S256x4096 .bf16) (xs0 : Vec Ideal S512x4096 .bf16) (p : Fin 512) (q : Fin 256) :
    out0_B (F := Ideal) c i arg2 harg2 arg3 harg3 arg4 harg4 arg5 harg5 hc x0 x1 xs0 (ix2 p q) = ∑ k : Fin 4096, xs0 (ix2 p k) * x1 (ix2 q k) := by
  unfold out0_B
  rw [View.read_writes_eq_canon _ _ _ (cover0_B c i arg2 harg2 arg3 harg3 arg4 harg4 arg5 harg5 hc x0 x1 xs0)]
  unfold kernelRun0_B
  dsimp only
  sl_unfold_words
  rw [View.canon_unit_zero (S := S512x256) hz]
  rw [readAt_whole arg5 harg5 _ xs0, readAt_whole arg3 harg3 _ x1]
  exact Cert.PayValue.pay_mm xs0 x1 p q

/-- Inside a row of the grid the activations' block is the one of the point before. -/
theorem iblk0_row (V : (c : Dev nD) → (b : Ref sig .tc) → Buf (Elt Ideal) ((c : Thread nD τ).loc b)) (c : Dev nD) (n : ℕ) (h' : n + 1 < cfg0.N) (hne : ¬(n + 1) % 16 = 0) :
    (iblk0 (F := Ideal) V c 0 ⟨n + 1, h'⟩ : S512x4096.Idx → EReal) = iblk0 (F := Ideal) V c 0 ⟨n, Nat.lt_of_succ_lt h'⟩ := by
  have hf : win0_0.fetch ⟨n + 1, h'⟩ = false := Bool.eq_false_iff.mpr fun h => hne ((fetch0_0 ⟨n + 1, h'⟩).mp h)
  have hidx : win0_0.index ⟨n + 1, h'⟩ = win0_0.index ⟨n, Nat.lt_of_succ_lt h'⟩ :=
    (Pipeline.Window.index_eq_of_fetch win0_0 rfl ⟨n + 1, h'⟩ hf).2
  funext j
  unfold iblk0
  rw [View.read_apply, View.read_apply]
  show V c (Pipeline.arrRef spec0 0) _ = V c (Pipeline.arrRef spec0 0) _
  refine congrArg (V c (Pipeline.arrRef spec0 0)) (funext fun a => Fin.ext ?_)
  match a with
  | ⟨0, _⟩ =>
    show win0_0.index ⟨n + 1, h'⟩ 0 * 512 + 1 * (j 0).val = win0_0.index ⟨n, Nat.lt_of_succ_lt h'⟩ 0 * 512 + 1 * (j 0).val
    rw [hidx]
  | ⟨1, _⟩ =>
    show win0_0.index ⟨n + 1, h'⟩ 1 * 4096 + 1 * (j 1).val = win0_0.index ⟨n, Nat.lt_of_succ_lt h'⟩ 1 * 4096 + 1 * (j 1).val
    rw [hidx]

/-- At a row's first point the scratch is filled with the activated block of the point's rows. -/
theorem scr0_first (V : (c : Dev nD) → (b : Ref sig .tc) → Buf (Elt Ideal) ((c : Thread nD τ).loc b)) (c : Dev nD) (t : Fin cfg0.N) (h0 : t.val % 16 = 0) (r : Fin 512) (k : Fin 4096) :
    (outsAt0 (F := Ideal) V c t.val t.isLt).2 (ix2 r k)
      = Cert.Spec.act (fun j => (iblk0 (F := Ideal) V c 0 t : S512x4096.Idx → EReal) (ix2 r j)) k := by
  rw [outsAt0_A (F := Ideal) V c t h0]
  dsimp only
  exact sout_val0 c (grid0.coords t) (ms0_0 t) (hs0_0 t) (ms0_1 t) (hs0_1 t) (ms0_2 t) (hs0_2 t) scM0 (Memref.isWhole_whole _)
      ((hcond0 t).mpr h0) (iblk0 (F := Ideal) V c 0 t) (iblk0 (F := Ideal) V c 1 t) r k

/-- Inside a row the scratch is what the point before left. -/
theorem scr0_next (V : (c : Dev nD) → (b : Ref sig .tc) → Buf (Elt Ideal) ((c : Thread nD τ).loc b)) (c : Dev nD) (n : ℕ) (hn : n + 1 < cfg0.N) (h0 : ¬(n + 1) % 16 = 0) :
    (outsAt0 (F := Ideal) V c (n + 1) hn).2 = (outsAt0 (F := Ideal) V c n (Nat.lt_of_succ_lt hn)).2 := by
  have e := outsAt0_B (F := Ideal) V c ⟨n + 1, hn⟩ h0
  exact (congrArg Prod.snd e).trans rfl

/-- After every point the scratch holds the activated block of the point's rows. -/
theorem outsAt0_scr (V : (c : Dev nD) → (b : Ref sig .tc) → Buf (Elt Ideal) ((c : Thread nD τ).loc b)) (c : Dev nD) : ∀ (n : ℕ) (hn : n < cfg0.N) (r : Fin 512) (k : Fin 4096),
    (outsAt0 (F := Ideal) V c n hn).2 (ix2 r k)
      = Cert.Spec.act (fun j => (iblk0 (F := Ideal) V c 0 ⟨n, hn⟩ : S512x4096.Idx → EReal) (ix2 r j)) k
  | 0, hn, r, k => scr0_first V c ⟨0, hn⟩ (Nat.zero_mod 16) r k
  | n + 1, hn, r, k => by
    by_cases h0 : (n + 1) % 16 = 0
    · exact scr0_first V c ⟨n + 1, hn⟩ h0 r k
    · rw [scr0_next V c n hn h0, outsAt0_scr V c n (Nat.lt_of_succ_lt hn) r k, iblk0_row V c n hn h0]

/-- After every point the output block holds the product of the point's activated rows with its weight rows. -/
theorem outsAt0_out (V : (c : Dev nD) → (b : Ref sig .tc) → Buf (Elt Ideal) ((c : Thread nD τ).loc b)) (c : Dev nD) (n : ℕ) (hn : n < cfg0.N) (p : Fin 512) (q : Fin 256) :
    (outsAt0 (F := Ideal) V c n hn).1 (ix2 p q)
      = ∑ k : Fin 4096, Cert.Spec.act (fun j => (iblk0 (F := Ideal) V c 0 ⟨n, hn⟩ : S512x4096.Idx → EReal) (ix2 p j)) k
          * (iblk0 (F := Ideal) V c 1 ⟨n, hn⟩ : S256x4096.Idx → EReal) (ix2 q k) := by
  by_cases h0 : n % 16 = 0
  · rw [show outsAt0 (F := Ideal) V c n hn = _ from outsAt0_A (F := Ideal) V c ⟨n, hn⟩ h0]
    dsimp only
    exact out_valA0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0 (Memref.isWhole_whole _)
        ((hcond0 ⟨n, hn⟩).mpr h0) (iblk0 (F := Ideal) V c 0 ⟨n, hn⟩) (iblk0 (F := Ideal) V c 1 ⟨n, hn⟩) p q
  · obtain ⟨m, rfl⟩ : ∃ m, n = m + 1 := ⟨n - 1, by have : n ≠ 0 := fun e => h0 (e ▸ Nat.zero_mod 16); omega⟩
    rw [show outsAt0 (F := Ideal) V c (m + 1) hn = _ from outsAt0_B (F := Ideal) V c ⟨m + 1, hn⟩ h0]
    dsimp only
    refine (out_valB0 c (grid0.coords ⟨m + 1, hn⟩) (ms0_0 ⟨m + 1, hn⟩) (hs0_0 ⟨m + 1, hn⟩) (ms0_1 ⟨m + 1, hn⟩) (hs0_1 ⟨m + 1, hn⟩) (ms0_2 ⟨m + 1, hn⟩) (hs0_2 ⟨m + 1, hn⟩) scM0 (Memref.isWhole_whole _)
        (fun h => h0 ((hcond0 ⟨m + 1, hn⟩).mp h)) (iblk0 (F := Ideal) V c 0 ⟨m + 1, hn⟩) (iblk0 (F := Ideal) V c 1 ⟨m + 1, hn⟩)
        (outsAt0 (F := Ideal) V c m (Nat.lt_of_succ_lt hn)).2 p q).trans ?_
    refine Finset.sum_congr rfl fun k _ => ?_
    rw [outsAt0_scr V c m (Nat.lt_of_succ_lt hn) p k, iblk0_row V c m hn h0]

/-! ## The second layer's region -/

/-- What the scratch holds after a point whose second coordinate is zero: the activated block of the point's rows. -/
theorem sout_val1 (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec Ideal S512x4096 .f32) (x1 : Vec Ideal S256x4096 .bf16) (r : Fin 512) (k : Fin 4096) :
    sout1_A (F := Ideal) c i arg2 harg2 arg3 harg3 arg4 harg4 arg5 harg5 hc x0 x1 (ix2 r k) = Cert.Spec.act (fun j => x0 (ix2 r j)) k := by
  unfold sout1_A
  rw [View.read_writes_eq_canon _ _ _ (scover1_A c i arg2 harg2 arg3 harg3 arg4 harg4 arg5 harg5 hc x0 x1)]
  unfold kernelRun1_A
  dsimp only
  sl_unfold_words
  exact congrFun (slabs_canon k1_pay2 k1_pay3 k1_pay4 k1_pay5 Cert.PayValue.k1_pay2_eq Cert.PayValue.k1_pay3_eq Cert.PayValue.k1_pay4_eq Cert.PayValue.k1_pay5_eq arg2 harg2 x0 _ _ _ _) (ix2 r k)

/-- The product stored at such a point: the activated rows against the weight rows. -/
theorem out_valA1 (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k1_cond1 i = 1#1)
    (x0 : Vec Ideal S512x4096 .f32) (x1 : Vec Ideal S256x4096 .bf16) (p : Fin 512) (q : Fin 256) :
    out1_A (F := Ideal) c i arg2 harg2 arg3 harg3 arg4 harg4 arg5 harg5 hc x0 x1 (ix2 p q) = ∑ k : Fin 4096, Cert.Spec.act (fun j => x0 (ix2 p j)) k * x1 (ix2 q k) := by
  unfold out1_A
  rw [View.read_writes_eq_canon _ _ _ (cover1_A c i arg2 harg2 arg3 harg3 arg4 harg4 arg5 harg5 hc x0 x1)]
  unfold kernelRun1_A
  dsimp only
  sl_unfold_words
  rw [View.canon_unit_zero (S := S512x256) hz]
  refine (congrFun (congrArg₂ (k1_pay1 (F := Ideal)) (slabs_readCov k1_pay2 k1_pay3 k1_pay4 k1_pay5 Cert.PayValue.k1_pay2_eq Cert.PayValue.k1_pay3_eq Cert.PayValue.k1_pay4_eq Cert.PayValue.k1_pay5_eq arg2 harg2 x0 _ _ _ _ arg5.view _)
    (readAt_whole arg3 harg3 _ x1)) (ix2 p q)).trans ?_
  exact Cert.PayValue.pay_mm1 (actBlock x0) x1 p q

/-- The product stored at any other point: the scratch, as the row's first point left it, against the weight rows. -/
theorem out_valB1 (c : Dev nD) (i : grid1.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k1_cond1 i = 1#1)
    (x0 : Vec Ideal S512x4096 .f32) (x1 : Vec Ideal S256x4096 .bf16) (xs0 : Vec Ideal S512x4096 .bf16) (p : Fin 512) (q : Fin 256) :
    out1_B (F := Ideal) c i arg2 harg2 arg3 harg3 arg4 harg4 arg5 harg5 hc x0 x1 xs0 (ix2 p q) = ∑ k : Fin 4096, xs0 (ix2 p k) * x1 (ix2 q k) := by
  unfold out1_B
  rw [View.read_writes_eq_canon _ _ _ (cover1_B c i arg2 harg2 arg3 harg3 arg4 harg4 arg5 harg5 hc x0 x1 xs0)]
  unfold kernelRun1_B
  dsimp only
  sl_unfold_words
  rw [View.canon_unit_zero (S := S512x256) hz]
  rw [readAt_whole arg5 harg5 _ xs0, readAt_whole arg3 harg3 _ x1]
  exact Cert.PayValue.pay_mm1 xs0 x1 p q

/-- Inside a row of the grid the activations' block is the one of the point before. -/
theorem iblk1_row (V : (c : Dev nD) → (b : Ref sig .tc) → Buf (Elt Ideal) ((c : Thread nD τ).loc b)) (c : Dev nD) (n : ℕ) (h' : n + 1 < cfg1.N) (hne : ¬(n + 1) % 16 = 0) :
    (iblk1 (F := Ideal) V c 0 ⟨n + 1, h'⟩ : S512x4096.Idx → EReal) = iblk1 (F := Ideal) V c 0 ⟨n, Nat.lt_of_succ_lt h'⟩ := by
  have hf : win1_0.fetch ⟨n + 1, h'⟩ = false := Bool.eq_false_iff.mpr fun h => hne ((fetch1_0 ⟨n + 1, h'⟩).mp h)
  have hidx : win1_0.index ⟨n + 1, h'⟩ = win1_0.index ⟨n, Nat.lt_of_succ_lt h'⟩ :=
    (Pipeline.Window.index_eq_of_fetch win1_0 rfl ⟨n + 1, h'⟩ hf).2
  funext j
  unfold iblk1
  rw [View.read_apply, View.read_apply]
  show V c (Pipeline.arrRef spec1 0) _ = V c (Pipeline.arrRef spec1 0) _
  refine congrArg (V c (Pipeline.arrRef spec1 0)) (funext fun a => Fin.ext ?_)
  match a with
  | ⟨0, _⟩ =>
    show win1_0.index ⟨n + 1, h'⟩ 0 * 512 + 1 * (j 0).val = win1_0.index ⟨n, Nat.lt_of_succ_lt h'⟩ 0 * 512 + 1 * (j 0).val
    rw [hidx]
  | ⟨1, _⟩ =>
    show win1_0.index ⟨n + 1, h'⟩ 1 * 4096 + 1 * (j 1).val = win1_0.index ⟨n, Nat.lt_of_succ_lt h'⟩ 1 * 4096 + 1 * (j 1).val
    rw [hidx]

/-- At a row's first point the scratch is filled with the activated block of the point's rows. -/
theorem scr1_first (V : (c : Dev nD) → (b : Ref sig .tc) → Buf (Elt Ideal) ((c : Thread nD τ).loc b)) (c : Dev nD) (t : Fin cfg1.N) (h0 : t.val % 16 = 0) (r : Fin 512) (k : Fin 4096) :
    (outsAt1 (F := Ideal) V c t.val t.isLt).2 (ix2 r k)
      = Cert.Spec.act (fun j => (iblk1 (F := Ideal) V c 0 t : S512x4096.Idx → EReal) (ix2 r j)) k := by
  rw [outsAt1_A (F := Ideal) V c t h0]
  dsimp only
  exact sout_val1 c (grid1.coords t) (ms1_0 t) (hs1_0 t) (ms1_1 t) (hs1_1 t) (ms1_2 t) (hs1_2 t) scM1 (Memref.isWhole_whole _)
      ((hcond1 t).mpr h0) (iblk1 (F := Ideal) V c 0 t) (iblk1 (F := Ideal) V c 1 t) r k

/-- Inside a row the scratch is what the point before left. -/
theorem scr1_next (V : (c : Dev nD) → (b : Ref sig .tc) → Buf (Elt Ideal) ((c : Thread nD τ).loc b)) (c : Dev nD) (n : ℕ) (hn : n + 1 < cfg1.N) (h0 : ¬(n + 1) % 16 = 0) :
    (outsAt1 (F := Ideal) V c (n + 1) hn).2 = (outsAt1 (F := Ideal) V c n (Nat.lt_of_succ_lt hn)).2 := by
  have e := outsAt1_B (F := Ideal) V c ⟨n + 1, hn⟩ h0
  exact (congrArg Prod.snd e).trans rfl

/-- After every point the scratch holds the activated block of the point's rows. -/
theorem outsAt1_scr (V : (c : Dev nD) → (b : Ref sig .tc) → Buf (Elt Ideal) ((c : Thread nD τ).loc b)) (c : Dev nD) : ∀ (n : ℕ) (hn : n < cfg1.N) (r : Fin 512) (k : Fin 4096),
    (outsAt1 (F := Ideal) V c n hn).2 (ix2 r k)
      = Cert.Spec.act (fun j => (iblk1 (F := Ideal) V c 0 ⟨n, hn⟩ : S512x4096.Idx → EReal) (ix2 r j)) k
  | 0, hn, r, k => scr1_first V c ⟨0, hn⟩ (Nat.zero_mod 16) r k
  | n + 1, hn, r, k => by
    by_cases h0 : (n + 1) % 16 = 0
    · exact scr1_first V c ⟨n + 1, hn⟩ h0 r k
    · rw [scr1_next V c n hn h0, outsAt1_scr V c n (Nat.lt_of_succ_lt hn) r k, iblk1_row V c n hn h0]

/-- After every point the output block holds the product of the point's activated rows with its weight rows. -/
theorem outsAt1_out (V : (c : Dev nD) → (b : Ref sig .tc) → Buf (Elt Ideal) ((c : Thread nD τ).loc b)) (c : Dev nD) (n : ℕ) (hn : n < cfg1.N) (p : Fin 512) (q : Fin 256) :
    (outsAt1 (F := Ideal) V c n hn).1 (ix2 p q)
      = ∑ k : Fin 4096, Cert.Spec.act (fun j => (iblk1 (F := Ideal) V c 0 ⟨n, hn⟩ : S512x4096.Idx → EReal) (ix2 p j)) k
          * (iblk1 (F := Ideal) V c 1 ⟨n, hn⟩ : S256x4096.Idx → EReal) (ix2 q k) := by
  by_cases h0 : n % 16 = 0
  · rw [show outsAt1 (F := Ideal) V c n hn = _ from outsAt1_A (F := Ideal) V c ⟨n, hn⟩ h0]
    dsimp only
    exact out_valA1 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1 (Memref.isWhole_whole _)
        ((hcond1 ⟨n, hn⟩).mpr h0) (iblk1 (F := Ideal) V c 0 ⟨n, hn⟩) (iblk1 (F := Ideal) V c 1 ⟨n, hn⟩) p q
  · obtain ⟨m, rfl⟩ : ∃ m, n = m + 1 := ⟨n - 1, by have : n ≠ 0 := fun e => h0 (e ▸ Nat.zero_mod 16); omega⟩
    rw [show outsAt1 (F := Ideal) V c (m + 1) hn = _ from outsAt1_B (F := Ideal) V c ⟨m + 1, hn⟩ h0]
    dsimp only
    refine (out_valB1 c (grid1.coords ⟨m + 1, hn⟩) (ms1_0 ⟨m + 1, hn⟩) (hs1_0 ⟨m + 1, hn⟩) (ms1_1 ⟨m + 1, hn⟩) (hs1_1 ⟨m + 1, hn⟩) (ms1_2 ⟨m + 1, hn⟩) (hs1_2 ⟨m + 1, hn⟩) scM1 (Memref.isWhole_whole _)
        (fun h => h0 ((hcond1 ⟨m + 1, hn⟩).mp h)) (iblk1 (F := Ideal) V c 0 ⟨m + 1, hn⟩) (iblk1 (F := Ideal) V c 1 ⟨m + 1, hn⟩)
        (outsAt1 (F := Ideal) V c m (Nat.lt_of_succ_lt hn)).2 p q).trans ?_
    refine Finset.sum_congr rfl fun k _ => ?_
    rw [outsAt1_scr V c m (Nat.lt_of_succ_lt hn) p k, iblk1_row V c m hn h0]

/-! ## The third layer's region -/

/-- What the scratch holds after a point whose second coordinate is zero: the activated block of the point's rows. -/
theorem sout_val2 (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec Ideal S512x4096 .f32) (x1 : Vec Ideal S256x4096 .bf16) (r : Fin 512) (k : Fin 4096) :
    sout2_A (F := Ideal) c i arg2 harg2 arg3 harg3 arg4 harg4 arg5 harg5 hc x0 x1 (ix2 r k) = Cert.Spec.act (fun j => x0 (ix2 r j)) k := by
  unfold sout2_A
  rw [View.read_writes_eq_canon _ _ _ (scover2_A c i arg2 harg2 arg3 harg3 arg4 harg4 arg5 harg5 hc x0 x1)]
  unfold kernelRun2_A
  dsimp only
  sl_unfold_words
  exact congrFun (slabs_canon k2_pay2 k2_pay3 k2_pay4 k2_pay5 Cert.PayValue.k2_pay2_eq Cert.PayValue.k2_pay3_eq Cert.PayValue.k2_pay4_eq Cert.PayValue.k2_pay5_eq arg2 harg2 x0 _ _ _ _) (ix2 r k)

/-- The product stored at such a point: the activated rows against the weight rows. -/
theorem out_valA2 (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : k2_cond1 i = 1#1)
    (x0 : Vec Ideal S512x4096 .f32) (x1 : Vec Ideal S256x4096 .bf16) (p : Fin 512) (q : Fin 256) :
    out2_A (F := Ideal) c i arg2 harg2 arg3 harg3 arg4 harg4 arg5 harg5 hc x0 x1 (ix2 p q) = ∑ k : Fin 4096, Cert.Spec.act (fun j => x0 (ix2 p j)) k * x1 (ix2 q k) := by
  unfold out2_A
  rw [View.read_writes_eq_canon _ _ _ (cover2_A c i arg2 harg2 arg3 harg3 arg4 harg4 arg5 harg5 hc x0 x1)]
  unfold kernelRun2_A
  dsimp only
  sl_unfold_words
  rw [View.canon_unit_zero (S := S512x256) hz]
  refine (congrFun (congrArg₂ (k2_pay1 (F := Ideal)) (slabs_readCov k2_pay2 k2_pay3 k2_pay4 k2_pay5 Cert.PayValue.k2_pay2_eq Cert.PayValue.k2_pay3_eq Cert.PayValue.k2_pay4_eq Cert.PayValue.k2_pay5_eq arg2 harg2 x0 _ _ _ _ arg5.view _)
    (readAt_whole arg3 harg3 _ x1)) (ix2 p q)).trans ?_
  exact Cert.PayValue.pay_mm2 (actBlock x0) x1 p q

/-- The product stored at any other point: the scratch, as the row's first point left it, against the weight rows. -/
theorem out_valB2 (c : Dev nD) (i : grid2.Coords) (arg2 : Memref sig .tc .vmem S512x4096 .f32) (harg2 : arg2.IsWhole) (arg3 : Memref sig .tc .vmem S256x4096 .bf16) (harg3 : arg3.IsWhole) (arg4 : Memref sig .tc .vmem S512x256 .f32) (harg4 : arg4.IsWhole) (arg5 : Memref sig .tc .vmem S512x4096 .bf16) (harg5 : arg5.IsWhole) (hc : ¬k2_cond1 i = 1#1)
    (x0 : Vec Ideal S512x4096 .f32) (x1 : Vec Ideal S256x4096 .bf16) (xs0 : Vec Ideal S512x4096 .bf16) (p : Fin 512) (q : Fin 256) :
    out2_B (F := Ideal) c i arg2 harg2 arg3 harg3 arg4 harg4 arg5 harg5 hc x0 x1 xs0 (ix2 p q) = ∑ k : Fin 4096, xs0 (ix2 p k) * x1 (ix2 q k) := by
  unfold out2_B
  rw [View.read_writes_eq_canon _ _ _ (cover2_B c i arg2 harg2 arg3 harg3 arg4 harg4 arg5 harg5 hc x0 x1 xs0)]
  unfold kernelRun2_B
  dsimp only
  sl_unfold_words
  rw [View.canon_unit_zero (S := S512x256) hz]
  rw [readAt_whole arg5 harg5 _ xs0, readAt_whole arg3 harg3 _ x1]
  exact Cert.PayValue.pay_mm2 xs0 x1 p q

/-- Inside a row of the grid the activations' block is the one of the point before. -/
theorem iblk2_row (V : (c : Dev nD) → (b : Ref sig .tc) → Buf (Elt Ideal) ((c : Thread nD τ).loc b)) (c : Dev nD) (n : ℕ) (h' : n + 1 < cfg2.N) (hne : ¬(n + 1) % 16 = 0) :
    (iblk2 (F := Ideal) V c 0 ⟨n + 1, h'⟩ : S512x4096.Idx → EReal) = iblk2 (F := Ideal) V c 0 ⟨n, Nat.lt_of_succ_lt h'⟩ := by
  have hf : win2_0.fetch ⟨n + 1, h'⟩ = false := Bool.eq_false_iff.mpr fun h => hne ((fetch2_0 ⟨n + 1, h'⟩).mp h)
  have hidx : win2_0.index ⟨n + 1, h'⟩ = win2_0.index ⟨n, Nat.lt_of_succ_lt h'⟩ :=
    (Pipeline.Window.index_eq_of_fetch win2_0 rfl ⟨n + 1, h'⟩ hf).2
  funext j
  unfold iblk2
  rw [View.read_apply, View.read_apply]
  show V c (Pipeline.arrRef spec2 0) _ = V c (Pipeline.arrRef spec2 0) _
  refine congrArg (V c (Pipeline.arrRef spec2 0)) (funext fun a => Fin.ext ?_)
  match a with
  | ⟨0, _⟩ =>
    show win2_0.index ⟨n + 1, h'⟩ 0 * 512 + 1 * (j 0).val = win2_0.index ⟨n, Nat.lt_of_succ_lt h'⟩ 0 * 512 + 1 * (j 0).val
    rw [hidx]
  | ⟨1, _⟩ =>
    show win2_0.index ⟨n + 1, h'⟩ 1 * 4096 + 1 * (j 1).val = win2_0.index ⟨n, Nat.lt_of_succ_lt h'⟩ 1 * 4096 + 1 * (j 1).val
    rw [hidx]

/-- At a row's first point the scratch is filled with the activated block of the point's rows. -/
theorem scr2_first (V : (c : Dev nD) → (b : Ref sig .tc) → Buf (Elt Ideal) ((c : Thread nD τ).loc b)) (c : Dev nD) (t : Fin cfg2.N) (h0 : t.val % 16 = 0) (r : Fin 512) (k : Fin 4096) :
    (outsAt2 (F := Ideal) V c t.val t.isLt).2 (ix2 r k)
      = Cert.Spec.act (fun j => (iblk2 (F := Ideal) V c 0 t : S512x4096.Idx → EReal) (ix2 r j)) k := by
  rw [outsAt2_A (F := Ideal) V c t h0]
  dsimp only
  exact sout_val2 c (grid2.coords t) (ms2_0 t) (hs2_0 t) (ms2_1 t) (hs2_1 t) (ms2_2 t) (hs2_2 t) scM2 (Memref.isWhole_whole _)
      ((hcond2 t).mpr h0) (iblk2 (F := Ideal) V c 0 t) (iblk2 (F := Ideal) V c 1 t) r k

/-- Inside a row the scratch is what the point before left. -/
theorem scr2_next (V : (c : Dev nD) → (b : Ref sig .tc) → Buf (Elt Ideal) ((c : Thread nD τ).loc b)) (c : Dev nD) (n : ℕ) (hn : n + 1 < cfg2.N) (h0 : ¬(n + 1) % 16 = 0) :
    (outsAt2 (F := Ideal) V c (n + 1) hn).2 = (outsAt2 (F := Ideal) V c n (Nat.lt_of_succ_lt hn)).2 := by
  have e := outsAt2_B (F := Ideal) V c ⟨n + 1, hn⟩ h0
  exact (congrArg Prod.snd e).trans rfl

/-- After every point the scratch holds the activated block of the point's rows. -/
theorem outsAt2_scr (V : (c : Dev nD) → (b : Ref sig .tc) → Buf (Elt Ideal) ((c : Thread nD τ).loc b)) (c : Dev nD) : ∀ (n : ℕ) (hn : n < cfg2.N) (r : Fin 512) (k : Fin 4096),
    (outsAt2 (F := Ideal) V c n hn).2 (ix2 r k)
      = Cert.Spec.act (fun j => (iblk2 (F := Ideal) V c 0 ⟨n, hn⟩ : S512x4096.Idx → EReal) (ix2 r j)) k
  | 0, hn, r, k => scr2_first V c ⟨0, hn⟩ (Nat.zero_mod 16) r k
  | n + 1, hn, r, k => by
    by_cases h0 : (n + 1) % 16 = 0
    · exact scr2_first V c ⟨n + 1, hn⟩ h0 r k
    · rw [scr2_next V c n hn h0, outsAt2_scr V c n (Nat.lt_of_succ_lt hn) r k, iblk2_row V c n hn h0]

/-- After every point the output block holds the product of the point's activated rows with its weight rows. -/
theorem outsAt2_out (V : (c : Dev nD) → (b : Ref sig .tc) → Buf (Elt Ideal) ((c : Thread nD τ).loc b)) (c : Dev nD) (n : ℕ) (hn : n < cfg2.N) (p : Fin 512) (q : Fin 256) :
    (outsAt2 (F := Ideal) V c n hn).1 (ix2 p q)
      = ∑ k : Fin 4096, Cert.Spec.act (fun j => (iblk2 (F := Ideal) V c 0 ⟨n, hn⟩ : S512x4096.Idx → EReal) (ix2 p j)) k
          * (iblk2 (F := Ideal) V c 1 ⟨n, hn⟩ : S256x4096.Idx → EReal) (ix2 q k) := by
  by_cases h0 : n % 16 = 0
  · rw [show outsAt2 (F := Ideal) V c n hn = _ from outsAt2_A (F := Ideal) V c ⟨n, hn⟩ h0]
    dsimp only
    exact out_valA2 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2 (Memref.isWhole_whole _)
        ((hcond2 ⟨n, hn⟩).mpr h0) (iblk2 (F := Ideal) V c 0 ⟨n, hn⟩) (iblk2 (F := Ideal) V c 1 ⟨n, hn⟩) p q
  · obtain ⟨m, rfl⟩ : ∃ m, n = m + 1 := ⟨n - 1, by have : n ≠ 0 := fun e => h0 (e ▸ Nat.zero_mod 16); omega⟩
    rw [show outsAt2 (F := Ideal) V c (m + 1) hn = _ from outsAt2_B (F := Ideal) V c ⟨m + 1, hn⟩ h0]
    dsimp only
    refine (out_valB2 c (grid2.coords ⟨m + 1, hn⟩) (ms2_0 ⟨m + 1, hn⟩) (hs2_0 ⟨m + 1, hn⟩) (ms2_1 ⟨m + 1, hn⟩) (hs2_1 ⟨m + 1, hn⟩) (ms2_2 ⟨m + 1, hn⟩) (hs2_2 ⟨m + 1, hn⟩) scM2 (Memref.isWhole_whole _)
        (fun h => h0 ((hcond2 ⟨m + 1, hn⟩).mp h)) (iblk2 (F := Ideal) V c 0 ⟨m + 1, hn⟩) (iblk2 (F := Ideal) V c 1 ⟨m + 1, hn⟩)
        (outsAt2 (F := Ideal) V c m (Nat.lt_of_succ_lt hn)).2 p q).trans ?_
    refine Finset.sum_congr rfl fun k _ => ?_
    rw [outsAt2_scr V c m (Nat.lt_of_succ_lt hn) p k, iblk2_row V c m hn h0]

end Cert.BlockValue

end
-- ==== Proof.Assemble.lean ====
import proofs.«146089_j31688268710666_2_alg».proof.Defs
import proofs.«146089_j31688268710666_2_alg».proof.Proof.IdealValueRun
import proofs.«146089_j31688268710666_2_alg».proof.Proof.TernValue
import proofs.«146089_j31688268710666_2_alg».proof.Proof.ArrayValue
import proofs.«146089_j31688268710666_2_alg».proof.Proof.BlockValue
import proofs.«146089_j31688268710666_2_alg».proof.Proof.RefValue

/-! The two idealized programs compute one function.

The kernel's program leaves in its result array three layers applied in turn: each region's output array is one layer
(`Cert.Spec.block`) of the array the region reads as activations and of the ternarised weights the host stretch before it
wrote; the first region reads the first argument, each later one the array the region before it left. The reference's run
ends at the same composition (`Cert.Spec.mlp`), the ternarisation being the same host operations in both programs. -/

noncomputable section

namespace Cert.Assemble

open Idealize.ShloMosaic Idealize.ShloMosaic.TcCoe Idealize.SL.Sem
open Cert.KernelIdeal Cert.KernelIdeal.Gen Cert.KernelIdeal.Hand

/-- The ternarisation of a weight matrix, as the reference's host operations compute it. -/
abbrev tern : (Cert.Spec.SW.Idx → EReal) → (Cert.Spec.SW.Idx → EReal) := Cert.ReferenceIdeal.Read.val_main_v18 (F := Ideal)

variable (m : (ℓ : Loc nD τ sig) → Buf (Elt Ideal) ℓ) (c : Dev nD)

/-- The first region leaves the first layer of the first argument. -/
theorem layer0 : (out6 (F := Ideal) m c : Cert.Spec.SX.Idx → EReal)
    = Cert.Spec.block (m ((c : Thread nD τ).loc main_arg0)) (tern (m ((c : Thread nD τ).loc main_arg1))) := by
  unfold out6
  rw [Cert.ArrayValue.final0 (E0 m) c (Cert.BlockValue.outsAt0_out (E0 m) c)]
  show Cert.Spec.block (V5 m c main_arg0) (V5 m c main_v8) = _
  rw [Cert.TernValue.x0 m c, Cert.TernValue.tern0 m c]

/-- The second region leaves the second layer of what the first left. -/
theorem layer1 : (out12 (F := Ideal) m c : Cert.Spec.SX.Idx → EReal)
    = Cert.Spec.block (out6 (F := Ideal) m c) (tern (m ((c : Thread nD τ).loc main_arg2))) := by
  unfold out12
  rw [Cert.ArrayValue.final1 (E1 m) c (Cert.BlockValue.outsAt1_out (E1 m) c)]
  show Cert.Spec.block (V11 m (outsA m) c main_v9) (V11 m (outsA m) c main_v18) = _
  rw [Cert.TernValue.x1 m (outsA m) c, Cert.TernValue.tern1 m (outsA m) c, outsA_v9]

/-- The third region leaves the third layer of what the second left. -/
theorem layer2 : (out18 (F := Ideal) m c : Cert.Spec.SX.Idx → EReal)
    = Cert.Spec.block (out12 (F := Ideal) m c) (tern (m ((c : Thread nD τ).loc main_arg3))) := by
  unfold out18
  rw [Cert.ArrayValue.final2 (E2 m) c (Cert.BlockValue.outsAt2_out (E2 m) c)]
  show Cert.Spec.block (V17 m (outsB m) c main_v19) (V17 m (outsB m) c main_v28) = _
  rw [Cert.TernValue.x2 m (outsB m) c, Cert.TernValue.tern2 m (outsB m) c, outsB_v19]

/-- The result array after the run is the three-layer network of the arguments. -/
theorem result : (out18 (F := Ideal) m c : Cert.Spec.SX.Idx → EReal)
    = Cert.Spec.mlp tern (m ((c : Thread nD τ).loc main_arg0)) (m ((c : Thread nD τ).loc main_arg1))
        (m ((c : Thread nD τ).loc main_arg2)) (m ((c : Thread nD τ).loc main_arg3)) := by
  unfold Cert.Spec.mlp
  rw [layer2, layer1, layer0]

/-- Both idealized programs, run from memories that agree on the arguments, end with the three-layer network of the
    arguments in their result arrays, the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.mlp tern (m ((c : Thread nD τ).loc main_arg0)) (m ((c : Thread nD τ).loc main_arg1))
        (m ((c : Thread nD τ).loc main_arg2)) (m ((c : Thread nD τ).loc main_arg3)), ?_, ?_⟩
  · exact (θ_run (Cert.KernelIdeal.defs (F := Ideal)) _ _).mono (fun r h c => ⟨(h c).1.trans (result m c), (h c).2⟩)
      (run_full (F := Ideal) m ρ)
  · refine (θ_run (Cert.ReferenceIdeal.defs (F := Ideal)) _ _).mono (fun r h c => ⟨(h c).1.trans ?_, (h c).2⟩)
      (Cert.RefValue.ref_run m' ρ')
    rw [(hagree c).1, (hagree c).2.1, (hagree c).2.2.1, (hagree c).2.2.2]

end Cert.Assemble

end
-- ==== Proof.lean ====
/- The proof of `Cert.Claim`: the word-level kernel's frame, the idealized kernel's frame, the reference's frame, the
   (empty) ledger of the ideal pass, and the equality of the two idealized programs' results over the extended reals.

   The program is three layers; each layer normalises every row of its input by the root of the mean of its squares,
   passes it through t * logistic t, and multiplies by the transposed ternarised weight matrix. The kernel's program
   runs a layer as one pallas_call on a 16 x 16 grid: the activated rows of a 512-row block are kept in a scratch,
   filled when the second grid coordinate is zero and read at the other fifteen points of the row block. Each program's
   frame follows that schedule; the value claim reads each region's output array as one whole-array function of the
   arrays it is entered with and composes the three. -/
import proofs.«146089_j31688268710666_2_alg».proof.Defs
import proofs.«146089_j31688268710666_2_alg».proof.Proof.Gen.Kernel
import proofs.«146089_j31688268710666_2_alg».proof.Proof.Gen.KernelIdeal
import proofs.«146089_j31688268710666_2_alg».proof.Proof.Gen.ReferenceIdeal
import proofs.«146089_j31688268710666_2_alg».proof.Proof.Gen.Pre_finite_inputs
import proofs.«146089_j31688268710666_2_alg».proof.Proof.Gen.ReferenceIdeal.Run
import proofs.«146089_j31688268710666_2_alg».proof.Proof.Gen.ReferenceIdeal.Read
import proofs.«146089_j31688268710666_2_alg».proof.Proof.BitsFrame
import proofs.«146089_j31688268710666_2_alg».proof.Proof.IdealFrame
import proofs.«146089_j31688268710666_2_alg».proof.Proof.RefValue
import proofs.«146089_j31688268710666_2_alg».proof.Proof.Assemble

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.RefValue.frame_ri,
  trivial,
  Cert.Assemble.algebraic⟩

end Cert.Proof

end
